-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S32x512 : Shape := ⟨2, ![32, 512]⟩
abbrev S32 : Shape := ⟨1, ![32]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  reducesTo_S8192x8192_S8192_d0 : S8192x8192.ReducesTo [0] S8192
  bcast_S_S8192 : S_.BroadcastsInDim S8192 (![] : Fin 0 → Fin S8192.rank)
  reducesTo_S8192_S_d0 : S8192.ReducesTo [0] S_

variable [Facts]

def fn_part2 {F : FTy → Type} [FloatOps F] (main_arg1 : FVec F S8192x8192 .f32) (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_cst_14 : FVec F S_ .f32 := constant S_ .f32 0x00000000#32
  let main_v39 : FVec F S8192 .f32 := (fun x v => Host.reduceAdd x v reducesTo_S8192x8192_S8192_d0 h_S_) main_arg1 main_cst_14
  let main_cst_15 : FVec F S_ .f32 := constant S_ .f32 0x00000000#32
  let main_v40 : FVec F S8192 .f32 := broadcastInDim S8192 ![] bcast_S_S8192 main_cst_15
  let main_v41 : IVec S8192 1 := cmpf .ogt main_v39 main_v40
  let main_c_16 : IVec S_ 1 := constantI S_ 1 1#1
  let main_v42 : IVec S_ 1 := (fun x v => Host.reduce IntOp.andi x v reducesTo_S8192_S_d0 h_S_) main_v41 main_c_16
  let main_v43 : IVec S_ 1 := andi main_v38 main_v42
  main_v43

def fn_part1 {F : FTy → Type} [FloatOps F] (main_arg1 : FVec F S8192x8192 .f32) (main_arg4 : FVec F S512x512 .f32) (main_arg5 : FVec F S512 .f32) (main_arg6 : FVec F S32x512 .f32) (main_arg7 : FVec F S32 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S32x512 .f32 := Host.absf main_arg6
  let main_cst_10 : FVec F S_ .f32 := constant S_ .f32 0x7F800000#32
  let main_v30 : FVec F S32x512 .f32 := broadcastInDim S32x512 ![] bcast_S_S32x512 main_cst_10
  let main_v31 : IVec S32x512 1 := cmpf .olt main_v29 main_v30
  let main_c_11 : IVec S_ 1 := constantI S_ 1 1#1
  let main_v32 : IVec S_ 1 := (fun x v => Host.reduce IntOp.andi x v reducesTo_S32x512_S_d0_1 h_S_) main_v31 main_c_11
  let main_v33 : IVec S_ 1 := andi main_v28 main_v32
  fn_part2 (F := F) main_arg1 main_arg7 main_v33

def fn {F : FTy → Type} [FloatOps F] (main_arg0 : FVec F S8192x512 .f32) (main_arg1 : FVec F S8192x8192 .f32) (main_arg2 : FVec F S512x512 .f32) (main_arg3 : FVec F S512 .f32) (main_arg4 : FVec F S512x512 .f32) (main_arg5 : FVec F S512 .f32) (main_arg6 : FVec F S32x512 .f32) (main_arg7 : FVec F S32 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg4 main_arg5 main_arg6 main_arg7 main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S32x512 : Shape := ⟨2, ![32, 512]⟩
abbrev S32 : Shape := ⟨1, ![32]⟩
abbrev S1x8192 : Shape := ⟨2, ![1, 8192]⟩
abbrev S1024x1024 : Shape := ⟨2, ![1024, 1024]⟩
abbrev S1x1024 : Shape := ⟨2, ![1, 1024]⟩
abbrev S1024 : Shape := ⟨1, ![1024]⟩
abbrev S8192 : Shape := ⟨1, ![8192]⟩
abbrev S512x32 : Shape := ⟨2, ![512, 32]⟩
abbrev S8192x1 : Shape := ⟨2, ![8192, 1]⟩
abbrev S1x512 : Shape := ⟨2, ![1, 512]⟩
abbrev S1024x1 : Shape := ⟨2, ![1024, 1]⟩
abbrev S1024x512 : Shape := ⟨2, ![1024, 512]⟩
abbrev S1x32 : Shape := ⟨2, ![1, 32]⟩
abbrev S8192x32 : Shape := ⟨2, ![8192, 32]⟩
abbrev S1024x32 : Shape := ⟨2, ![1024, 32]⟩

abbrev nBuf : Space → Nat
  | .hbm => 26
  | .vmem => 34
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S32x512, .f32⟩
  | .hbm, ⟨7, _⟩ => ⟨S32, .f32⟩
  | .hbm, ⟨8, _⟩ => ⟨S1x8192, .f32⟩
  | .hbm, ⟨9, _⟩ => ⟨S8192x8192, .bf16⟩
  | .hbm, ⟨10, _⟩ => ⟨S8192, .f32⟩
  | .hbm, ⟨11, _⟩ => ⟨S8192, .f32⟩
  | .hbm, ⟨12, _⟩ => ⟨S512x512, .f32⟩
  | .hbm, ⟨13, _⟩ => ⟨S512x512, .bf16⟩
  | .hbm, ⟨14, _⟩ => ⟨S512x512, .f32⟩
  | .hbm, ⟨15, _⟩ => ⟨S512x512, .bf16⟩
  | .hbm, ⟨16, _⟩ => ⟨S512x32, .f32⟩
  | .hbm, ⟨17, _⟩ => ⟨S512x32, .bf16⟩
  | .hbm, ⟨18, _⟩ => ⟨S8192x1, .f32⟩
  | .hbm, ⟨19, _⟩ => ⟨S1x512, .f32⟩
  | .hbm, ⟨20, _⟩ => ⟨S8192x512, .f32⟩
  | .hbm, ⟨21, _⟩ => ⟨S8192x1, .f32⟩
  | .hbm, ⟨22, _⟩ => ⟨S1x512, .f32⟩
  | .hbm, ⟨23, _⟩ => ⟨S1x32, .f32⟩
  | .hbm, ⟨24, _⟩ => ⟨S8192x512, .f32⟩
  | .hbm, ⟨25, _⟩ => ⟨S8192x32, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1024, .bf16⟩
  | .local _ .vmem, ⟨11, _⟩ => ⟨S1024x1024, .bf16⟩
  | .local _ .vmem, ⟨12, _⟩ => ⟨S8192x512, .f32⟩
  | .local _ .vmem, ⟨13, _⟩ => ⟨S512x512, .bf16⟩
  | .local _ .vmem, ⟨14, _⟩ => ⟨S1x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1024, .bf16⟩
  | .local _ .vmem, ⟨23, _⟩ => ⟨S1024x1024, .bf16⟩
  | .local _ .vmem, ⟨24, _⟩ => ⟨S8192x512, .f32⟩
  | .local _ .vmem, ⟨25, _⟩ => ⟨S512x512, .bf16⟩
  | .local _ .vmem, ⟨26, _⟩ => ⟨S1x512, .f32⟩
  | .local _ .vmem, ⟨27, _⟩ => ⟨S512x32, .bf16⟩
  | .local _ .vmem, ⟨28, _⟩ => ⟨S1x32, .f32⟩
  | .local _ .vmem, ⟨29, _⟩ => ⟨S1024x512, .f32⟩
  | .local _ .vmem, ⟨30, _⟩ => ⟨S1024x512, .f32⟩
  | .local _ .vmem, ⟨31, _⟩ => ⟨S1024x32, .f32⟩
  | .local _ .vmem, ⟨32, _⟩ => ⟨S1024x32, .f32⟩
  | .local _ .vmem, ⟨33, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg8_1 : Ref sig .tc := ⟨.vmem, 30, rfl⟩
abbrev cc2_stg9_0 : Ref sig .tc := ⟨.vmem, 31, rfl⟩
abbrev cc2_stg9_1 : Ref sig .tc := ⟨.vmem, 32, rfl⟩
abbrev cc2_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29
abbrev cc2_sem9_0 : DmaSem sig := 30
abbrev cc2_sem9_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_9 : BitVec 32 := 0#32
  let v22 : BitVec 1 := Scalar.cmpi .ne v21 c0_i32_9
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8192x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![8, 8], ![false, false]⟩

def k2_mult1 (i : grid2.Coords) : BitVec 32 :=
  let arg1 : BitVec 32 := BitVec.ofNat 32 (i 1).val
  let c1024_i32 : BitVec 32 := 1024#32
  let v3 : BitVec 32 := Scalar.muli arg1 c1024_i32
  v3
def k2_off1 (i : grid2.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_9 : BitVec 32 := 0#32
  let v23 : BitVec 1 := Scalar.cmpi .ne v22 c0_i32_9
  v23

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S8192x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S512x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S512x32 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1024x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S1024x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S1x8192_S8192 : S1x8192.ShapeCasts S8192
  transposes_S512x512_S512x512_1_0 : S512x512.Transposes [1, 0] S512x512
  transposes_S32x512_S512x32_1_0 : S32x512.Transposes [1, 0] S512x32
  shapeCasts_S8192_S8192x1 : S8192.ShapeCasts S8192x1
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  shapeCasts_S1024x1024_S1024x1024 : S1024x1024.ShapeCasts S1024x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S32_S1x32 : S32.ShapeCasts S1x32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S1024x32_S1024x32_0_0 : ∀ a, (![0, 0] : Fin 2 → Nat) a + S1024x32.size a ≤ S1024x32.size a
  h_S1024x32 : 0 < S1024x32.numel
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  dot_S1024x512_S512x32_S1024x32_1_0_0_1_n_n_wf : DotDims.WF S1024x512 S512x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .bf16 = 32 ∨ (Rect.block (s := S8192x8192) S1024x1024.size (cc0_transform_2 i) (hinb0_2 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .bf16 = 32 ∨ (Rect.block (s := S8192x8192) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x512.size a ≤ S8192x512.size a
  hwx1_3 : ∀ i : grid1.Coords, EltTy.bits .f32 = 32 ∨ (Rect.block (s := S8192x512) S8192x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S8192x512.size a
  hwx1_6 : ∀ i : grid1.Coords, EltTy.bits .f32 = 32 ∨ (Rect.block (s := S8192x512) S1024x512.size (cc1_transform_6 i) (hinb1_6 i)).WholeWords (EltTy.packing .f32)
  hrank2 : 0 < grid2.rank
  k2_mult1_dvd : ∀ i : grid2.Coords, 1024 ∣ (k2_mult1 i).toNat
  k2_off1_inb : ∀ i : grid2.Coords, ∀ a, (k2_off1 i) a + S1024x512.size a ≤ S8192x512.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1.size a ≤ S8192x1.size a
  hwx2_0 : ∀ i : grid2.Coords, EltTy.bits .f32 = 32 ∨ (Rect.block (s := S8192x1) S1024x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S8192x1.size a
  hwx2_1 : ∀ i : grid2.Coords, EltTy.bits .f32 = 32 ∨ (Rect.block (s := S8192x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .bf16 = 32 ∨ (Rect.block (s := S8192x8192) S1024x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8192x512.size a ≤ S8192x512.size a
  hwx2_3 : ∀ i : grid2.Coords, EltTy.bits .f32 = 32 ∨ (Rect.block (s := S8192x512) S8192x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x512.size a
  hwx2_4 : ∀ i : grid2.Coords, EltTy.bits .bf16 = 32 ∨ (Rect.block (s := S512x512) S512x512.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512x32.size a ≤ S512x32.size a
  hwx2_6 : ∀ i : grid2.Coords, EltTy.bits .bf16 = 32 ∨ (Rect.block (s := S512x32) S512x32.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x512.size a ≤ S8192x512.size a
  hwx2_8 : ∀ i : grid2.Coords, EltTy.bits .f32 = 32 ∨ (Rect.block (s := S8192x512) S1024x512.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1024x32.size a ≤ S8192x32.size a
  hwx2_9 : ∀ i : grid2.Coords, EltTy.bits .f32 = 32 ∨ (Rect.block (s := S8192x32) S1024x32.size (cc2_transform_9 i) (hinb2_9 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S8192x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1024x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v12) S1024x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S8192x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S512x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S512x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v14) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v15_0) S1024x512.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v15_1) S1024x32.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | 9 => fun i => !(k2_cond2 i == 1#1) | ⟨_ + 10, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S32x512 : Shape := ⟨2, ![32, 512]⟩
abbrev S32 : Shape := ⟨1, ![32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x512 : Shape := ⟨2, ![1, 512]⟩
abbrev S512x32 : Shape := ⟨2, ![512, 32]⟩
abbrev S8192x32 : Shape := ⟨2, ![8192, 32]⟩
abbrev S1x32 : Shape := ⟨2, ![1, 32]⟩

abbrev nBuf : Space → Nat
  | .hbm => 40
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S32x512, .f32⟩
  | .hbm, ⟨7, _⟩ => ⟨S32, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x8192, .f32⟩
  | .hbm, ⟨13, _⟩ => ⟨S8192x8192, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S8192x512, .f32⟩
  | .hbm, ⟨18, _⟩ => ⟨S512x512, .f32⟩
  | .hbm, ⟨19, _⟩ => ⟨S8192x512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S512x512, .f32⟩
  | .hbm, ⟨28, _⟩ => ⟨S8192x512, .f32⟩
  | .hbm, ⟨29, _⟩ => ⟨S1x512, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S512x32, .f32⟩
  | .hbm, ⟨36, _⟩ => ⟨S8192x32, .f32⟩
  | .hbm, ⟨37, _⟩ => ⟨S1x32, .f32⟩
  | .hbm, ⟨38, _⟩ => ⟨S8192x32, .f32⟩
  | .hbm, ⟨39, _⟩ => ⟨S8192x32, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_cst : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  reducesTo_S8192x8192_S8192_d0 : S8192x8192.ReducesTo [0] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  transposes_S32x512_S512x32_1_0 : S32x512.Transposes [1, 0] S512x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []
  dot_S8192x512_S512x32_S8192x32_1_0_0_1_n_n_wf : DotDims.WF S8192x512 S512x32 S8192x32 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf

class Facts : Prop extends Facts₀ where

variable [Facts]
-- ==== Proof.K.R0Runs.lean ====
/-
  The column-sum pass (the first of the three kernels), one grid point at a time.

  The grid is 8 column tiles by 8 row tiles, the row tile r innermost. At a point the body holds a 1024 × 1024 tile of
  the adjacency, a 1 × 1024 strip of running column sums, and a 1024 × 1024 tile of the half-precision copy. When r = 0
  the strip is first set to zero; at every point the tile's column sums are added to the strip and the tile is copied.
  Two cases therefore: r = 0 (the strip's earlier contents are irrelevant) and r > 0 (the strip continues from what the
  point before left, since it is written back only after the last row tile).
  Stated here: the tile a window shows at a point, read off the array as the kernel finds it; the branch condition in
  closed form over the grid; and, per case, that the body run on whole staging buffers ends with the tile untouched and
  each output buffer overwritten by a list of stored pieces, the list being found by running the body.
-/
import proofs.«123374_j59193239273550_2_alg».proof.Proof.Gen.Kernel.Launch
import proofs.«123374_j59193239273550_2_alg».proof.Proof.Gen.Kernel.Skeleton
import proofs.«123374_j59193239273550_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile's staging buffer holds the tile at every point (it is fetched at every point), for any proof
    data whose array is the entry contents and whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The branch condition -/

/-- "The row tile is the first": the body's one conditional, from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging buffers at a point -/

/-- One staging buffer of each output window, through which its contents are stated. -/
abbrev VO0_1 : View sig .tc .vmem S1x1024 .f32 := (Memref.whole cc0_stg1_0 : Memref sig .tc .vmem S1x1024 .f32).view
abbrev VO0_2 : View sig .tc .vmem S1024x1024 .bf16 := (Memref.whole cc0_stg2_0 : Memref sig .tc .vmem S1024x1024 .bf16).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)

/-! ## The body, case by case -/

set_option maxHeartbeats 1000000 in
/-- FIRST ROW TILE. On whole staging buffers, the tile at `x0` and both outputs at anything, the body ends with the tile
    as it was and each output overwritten by its stored pieces (last first). -/
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : cond0_0 i)
    (x0 : Vec F S1024x1024 .f32) :
    Σ' (L1 : List (View.Piece (Elt F) S1x1024 .f32)), { L2 : List (View.Piece (Elt F) S1024x1024 .bf16) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__colsum_kernel i arg2 harg2 arg3 harg3 arg4 harg4) K } := by
  refine ⟨?_, ?_, fun E K => ?run⟩
  case run =>
    simp only [cc0__colsum_kernel_eq_skeleton]; unfold cc0__colsum_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

set_option maxHeartbeats 1000000 in
/-- A LATER ROW TILE. The same, the strip of running sums at the contents `xo1` the point before left. -/
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : ¬cond0_0 i)
    (x0 : Vec F S1024x1024 .f32) (xo1 : Vec F S1x1024 .f32) :
    Σ' (L1 : List (View.Piece (Elt F) S1x1024 .f32)), { L2 : List (View.Piece (Elt F) S1024x1024 .bf16) //
      ∀ (E : Set ℕ) (K : PUnit → sProp 𝕄),
        iprop(owns (c : Thread nD τ) arg2 fullShare x0 ∗ owns (c : Thread nD τ) arg3 fullShare xo1 ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__colsum_kernel i arg2 harg2 arg3 harg3 arg4 harg4) K } := by
  refine ⟨?_, ?_, fun E K => ?run⟩
  case run =>
    simp only [cc0__colsum_kernel_eq_skeleton]; unfold cc0__colsum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; iexact H1
    iexists _; iexact H2

end Cert.Kernel.Hand

end
-- ==== Proof.K.R0.lean ====
/-
  The column-sum pass over the whole grid: what the two output buffers hold after each point, and that the body does
  what the pipeline asks of it at every point.

  After a point the strip of running sums holds: at a first row tile (r = 0) what the body stores over any earlier
  contents; at a later one what the body stores over the strip the point before left. The half-precision tile is
  stored whole at every point. The stores of each case tile the buffer they go to, so the buffer's contents after the
  body are those stores read back, whatever it held before.
-/
import proofs.«123374_j59193239273550_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover0_A_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : cond0_0 i) (x0 : Vec F S1024x1024 .f32) (y : S1x1024.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S1x1024.size (by sl_kernel_rfl) y
theorem cover0_A_2 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : cond0_0 i) (x0 : Vec F S1024x1024 .f32) (y : S1024x1024.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S1024x1024.size (by sl_kernel_rfl) y
/-- The strip after a first-row-tile point: its stores read back. -/
def out0_A_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : cond0_0 i) (x0 : Vec F S1024x1024 .f32) : Vec F S1x1024 .f32 :=
  VO0_1.read (Elt F) (VO0_1.writes (Elt F) VO0_1.junk (kernelRun0_A c i arg2 harg2 arg3 harg3 arg4 harg4 hc0 x0).1)
/-- The half-precision tile after a first-row-tile point. -/
def out0_A_2 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : cond0_0 i) (x0 : Vec F S1024x1024 .f32) : Vec F S1024x1024 .bf16 :=
  VO0_2.read (Elt F) (VO0_2.writes (Elt F) VO0_2.junk (kernelRun0_A c i arg2 harg2 arg3 harg3 arg4 harg4 hc0 x0).2.1)

theorem cover0_B_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : ¬cond0_0 i) (x0 : Vec F S1024x1024 .f32) (xo1 : Vec F S1x1024 .f32) (y : S1x1024.Idx) :
    ∃ pc ∈ (kernelRun0_B c i arg2 harg2 arg3 harg3 arg4 harg4 hc0 x0 xo1).1, y ∈ pc.1.set :=
  View.cover_of_tiledL (kernelRun0_B c i arg2 harg2 arg3 harg3 arg4 harg4 hc0 x0 xo1).1 S1x1024.size (by sl_kernel_rfl) y
theorem cover0_B_2 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : ¬cond0_0 i) (x0 : Vec F S1024x1024 .f32) (xo1 : Vec F S1x1024 .f32) (y : S1024x1024.Idx) :
    ∃ pc ∈ (kernelRun0_B c i arg2 harg2 arg3 harg3 arg4 harg4 hc0 x0 xo1).2.1, y ∈ pc.1.set :=
  View.cover_of_tiledL (kernelRun0_B c i arg2 harg2 arg3 harg3 arg4 harg4 hc0 x0 xo1).2.1 S1024x1024.size (by sl_kernel_rfl) y
/-- The strip after a later point, over the strip `xo1` the point before left. -/
def out0_B_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : ¬cond0_0 i) (x0 : Vec F S1024x1024 .f32) (xo1 : Vec F S1x1024 .f32) : Vec F S1x1024 .f32 :=
  VO0_1.read (Elt F) (VO0_1.writes (Elt F) VO0_1.junk (kernelRun0_B c i arg2 harg2 arg3 harg3 arg4 harg4 hc0 x0 xo1).1)
def out0_B_2 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : ¬cond0_0 i) (x0 : Vec F S1024x1024 .f32) (xo1 : Vec F S1x1024 .f32) : Vec F S1024x1024 .bf16 :=
  VO0_2.read (Elt F) (VO0_2.writes (Elt F) VO0_2.junk (kernelRun0_B c i arg2 harg2 arg3 harg3 arg4 harg4 hc0 x0 xo1).2.1)

/-! ## Point by point -/

/-- The two output buffers (strip, half-precision tile) after the body at position `n`. -/
def outsAt0 (c : Dev nD) : (n : ℕ) → n < cfg0.N → Vec F S1x1024 .f32 × Vec F S1024x1024 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩),
              out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 8 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩),
       out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1,
       out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1)

theorem outsAt0_A (c : Dev nD) (t : Fin cfg0.N) (h0 : t.val % 8 = 0) :
    outsAt0 V c t.val t.isLt = (out0_A_1 c (grid0.coords t) (ms0_0 t) (hs0_0 t) (ms0_1 t) (hs0_1 t) (ms0_2 t) (hs0_2 t) ((hcond0_0 t).mpr h0) (iblk0 V c 0 t), out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_1 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1,
      out0_B_2 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The proof data -/

/-- The arrays as the kernel finds them; after the body at a point the tile's buffer at the tile and the two outputs'
    at `outsAt0`; nothing carried outside the windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d

/-- At a later row tile the strip's buffer holds what the body left at the point before: it is written back only
    after the last row tile, so not between. -/
theorem before0_1_B (c : Dev nD) (t : Fin cfg0.N) (h0 : ¬t.val % 8 = 0) (d) :
    (dat0 V c).before 1 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 64 := lt_of_lt_of_eq t.isLt (show cfg0.N = 64 from N_0)
  by_cases h0 : t.val % 8 = 0
  · rw [outsAt0_A V c t h0]
    unfold out0_A_1 out0_A_2; (try dsimp only)
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    unfold owns; iexists _; isplitr
    swap; · iexact H2
    ipureintro; exact View.read_writes_of_cover _ _ _ _ _ (cover0_A_2 c _ _ _ _ _ _ _ _ _)
  · rw [outsAt0_B V c t h0]
    simp only [before0_1_B V c t h0]
    unfold out0_B_1 out0_B_2; (try dsimp only)
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _).2.2 Set.univ _)
    isplitl [H0]; · iexact H0
    isplitl [H1]; · iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _)
    unfold owns; iexists _; isplitr
    swap; · iexact H2
    ipureintro; exact View.read_writes_of_cover _ _ _ _ _ (cover0_B_2 c _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- The invariant is the same before every point: what the launch hands the region is it, and it is given back. -/
theorem hin0 (c : Dev nD) : Pipeline.ΦA spec0 c ⊢ (dat0 V c).Φ 0 := Idealize.SL.BI.Entails.refl _
theorem hout0 (c : Dev nD) : (dat0 V c).Φ (Fin.last cfg0.N) ⊢ Pipeline.ΦA spec0 c := Idealize.SL.BI.Entails.refl _

end Cert.Kernel.Hand

end
-- ==== Proof.K.R1Runs.lean ====
/-
  Region 1, the first graph layer  H = max((d · (A (d · X))) Wᵗ + b, 0), computed tile by tile: for each block of
  1024 output rows (grid coordinate 0) the reduction coordinate k (grid coordinate 1) runs over the eight 1024-wide
  column blocks of A, and an accumulator kept between points holds the partial sum  Σ_{k' ≤ k} A[i, k'] (d ∘ X)[k'].

  This module holds what the three control cases of the body share: each window's block at a point, that an input's
  buffer holds its block at every point, the two branch conditions in closed form over the 64 points
  (k = 0 : the accumulator is reset first; k = 7 : the accumulated product is scaled, multiplied by Wᵗ, shifted by b,
  clamped at zero and stored), where the output window is idle (every point with k ≠ 7), and the region invariant
  with the accumulator singled out among the core's scoped buffers.
-/
import proofs.«123374_j59193239273550_2_alg».proof.Proof.Gen.Kernel.Launch
import proofs.«123374_j59193239273550_2_alg».proof.Proof.Gen.Kernel.Skeleton
import proofs.«123374_j59193239273550_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, so the block the point before left in place is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved, so the block the point before left in place is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved, so the block the point before left in place is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved, so the block the point before left in place is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved, so the block the point before left in place is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved, so the block the point before left in place is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- "The reduction coordinate is 0": the condition under which the accumulator is reset. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "The reduction coordinate is 7": the condition under which the layer's output block is computed and stored. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0, an input, is never idle. -/
theorem liveAt1_0 : ∀ t : Fin cfg1.N, cfg1.idle 0 (grid1.coords t) = false := by decide +kernel
/-- Window 1, an input, is never idle. -/
theorem liveAt1_1 : ∀ t : Fin cfg1.N, cfg1.idle 1 (grid1.coords t) = false := by decide +kernel
/-- Window 2, an input, is never idle. -/
theorem liveAt1_2 : ∀ t : Fin cfg1.N, cfg1.idle 2 (grid1.coords t) = false := by decide +kernel
/-- Window 3, an input, is never idle. -/
theorem liveAt1_3 : ∀ t : Fin cfg1.N, cfg1.idle 3 (grid1.coords t) = false := by decide +kernel
/-- Window 4, an input, is never idle. -/
theorem liveAt1_4 : ∀ t : Fin cfg1.N, cfg1.idle 4 (grid1.coords t) = false := by decide +kernel
/-- Window 5, an input, is never idle. -/
theorem liveAt1_5 : ∀ t : Fin cfg1.N, cfg1.idle 5 (grid1.coords t) = false := by decide +kernel
/-- Where k = 0 the output window is idle: nothing is stored into it, -/
theorem idleAt1_6_A : ∀ t : Fin cfg1.N, cond1_0 (grid1.coords t) → ¬cond1_1 (grid1.coords t) → cfg1.idle 6 (grid1.coords t) = true := by decide +kernel
/-- and its block is not written back. -/
theorem noFlush1_6_A : ∀ t : Fin cfg1.N, cond1_0 (grid1.coords t) → ¬cond1_1 (grid1.coords t) → (cfg1.win 6).flush t = false := by decide +kernel
/-- Where 0 < k < 7 the output window is idle, -/
theorem idleAt1_6_B : ∀ t : Fin cfg1.N, ¬cond1_0 (grid1.coords t) → ¬cond1_1 (grid1.coords t) → cfg1.idle 6 (grid1.coords t) = true := by decide +kernel
/-- and its block is not written back. -/
theorem noFlush1_6_B : ∀ t : Fin cfg1.N, ¬cond1_0 (grid1.coords t) → ¬cond1_1 (grid1.coords t) → (cfg1.win 6).flush t = false := by decide +kernel
/-- Where k = 7 the output window is live: the body stores its block. -/
theorem liveAt1_6_C : ∀ t : Fin cfg1.N, ¬cond1_0 (grid1.coords t) → cond1_1 (grid1.coords t) → cfg1.idle 6 (grid1.coords t) = false := by decide +kernel

/-! ## The memrefs the body is called with -/

/-- One staging buffer of the output window, through which its contents are stated (which one does not matter). -/
abbrev VO1_6 : View sig .tc .vmem S1024x512 .f32 := (Memref.whole cc1_stg6_0 : Memref sig .tc .vmem S1024x512 .f32).view
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows. -/
abbrev scM1_0 : Memref sig .tc .vmem S1024x512 .f32 := Memref.whole cc1_scratch0
/-- The accumulator as a view: what it holds is stated through it. -/
abbrev VS1_0 : View sig .tc .vmem S1024x512 .f32 := scM1_0.view

/-- The core's scoped buffers other than this call's staging buffers and its accumulator, at some contents each:
    carried through the region unopened. -/
abbrev others1 (c : Dev nD) : sProp 𝕄 :=
  Pipeline.scopedRestBut (Ix := Unit) (Name := ℕ) (U := UR sig nD τ) (Lvl := ℕ) (Val := Elt F) spec1 c [cc1_scratch0]

/-- The region invariant with the accumulator singled out, owned at some contents. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA others1
  rw [Pipeline.scopedRest_split_of_list spec1 c [cc1_scratch0] (by decide) (by decide)]
  simp only [bigSepL_singleton, scM1_0, owns_whole]; try rfl

end Cert.Kernel.Hand

end
-- ==== Proof.K.R1RunA.lean ====
/-
  Region 1, the body where the reduction coordinate is 0: the accumulator is reset to zero, then the first tile product
  A[i, 0] (d ∘ X)[0] is added to it; nothing is stored into the output window.
-/
import proofs.«123374_j59193239273550_2_alg».proof.Proof.K.R1Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref and in the accumulator, as pieces (last first),
    with the proof that on whole memrefs — each input's at its contents, the output's and the accumulator's as stated —
    the body runs to the continuation holding each input's as it was and each stored buffer with its pieces written.
    The pieces are the witness the run finds. -/
noncomputable def kernelRun1_A (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) :
    Σ' (L6 : List (View.Piece (Elt F) S1024x512 .f32)), { LS0 : List (View.Piece (Elt F) S1024x512 .f32) //
      ∀ (xi6 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_linear_kernel i arg2 harg2 arg3 harg3 arg4 harg4 arg5 harg5 arg6 harg6 arg7 harg7 arg8 harg8 arg9 harg9) K } := by
  refine ⟨[], ?_, fun xi6 E K => ?run⟩
  case run =>
    simp only [cc1__gcn_linear_kernel_eq_skeleton]; unfold cc1__gcn_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.R1RunB.lean ====
/-
  Region 1, the body where the reduction coordinate k is strictly between 0 and 7: the tile product A[i, k] (d ∘ X)[k]
  is added to the accumulator as the point before left it; nothing is stored into the output window.
-/
import proofs.«123374_j59193239273550_2_alg».proof.Proof.K.R1RunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref and in the accumulator, as pieces (last first),
    with the proof that on whole memrefs — each input's at its contents, the output's and the accumulator's as stated —
    the body runs to the continuation holding each input's as it was and each stored buffer with its pieces written.
    The pieces are the witness the run finds. -/
noncomputable def kernelRun1_B (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) :
    Σ' (L6 : List (View.Piece (Elt F) S1024x512 .f32)), { LS0 : List (View.Piece (Elt F) S1024x512 .f32) //
      ∀ (xi6 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_linear_kernel i arg2 harg2 arg3 harg3 arg4 harg4 arg5 harg5 arg6 harg6 arg7 harg7 arg8 harg8 arg9 harg9) K } := by
  refine ⟨[], ?_, fun xi6 E K => ?run⟩
  case run =>
    simp only [cc1__gcn_linear_kernel_eq_skeleton]; unfold cc1__gcn_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.R1RunC.lean ====
/-
  Region 1, the body where the reduction coordinate is 7: the last tile product A[i, 7] (d ∘ X)[7] is added to the
  accumulator, and the finished sum is scaled row by row by d, multiplied by Wᵗ, shifted by the bias, clamped at zero
  and stored as the output window's block.
-/
import proofs.«123374_j59193239273550_2_alg».proof.Proof.K.R1RunB

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref and in the accumulator, as pieces (last first),
    with the proof that on whole memrefs — each input's at its contents, the output's and the accumulator's as stated —
    the body runs to the continuation holding each input's as it was and each stored buffer with its pieces written.
    The pieces are the witness the run finds. -/
noncomputable def kernelRun1_C (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) :
    Σ' (L6 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_linear_kernel i arg2 harg2 arg3 harg3 arg4 harg4 arg5 harg5 arg6 harg6 arg7 harg7 arg8 harg8 arg9 harg9) K } := by
  refine ⟨?_, ?_, fun E K => ?run⟩
  case run =>
    simp only [cc1__gcn_linear_kernel_eq_skeleton]; unfold cc1__gcn_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.R1.lean ====
/-
  Region 1, the first graph layer, over its whole grid: what the output window's buffer and the accumulator hold after
  each point, and that the body does at every point what the pipeline asks of it.

  The accumulator is carried from point to point: where the reduction coordinate k is 0 it is reset and then holds the
  first tile product; where 0 < k it holds what the point before left plus this point's tile product; where k = 7 the
  finished sum is turned into the layer's output block, the only point of the eight at which the output window is
  stored into and written back. In each case the body's stores tile the buffer they go to, so the buffer's contents
  after the body are those stores read back, whatever it held before.

  Two windows stage the same array (the scale vector d, once by output-row block and once by reduction block), so
  each holds half of it; every other input is held whole.
-/
import proofs.«123374_j59193239273550_2_alg».proof.Proof.K.R1RunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Where k = 0 nothing is stored into the output window (it is idle there and not written back): no pieces —
    a placeholder that nothing consults. -/
def out1_A_6 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) : Vec F S1024x512 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Where k = 0 the body's stores into the accumulator tile it, so they cover it. -/
theorem scover1_A_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (y : S1024x512.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S1024x512.size (by sl_kernel_rfl) y

/-- What the body leaves in the accumulator where k = 0: its stores read back. -/
def sout1_A_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) : Vec F S1024x512 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- Where 0 < k < 7 nothing is stored into the output window (it is idle there and not written back): no pieces —
    a placeholder that nothing consults. -/
def out1_B_6 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) : Vec F S1024x512 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Where 0 < k < 7 the body's stores into the accumulator tile it, so they cover it. -/
theorem scover1_B_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) (y : S1024x512.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S1024x512.size (by sl_kernel_rfl) y

/-- What the body leaves in the accumulator where 0 < k < 7: its stores read back. -/
def sout1_B_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) : Vec F S1024x512 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- Where k = 7 the body's one store into the output window tiles its block, so it covers it. -/
theorem cover1_C_6 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) (y : S1024x512.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x512.size (by sl_kernel_rfl) y

/-- What the body leaves in the output window's buffer where k = 7: its store read back. -/
def out1_C_6 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) : Vec F S1024x512 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Where k = 7 the body's stores into the accumulator tile it, so they cover it. -/
theorem scover1_C_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) (y : S1024x512.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x512.size (by sl_kernel_rfl) y

/-- What the body leaves in the accumulator where k = 7: its stores read back. -/
def sout1_C_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) : Vec F S1024x512 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-! ## Point by point -/

/-- THE ACCUMULATION. What the output window's buffer and the accumulator hold after the body at position `n`: the case
    the closed forms select there, run on the point's memrefs and input blocks, over the accumulator as the point before
    left it (where k = 0 it is reset first, so what it held does not matter). Both conditions at once is no case. -/
def outsAt1 (c : Dev nD) : (n : ℕ) → n < cfg1.N → Vec F S1024x512 .f32 × Vec F S1024x512 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point with k = 0. -/
theorem outsAt1_A (c : Dev nD) (t : Fin cfg1.N) (h0 : t.val % 8 = 0) (h1 : ¬t.val % 8 = 7) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point with 0 < k < 7: over what the point before left in the accumulator. -/
theorem outsAt1_B (c : Dev nD) (t : Fin cfg1.N) (h0 : ¬t.val % 8 = 0) (h1 : ¬t.val % 8 = 7) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 7: over what the point before left in the accumulator. -/
theorem outsAt1_C (c : Dev nD) (t : Fin cfg1.N) (h0 : ¬t.val % 8 = 0) (h1 : t.val % 8 = 7) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point what the launch hands the region; afterwards the
    accumulator at what the point before left in it, the core's other scoped buffers at some contents, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The proof data -/

/-- The arrays as the region finds them; after the body at a point each input's buffer at its block and the output's at
    `outsAt1`'s first component; the invariant `PhiS1`; nothing owed; the two windows on the scale vector at half of it
    each, every other input whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- The share held of each array: half of the scale vector through each of its two windows, every other array whole. -/
theorem share1_0 (c : Dev nD) : (dat1 V c).share 0 = fullShare.left := rfl
theorem share1_1 (c : Dev nD) : (dat1 V c).share 1 = fullShare.right := rfl
theorem share1_ge (c : Dev nD) (w : Fin cfg1.W) (h : 2 ≤ w.val) : (dat1 V c).share w = fullShare :=
  match w, h with
  | ⟨0, _⟩, h => by exfalso; dsimp only at h; omega
  | ⟨1, _⟩, h => by exfalso; dsimp only at h; omega
  | ⟨2, _⟩, _ => rfl
  | ⟨3, _⟩, _ => rfl
  | ⟨4, _⟩, _ => rfl
  | ⟨5, _⟩, _ => rfl
  | ⟨6, _⟩, _ => rfl
  | ⟨n + 7, hn⟩, _ => absurd hn (Nat.not_lt.2 (Nat.le_add_left _ _))
/-- Nothing is owed at any point. -/
theorem owed1 (c : Dev nD) (t : Fin (cfg1.N + 1)) : (dat1 V c).owed t = 0 := rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. Each input's memref holds its block; the closed forms say which case the point is in; the
    invariant hands the body the accumulator at what the point before left (at anything before the first point) and
    takes it back at this point's contents, the core's other scoped buffers and the generator register passing through
    unread; where k ≠ 7 the output window's buffer is handed back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.R2Runs.lean ====
/-
  Region 2, the second graph layer with the classifier head: H₂ = max((d · (A (d · H))) W₂ᵗ + b₂, 0) and the logits
  H₂ Fᵗ + f, computed tile by tile. For each block of 1024 output rows (grid coordinate 0) the reduction coordinate k
  (grid coordinate 1) runs over the eight 1024-wide column blocks of A, and an accumulator kept between points holds the
  partial sum  Σ_{k' ≤ k} A[i, k'] (d ∘ H)[k'].

  This module holds what the three control cases of the body share: each window's block at a point, that an input's
  buffer holds its block at every point, the two branch conditions in closed form over the 64 points
  (k = 0 : the accumulator is reset first; k = 7 : the accumulated product is scaled, multiplied by W₂ᵗ, shifted by b₂,
  clamped at zero and stored, and the head's affine map of that block is stored beside it), where the two output windows
  are idle (every point with k ≠ 7), and the region invariant with the accumulator singled out among the core's scoped
  buffers.
-/
import proofs.«123374_j59193239273550_2_alg».proof.Proof.Gen.Kernel.Launch
import proofs.«123374_j59193239273550_2_alg».proof.Proof.Gen.Kernel.Skeleton
import proofs.«123374_j59193239273550_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched its block index has not moved, so the block the point before left in place is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched its block index has not moved, so the block the point before left in place is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched its block index has not moved, so the block the point before left in place is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it is not
    fetched its block index has not moved, so the block the point before left in place is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: where it is not
    fetched its block index has not moved, so the block the point before left in place is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: where it is not
    fetched its block index has not moved, so the block the point before left in place is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: where it is not
    fetched its block index has not moved, so the block the point before left in place is this point's. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not: where it is not
    fetched its block index has not moved, so the block the point before left in place is this point's. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions -/

/-- "The reduction coordinate is 0": the condition under which the accumulator is reset. -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- "The reduction coordinate is 7": the condition under which the layer's output block is computed and stored. -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- Window 0, an input, is never idle. -/
theorem liveAt2_0 : ∀ t : Fin cfg2.N, cfg2.idle 0 (grid2.coords t) = false := by decide +kernel
/-- Window 1, an input, is never idle. -/
theorem liveAt2_1 : ∀ t : Fin cfg2.N, cfg2.idle 1 (grid2.coords t) = false := by decide +kernel
/-- Window 2, an input, is never idle. -/
theorem liveAt2_2 : ∀ t : Fin cfg2.N, cfg2.idle 2 (grid2.coords t) = false := by decide +kernel
/-- Window 3, an input, is never idle. -/
theorem liveAt2_3 : ∀ t : Fin cfg2.N, cfg2.idle 3 (grid2.coords t) = false := by decide +kernel
/-- Window 4, an input, is never idle. -/
theorem liveAt2_4 : ∀ t : Fin cfg2.N, cfg2.idle 4 (grid2.coords t) = false := by decide +kernel
/-- Window 5, an input, is never idle. -/
theorem liveAt2_5 : ∀ t : Fin cfg2.N, cfg2.idle 5 (grid2.coords t) = false := by decide +kernel
/-- Window 6, an input, is never idle. -/
theorem liveAt2_6 : ∀ t : Fin cfg2.N, cfg2.idle 6 (grid2.coords t) = false := by decide +kernel
/-- Window 7, an input, is never idle. -/
theorem liveAt2_7 : ∀ t : Fin cfg2.N, cfg2.idle 7 (grid2.coords t) = false := by decide +kernel
/-- Where k = 0 output window 8 is idle: nothing is stored into it, -/
theorem idleAt2_8_A : ∀ t : Fin cfg2.N, cond2_0 (grid2.coords t) → ¬cond2_1 (grid2.coords t) → cfg2.idle 8 (grid2.coords t) = true := by decide +kernel
/-- and its block is not written back. -/
theorem noFlush2_8_A : ∀ t : Fin cfg2.N, cond2_0 (grid2.coords t) → ¬cond2_1 (grid2.coords t) → (cfg2.win 8).flush t = false := by decide +kernel
/-- Where 0 < k < 7 output window 8 is idle, -/
theorem idleAt2_8_B : ∀ t : Fin cfg2.N, ¬cond2_0 (grid2.coords t) → ¬cond2_1 (grid2.coords t) → cfg2.idle 8 (grid2.coords t) = true := by decide +kernel
/-- and its block is not written back. -/
theorem noFlush2_8_B : ∀ t : Fin cfg2.N, ¬cond2_0 (grid2.coords t) → ¬cond2_1 (grid2.coords t) → (cfg2.win 8).flush t = false := by decide +kernel
/-- Where k = 7 output window 8 is live: the body stores its block. -/
theorem liveAt2_8_C : ∀ t : Fin cfg2.N, ¬cond2_0 (grid2.coords t) → cond2_1 (grid2.coords t) → cfg2.idle 8 (grid2.coords t) = false := by decide +kernel
/-- Where k = 0 output window 9 is idle: nothing is stored into it, -/
theorem idleAt2_9_A : ∀ t : Fin cfg2.N, cond2_0 (grid2.coords t) → ¬cond2_1 (grid2.coords t) → cfg2.idle 9 (grid2.coords t) = true := by decide +kernel
/-- and its block is not written back. -/
theorem noFlush2_9_A : ∀ t : Fin cfg2.N, cond2_0 (grid2.coords t) → ¬cond2_1 (grid2.coords t) → (cfg2.win 9).flush t = false := by decide +kernel
/-- Where 0 < k < 7 output window 9 is idle, -/
theorem idleAt2_9_B : ∀ t : Fin cfg2.N, ¬cond2_0 (grid2.coords t) → ¬cond2_1 (grid2.coords t) → cfg2.idle 9 (grid2.coords t) = true := by decide +kernel
/-- and its block is not written back. -/
theorem noFlush2_9_B : ∀ t : Fin cfg2.N, ¬cond2_0 (grid2.coords t) → ¬cond2_1 (grid2.coords t) → (cfg2.win 9).flush t = false := by decide +kernel
/-- Where k = 7 output window 9 is live: the body stores its block. -/
theorem liveAt2_9_C : ∀ t : Fin cfg2.N, ¬cond2_0 (grid2.coords t) → cond2_1 (grid2.coords t) → cfg2.idle 9 (grid2.coords t) = false := by decide +kernel

/-! ## The memrefs the body is called with -/

/-- One staging buffer of output window 8, through which its contents are stated (which one does not matter). -/
abbrev VO2_8 : View sig .tc .vmem S1024x512 .f32 := (Memref.whole cc2_stg8_0 : Memref sig .tc .vmem S1024x512 .f32).view
/-- One staging buffer of output window 9, through which its contents are stated (which one does not matter). -/
abbrev VO2_9 : View sig .tc .vmem S1024x32 .f32 := (Memref.whole cc2_stg9_0 : Memref sig .tc .vmem S1024x32 .f32).view
abbrev ms2_0 (t : Fin cfg2.N) : Memref sig .tc .vmem S1024x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8192x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x32 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x32 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1024x512 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1024x32 .f32 := win2_9.stage (cfg2.slots t 9)
abbrev hs2_9 (t : Fin cfg2.N) : (ms2_9 t).IsWhole := hstage2_9 ((cfg2.slots t 9).cast nbuf2_9)
/-- The accumulator: a whole scoped buffer of the kernel's own, passed beside the windows. -/
abbrev scM2_0 : Memref sig .tc .vmem S1024x512 .f32 := Memref.whole cc2_scratch0
/-- The accumulator as a view: what it holds is stated through it. -/
abbrev VS2_0 : View sig .tc .vmem S1024x512 .f32 := scM2_0.view

/-- The core's scoped buffers other than this call's staging buffers and its accumulator, at some contents each:
    carried through the region unopened. -/
abbrev others2 (c : Dev nD) : sProp 𝕄 :=
  Pipeline.scopedRestBut (Ix := Unit) (Name := ℕ) (U := UR sig nD τ) (Lvl := ℕ) (Val := Elt F) spec2 c [cc2_scratch0]

/-- The region invariant with the accumulator singled out, owned at some contents. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA others2
  rw [Pipeline.scopedRest_split_of_list spec2 c [cc2_scratch0] (by decide) (by decide)]
  simp only [bigSepL_singleton, scM2_0, owns_whole]; try rfl

end Cert.Kernel.Hand

end
-- ==== Proof.K.R2RunA.lean ====
/-
  Region 2, the body where the reduction coordinate is 0: the accumulator is reset to zero, then the first tile product
  A[i, 0] (d ∘ H)[0] is added to it; nothing is stored into either output window.
-/
import proofs.«123374_j59193239273550_2_alg».proof.Proof.K.R2Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output window's staging memref and in the accumulator, as pieces (last first),
    with the proof that on whole memrefs — each input's at its contents, the outputs' and the accumulator's as stated —
    the body runs to the continuation holding each input's as it was and each stored buffer with its pieces written.
    The pieces are the witness the run finds. -/
noncomputable def kernelRun2_A (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) :
    Σ' (L8 : List (View.Piece (Elt F) S1024x512 .f32)) (L9 : List (View.Piece (Elt F) S1024x32 .f32)), { LS0 : List (View.Piece (Elt F) S1024x512 .f32) //
      ∀ (xi8 : Vec F S1024x512 .f32) (xi9 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc2__gcn_linear_fl_kernel i arg2 harg2 arg3 harg3 arg4 harg4 arg5 harg5 arg6 harg6 arg7 harg7 arg8 harg8 arg9 harg9 arg10 harg10 arg11 harg11 arg12 harg12) K } := by
  refine ⟨[], [], ?_, fun xi8 xi9 E K => ?run⟩
  case run =>
    simp only [cc2__gcn_linear_fl_kernel_eq_skeleton]; unfold cc2__gcn_linear_fl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.Kernel.Hand

end
-- ==== Proof.K.R2RunB.lean ====
/-
  Region 2, the body where the reduction coordinate k is strictly between 0 and 7: the tile product A[i, k] (d ∘ H)[k]
  is added to the accumulator as the point before left it; nothing is stored into either output window.
-/
import proofs.«123374_j59193239273550_2_alg».proof.Proof.K.R2RunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output window's staging memref and in the accumulator, as pieces (last first),
    with the proof that on whole memrefs — each input's at its contents, the outputs' and the accumulator's as stated —
    the body runs to the continuation holding each input's as it was and each stored buffer with its pieces written.
    The pieces are the witness the run finds. -/
noncomputable def kernelRun2_B (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) :
    Σ' (L8 : List (View.Piece (Elt F) S1024x512 .f32)) (L9 : List (View.Piece (Elt F) S1024x32 .f32)), { LS0 : List (View.Piece (Elt F) S1024x512 .f32) //
      ∀ (xi8 : Vec F S1024x512 .f32) (xi9 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc2__gcn_linear_fl_kernel i arg2 harg2 arg3 harg3 arg4 harg4 arg5 harg5 arg6 harg6 arg7 harg7 arg8 harg8 arg9 harg9 arg10 harg10 arg11 harg11 arg12 harg12) K } := by
  refine ⟨[], [], ?_, fun xi8 xi9 E K => ?run⟩
  case run =>
    simp only [cc2__gcn_linear_fl_kernel_eq_skeleton]; unfold cc2__gcn_linear_fl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.Kernel.Hand

end
-- ==== Proof.K.R2RunC.lean ====
/-
  Region 2, the body where the reduction coordinate is 7: the last tile product A[i, 7] (d ∘ H)[7] is added to the
  accumulator; the finished sum is scaled row by row by d, multiplied by W₂ᵗ, shifted by the bias and clamped at zero,
  which is stored as the first output window's block; and that block multiplied by Fᵗ and shifted by f is stored as the
  second output window's block.
-/
import proofs.«123374_j59193239273550_2_alg».proof.Proof.K.R2RunB

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output window's staging memref and in the accumulator, as pieces (last first),
    with the proof that on whole memrefs — each input's at its contents, the outputs' and the accumulator's as stated —
    the body runs to the continuation holding each input's as it was and each stored buffer with its pieces written.
    The pieces are the witness the run finds. -/
noncomputable def kernelRun2_C (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) :
    Σ' (L8 : List (View.Piece (Elt F) S1024x512 .f32)) (L9 : List (View.Piece (Elt F) S1024x32 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc2__gcn_linear_fl_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc2__gcn_linear_fl_kernel_eq_skeleton]; unfold cc2__gcn_linear_fl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact HS0

end Cert.Kernel.Hand

end
-- ==== Proof.K.R2.lean ====
/-
  Region 2, the second graph layer with the classifier head, over its whole grid: what the two output windows' buffers
  and the accumulator hold after each point, and that the body does at every point what the pipeline asks of it.

  The accumulator is carried from point to point: where the reduction coordinate k is 0 it is reset and then holds the
  first tile product; where 0 < k it holds what the point before left plus this point's tile product; where k = 7 the
  finished sum is turned into the layer's output block and the head's logits block, the only point of the eight at which
  the two output windows are stored into and written back. In each case the body's stores tile the buffer they go to, so
  the buffer's contents after the body are those stores read back, whatever it held before.

  Two windows stage the same array (the scale vector d, once by output-row block and once by reduction block), so
  each holds half of it; every other input is held whole.
-/
import proofs.«123374_j59193239273550_2_alg».proof.Proof.K.R2RunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Where k = 0 nothing is stored into output window 8 (it is idle there and not written back): no pieces —
    a placeholder that nothing consults. -/
def out2_A_8 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) : Vec F S1024x512 .f32 :=
  VO2_8.read (Elt F) (VO2_8.writes (Elt F) VO2_8.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)

/-- Where k = 0 nothing is stored into output window 9 (it is idle there and not written back): no pieces —
    a placeholder that nothing consults. -/
def out2_A_9 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) : Vec F S1024x32 .f32 :=
  VO2_9.read (Elt F) (VO2_9.writes (Elt F) VO2_9.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)

/-- Where k = 0 the body's stores into the accumulator tile it, so they cover it. -/
theorem scover2_A_0 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (y : S1024x512.Idx) :
    ∃ pc ∈ (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 S1024x512.size (by sl_kernel_rfl) y

/-- What the body leaves in the accumulator where k = 0: its stores read back. -/
def sout2_A_0 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) : Vec F S1024x512 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

/-- Where 0 < k < 7 nothing is stored into output window 8 (it is idle there and not written back): no pieces —
    a placeholder that nothing consults. -/
def out2_B_8 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) : Vec F S1024x512 .f32 :=
  VO2_8.read (Elt F) (VO2_8.writes (Elt F) VO2_8.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

/-- Where 0 < k < 7 nothing is stored into output window 9 (it is idle there and not written back): no pieces —
    a placeholder that nothing consults. -/
def out2_B_9 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) : Vec F S1024x32 .f32 :=
  VO2_9.read (Elt F) (VO2_9.writes (Elt F) VO2_9.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

/-- Where 0 < k < 7 the body's stores into the accumulator tile it, so they cover it. -/
theorem scover2_B_0 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) (y : S1024x512.Idx) :
    ∃ pc ∈ (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S1024x512.size (by sl_kernel_rfl) y

/-- What the body leaves in the accumulator where 0 < k < 7: its stores read back. -/
def sout2_B_0 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) : Vec F S1024x512 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

/-- Where k = 7 the body's one store into output window 8 tiles its block, so it covers it. -/
theorem cover2_C_8 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) (y : S1024x512.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1 S1024x512.size (by sl_kernel_rfl) y

/-- What the body leaves in output window 8's buffer where k = 7: its store read back. -/
def out2_C_8 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) : Vec F S1024x512 .f32 :=
  VO2_8.read (Elt F) (VO2_8.writes (Elt F) VO2_8.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

/-- Where k = 7 the body's one store into output window 9 tiles its block, so it covers it. -/
theorem cover2_C_9 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) (y : S1024x32.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1 S1024x32.size (by sl_kernel_rfl) y

/-- What the body leaves in output window 9's buffer where k = 7: its store read back. -/
def out2_C_9 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) : Vec F S1024x32 .f32 :=
  VO2_9.read (Elt F) (VO2_9.writes (Elt F) VO2_9.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

/-- Where k = 7 the body's stores into the accumulator tile it, so they cover it. -/
theorem scover2_C_0 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) (y : S1024x512.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S1024x512.size (by sl_kernel_rfl) y

/-- What the body leaves in the accumulator where k = 7: its stores read back. -/
def sout2_C_0 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) : Vec F S1024x512 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

/-! ## Point by point -/

/-- THE ACCUMULATION. What the output windows' buffers and the accumulator hold after the body at position `n` (the
    outputs in window order, then the accumulator): the case the closed forms select there, run on the point's memrefs and
    input blocks, over the accumulator as the point before left it (where k = 0 it is reset first, so what it held does
    not matter). Both conditions at once is no case. -/
def outsAt2 (c : Dev nD) : (n : ℕ) → n < cfg2.N → Vec F S1024x512 .f32 × Vec F S1024x32 .f32 × Vec F S1024x512 .f32
  | 0, hn => (out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩))
  | n + 1, hn =>
    if h0 : (n + 1) % 8 = 0 then
      if h1 : (n + 1) % 8 = 7 then
        False.elim (by omega)
      else
        (out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), out2_A_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩))
    else
      if h1 : (n + 1) % 8 = 7 then
        (out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.2, out2_C_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.2)
      else
        (out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.2, out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.2)

/-- `outsAt2` at a point with k = 0. -/
theorem outsAt2_A (c : Dev nD) (t : Fin cfg2.N) (h0 : t.val % 8 = 0) (h1 : ¬t.val % 8 = 7) :
    outsAt2 V c t.val t.isLt = (out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t), out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)) := by
  obtain ⟨n, hn⟩ := t
  cases n with
  | zero => exact rfl
  | succ n => exact (dif_pos h0).trans ((dif_neg h1).trans rfl)

/-- `outsAt2` at a point with 0 < k < 7: over what the point before left in the accumulator. -/
theorem outsAt2_B (c : Dev nD) (t : Fin cfg2.N) (h0 : ¬t.val % 8 = 0) (h1 : ¬t.val % 8 = 7) :
    outsAt2 V c t.val t.isLt = (out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2, out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point with k = 7: over what the point before left in the accumulator. -/
theorem outsAt2_C (c : Dev nD) (t : Fin cfg2.N) (h0 : ¬t.val % 8 = 0) (h1 : t.val % 8 = 7) :
    outsAt2 V c t.val t.isLt = (out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2, out2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point what the launch hands the region; afterwards the
    accumulator at what the point before left in it, the core's other scoped buffers at some contents, and the
    generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ others2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2.2) ∗ others2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ others2 (F := F) c) ∗ (∃ r, prngReg c r)) := by
  cases n with
  | zero => exact absurd rfl hz
  | succ n => rfl

/-! ## The proof data -/

/-- The arrays as the region finds them; after the body at a point each input's buffer at its block and each output's at
    its component of `outsAt2`; the invariant `PhiS2`; nothing owed; the two windows on the scale vector at half of
    it each, every other input whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t.val t.isLt).1
    | ⟨9, _⟩ => (outsAt2 V c t.val t.isLt).2.1
  Φ t := PhiS2 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = (outsAt2 V c t.val t.isLt).1 := by dsimp only [dat2]
theorem after2_9 (c : Dev nD) (t : Fin cfg2.N) : (dat2 V c).after 9 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- The share held of each array: half of the scale vector through each of its two windows, every other array whole. -/
theorem share2_0 (c : Dev nD) : (dat2 V c).share 0 = fullShare.left := rfl
theorem share2_1 (c : Dev nD) : (dat2 V c).share 1 = fullShare.right := rfl
theorem share2_ge (c : Dev nD) (w : Fin cfg2.W) (h : 2 ≤ w.val) : (dat2 V c).share w = fullShare :=
  match w, h with
  | ⟨0, _⟩, h => by exfalso; dsimp only at h; omega
  | ⟨1, _⟩, h => by exfalso; dsimp only at h; omega
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨n + 10, hn⟩, _ => absurd hn (Nat.not_lt.2 (Nat.le_add_left _ _))
/-- Nothing is owed at any point. -/
theorem owed2 (c : Dev nD) (t : Fin (cfg2.N + 1)) : (dat2 V c).owed t = 0 := rfl

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in
/-- The body at any point. Each input's memref holds its block; the closed forms say which case the point is in; the
    invariant hands the body the accumulator at what the point before left (at anything before the first point) and
    takes it back at this point's contents, the core's other scoped buffers and the generator register passing through
    unread; where k ≠ 7 each output window's buffer is handed back as it was found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 8 = 0
  · by_cases h1 : t.val % 8 = 7
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t], after2_7]
      rw [Dat.leavesExact_idle (dat2 V c) 8 t (idleAt2_8_A t ((hcond2_0 t).mpr h0) (fun h => h1 ((hcond2_1 t).mp h))) (noFlush2_8_A t ((hcond2_0 t).mpr h0) (fun h => h1 ((hcond2_1 t).mp h)))]
      rw [Dat.leavesExact_idle (dat2 V c) 9 t (idleAt2_9_A t ((hcond2_0 t).mpr h0) (fun h => h1 ((hcond2_1 t).mp h))) (noFlush2_9_A t ((hcond2_0 t).mpr h0) (fun h => h1 ((hcond2_1 t).mp h)))]
      rw [outsAt2_A V c t h0 h1]
      unfold sout2_A_0; (try dsimp only)
      by_cases hz : t.val = 0
      ·
        rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
      ·
        rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        iintro ⟨H0, H1, H2, H3, H4, H5, H6, H7, H8, H9, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
  · by_cases h1 : t.val % 8 = 7
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t], after2_7]
      rw [show (dat2 V c).leavesExact 8 t = owns (c : Thread nD τ) (ms2_8 t) fullShare ((dat2 V c).after 8 t) from by
        unfold Dat.leavesExact; rw [liveAt2_8_C t (fun h => h0 ((hcond2_0 t).mp h)) ((hcond2_1 t).mpr h1)], after2_8]
      rw [show (dat2 V c).leavesExact 9 t = owns (c : Thread nD τ) (ms2_9 t) fullShare ((dat2 V c).after 9 t) from by
        unfold Dat.leavesExact; rw [liveAt2_9_C t (fun h => h0 ((hcond2_0 t).mp h)) ((hcond2_1 t).mpr h1)], after2_9]
      rw [outsAt2_C V c t h0 h1]
      unfold out2_C_8 out2_C_9 sout2_C_0; (try dsimp only)
      have hz : t.val ≠ 0 := by omega
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover2_C_8 c _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover2_C_9 c _ _ _ _ _ _ _ _ _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t], after2_7]
      rw [Dat.leavesExact_idle (dat2 V c) 8 t (idleAt2_8_B t (fun h => h0 ((hcond2_0 t).mp h)) (fun h => h1 ((hcond2_1 t).mp h))) (noFlush2_8_B t (fun h => h0 ((hcond2_0 t).mp h)) (fun h => h1 ((hcond2_1 t).mp h)))]
      rw [Dat.leavesExact_idle (dat2 V c) 9 t (idleAt2_9_B t (fun h => h0 ((hcond2_0 t).mp h)) (fun h => h1 ((hcond2_1 t).mp h))) (noFlush2_9_B t (fun h => h0 ((hcond2_0 t).mp h)) (fun h => h1 ((hcond2_1 t).mp h)))]
      rw [outsAt2_B V c t h0 h1]
      unfold sout2_B_0; (try dsimp only)
      have hz : t.val ≠ 0 := by omega
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.Kernel.Hand

end
-- ==== Proof.K.RunCond.lean ====
/-
  The whole program run, given the three kernels' records: every weakly fair execution ends, and every buffer outside the
  kernels' private memory then holds what the chain "first kernel, host lines, second kernel, host lines, third kernel"
  leaves in it — the arguments (no item writes one) and the results alike. The conclusion about the arguments alone is
  the frame; read at the two result buffers it is the value the program computes.
-/
import proofs.«123374_j59193239273550_2_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- Given, per kernel, a record entered from the buffers as the items before it leave them and left at the buffers as it
    leaves them: the program terminates from any memory with zero counters, and every final memory holds each buffer
    outside the kernels' private memory at the last valuation of the chain. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V5 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨hpre0 c, hpost0 c, hpre1 c, hpost1 c, hpre2 c, (hpost2 c).trans (sep_mono .rfl (hE3 c))⟩)
    (hinit := ?_) (QY := fun c s => ∀ b ∈ Pipeline.ucRefs τ sig, s.mem (((c : Thread nD τ)).1, b) = V5 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact h
    · iexact HSI

end Cert.Kernel.Hand

end
-- ==== Proof.K.Chain.lean ====
/-
  The buffers between the items of the program. The program is: first kernel; ten host lines (reshape the column sums,
  take 1/√, transpose and narrow the three weight matrices, reshape the scale and the first bias); second kernel; three
  host lines (reshape the scale and the other two biases); third kernel. Each kernel changes only its output arrays,
  and leaves there what its write-backs leave; each host stretch is a fold of its lines. Named here: the contents each
  kernel is entered from, the contents it leaves, and the three kernels' proof data at those contents.
-/
import proofs.«123374_j59193239273550_2_alg».proof.Proof.K.R0
import proofs.«123374_j59193239273550_2_alg».proof.Proof.K.R1
import proofs.«123374_j59193239273550_2_alg».proof.Proof.K.R2
import proofs.«123374_j59193239273550_2_alg».proof.Proof.K.RunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Parameters of the run: nothing owed between cores, no levels -/

abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev Rr (c : Dev nD) : sProp 𝕄 := iprop((∃ r, prngReg c r) ∗ ∃ W, owes (c : Thread nD τ) (0 : CellTallies nD τ sig Unit) W)
abbrev EE : Fin 4 → Dev nD → sProp 𝕄 := fun _ c => Rr c

/-! ## The contents, item by item -/

/-- The first kernel is entered from the launch memory. -/
abbrev Ve0 (c : Dev nD) (b : Ref sig .tc) : Buf (Elt F) ((c : Thread nD τ).loc b) := V0 m c b
/-- After the first kernel: the column sums and the half-precision copy at what its write-backs leave. -/
def X1 (c : Dev nD) : Valuation τ sig (Elt F) :=
  Function.update (Function.update (V0 m c) main_v0_0 ((dat0 (Ve0 m) c).arrAt 1 cfg0.N)) main_v0_1 ((dat0 (Ve0 m) c).arrAt 2 cfg0.N)
/-- The second kernel is entered after the first stretch of host lines. -/
abbrev Ve2 (c : Dev nD) (b : Ref sig .tc) : Buf (Elt F) ((c : Thread nD τ).loc b) := StableHlo.after hostOps1 (X1 m c) b
/-- After the second kernel: the first layer's activations at what its write-backs leave. -/
def X3 (c : Dev nD) : Valuation τ sig (Elt F) :=
  Function.update (StableHlo.after hostOps1 (X1 m c)) main_v11 ((dat1 (Ve2 m) c).arrAt 6 cfg1.N)
/-- The third kernel is entered after the second stretch of host lines. -/
abbrev Ve4 (c : Dev nD) (b : Ref sig .tc) : Buf (Elt F) ((c : Thread nD τ).loc b) := StableHlo.after hostOps2 (X3 m c) b
/-- After the third kernel: the two results. -/
def X5 (c : Dev nD) : Valuation τ sig (Elt F) :=
  Function.update (Function.update (StableHlo.after hostOps2 (X3 m c)) main_v15_0 ((dat2 (Ve4 m) c).arrAt 8 cfg2.N)) main_v15_1 ((dat2 (Ve4 m) c).arrAt 9 cfg2.N)

/-- What the kernels leave, as the one function the chain of valuations is written over. -/
def outsF : Outs (F := F) := fun J r c => match J with
  | 1 => X1 m c r
  | 3 => X3 m c r
  | 5 => X5 m c r
  | _ => V0 m c r

theorem X1_a (c : Dev nD) : X1 m c main_v0_0 = (dat0 (Ve0 m) c).arrAt 1 cfg0.N := by
  unfold X1
  rw [Function.update_of_ne (StableHlo.devRef_ne_of_ne (by decide) : (Proc.devRef .tc main_v0_0 : DevRef τ sig) ≠ Proc.devRef .tc main_v0_1), Function.update_self]
theorem X1_b (c : Dev nD) : X1 m c main_v0_1 = (dat0 (Ve0 m) c).arrAt 2 cfg0.N := by
  unfold X1; rw [Function.update_self]
theorem X3_a (c : Dev nD) : X3 m c main_v11 = (dat1 (Ve2 m) c).arrAt 6 cfg1.N := by
  unfold X3; rw [Function.update_self]
theorem X5_a (c : Dev nD) : X5 m c main_v15_0 = (dat2 (Ve4 m) c).arrAt 8 cfg2.N := by
  unfold X5
  rw [Function.update_of_ne (StableHlo.devRef_ne_of_ne (by decide) : (Proc.devRef .tc main_v15_0 : DevRef τ sig) ≠ Proc.devRef .tc main_v15_1), Function.update_self]
theorem X5_b (c : Dev nD) : X5 m c main_v15_1 = (dat2 (Ve4 m) c).arrAt 9 cfg2.N := by
  unfold X5; rw [Function.update_self]

/-- The chain of valuations over `outsF` is the chain named above. -/
theorem V1_eq (c : Dev nD) : V1 m (outsF m) c = X1 m c := by
  show Function.update (Function.update (V0 m c) main_v0_0 (X1 m c main_v0_0)) main_v0_1 (X1 m c main_v0_1) = X1 m c
  rw [X1_a, X1_b]; rfl
theorem V2_eq (c : Dev nD) : V2 m (outsF m) c = StableHlo.after hostOps1 (X1 m c) := by
  show StableHlo.after hostOps1 (V1 m (outsF m) c) = _; rw [V1_eq]
theorem V3_eq (c : Dev nD) : V3 m (outsF m) c = X3 m c := by
  show Function.update (V2 m (outsF m) c) main_v11 (X3 m c main_v11) = X3 m c
  rw [V2_eq, X3_a]; rfl
theorem V4_eq (c : Dev nD) : V4 m (outsF m) c = StableHlo.after hostOps2 (X3 m c) := by
  show StableHlo.after hostOps2 (V3 m (outsF m) c) = _; rw [V3_eq]
theorem V5_eq (c : Dev nD) : V5 m (outsF m) c = X5 m c := by
  show Function.update (Function.update (V4 m (outsF m) c) main_v15_0 (X5 m c main_v15_0)) main_v15_1 (X5 m c main_v15_1) = X5 m c
  rw [V4_eq, X5_a, X5_b]; rfl

/-! ## The proof data family -/

def pdats : (p : Fin 3) → (c : Dev nD) → Dat τ (Elt F) Unit ℕ (UR sig nD τ) ℕ (cfgs p) c
  | ⟨0, _⟩ => fun c => dat0 (Ve0 m) c
  | ⟨1, _⟩ => fun c => dat1 (Ve2 m) c
  | ⟨2, _⟩ => fun c => dat2 (Ve4 m) c

end Cert.Kernel.Hand

end
-- ==== Proof.K.Shared.lean ====
/-
  Two windows on one array. The second and third kernels read the scale vector d twice, once as the row scale of the
  output tile and once as the column scale of the current reduction tile: two input windows over one buffer. The
  buffer, held whole, is dealt to the two windows in two complementary halves at the kernel's entry, and the halves
  are joined again at its exit; every other window's array is a buffer of its own, held whole.
-/
import proofs.«123374_j59193239273550_2_alg».proof.Proof.Gen.Kernel.Launch
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second kernel: windows 0 and 1 both show the scale vector -/

/-- The distinct buffers behind the windows' arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v9) ↦{fullShare} V main_v9) ∗ (((c : Thread nD τ).loc main_v0_1) ↦{fullShare} V main_v0_1) ∗ (((c : Thread nD τ).loc main_arg0) ↦{fullShare} V main_arg0) ∗ (((c : Thread nD τ).loc main_v4) ↦{fullShare} V main_v4) ∗ (((c : Thread nD τ).loc main_v10) ↦{fullShare} V main_v10) ∗ (((c : Thread nD τ).loc main_v11) ↦{fullShare} V main_v11)) := by
  unfold Pipeline.arrBufs; exact bigSep_eq_bigSepL_of_eq [main_v9, main_v0_1, main_arg0, main_v4, main_v10, main_v11] (by decide) (by decide) _

set_option maxHeartbeats 2000000 in
/-- ENTRY. The buffers whole at contents `V` are the windows' arrays at `V`, the scale vector's buffer dealt in two
    halves to the two windows on it. -/
theorem arrays1_of_bufs {c : Dev nD} (dat : Dat τ (Elt F) Unit ℕ (UR sig nD τ) ℕ cfg1 c)
    (hs0 : dat.share 0 = fullShare.left) (hs1 : dat.share 1 = fullShare.right) (hs2 : dat.share 2 = fullShare) (hs3 : dat.share 3 = fullShare) (hs4 : dat.share 4 = fullShare) (hs5 : dat.share 5 = fullShare) (hs6 : dat.share 6 = fullShare)
    (V : (b : Ref sig .tc) → Buf (Elt F) ((c : Thread nD τ).loc b))
    (G : (w : Fin cfg1.W) → Buf (Elt F) ((cfg1.win w).arr.view.loc (c : Thread nD τ))) (hF : ∀ w, G w = V (Pipeline.arrRef spec1 w)) :
    (Pipeline.arrBufs (Ix := Unit) (Name := ℕ) (U := UR sig nD τ) (Lvl := ℕ) spec1 c V : sProp 𝕄) ⊢ dat.arrays G := by
  obtain rfl : G = fun w => V (Pipeline.arrRef spec1 w) := funext hF
  unfold Dat.arrays
  rw [bigSep_W1, arrBufs1_eq, (arr_whole1 0).set_eq_univ, (arr_whole1 2).set_eq_univ, (arr_whole1 3).set_eq_univ, (arr_whole1 4).set_eq_univ, (arr_whole1 5).set_eq_univ, (arr_whole1 6).set_eq_univ, hs0, hs1, hs2, hs3, hs4, hs5, hs6]
  iintro ⟨H1, H2, H3, H4, H5, H6⟩
  ihave Hh := (pointsTo_share (PosShare.mem_left_op_right fullShare)).1 $$ H1
  icases Hh with ⟨Hl, Hr⟩
  isplitl [Hl]; · iexact Hl
  isplitl [Hr]; · iexact Hr
  isplitl [H2]; · iexact H2
  isplitl [H3]; · iexact H3
  isplitl [H4]; · iexact H4
  isplitl [H5]; · iexact H5
  iexact H6

set_option maxHeartbeats 2000000 in
/-- EXIT. The windows' arrays at contents that agree with `V'` window by window are the buffers whole at `V'`: the two
    halves of the scale vector's buffer joined. -/
theorem bufs_of_arrays1 {c : Dev nD} (dat : Dat τ (Elt F) Unit ℕ (UR sig nD τ) ℕ cfg1 c)
    (hs0 : dat.share 0 = fullShare.left) (hs1 : dat.share 1 = fullShare.right) (hs2 : dat.share 2 = fullShare) (hs3 : dat.share 3 = fullShare) (hs4 : dat.share 4 = fullShare) (hs5 : dat.share 5 = fullShare) (hs6 : dat.share 6 = fullShare)
    (V' : (b : Ref sig .tc) → Buf (Elt F) ((c : Thread nD τ).loc b))
    (G : (w : Fin cfg1.W) → Buf (Elt F) ((cfg1.win w).arr.view.loc (c : Thread nD τ))) (hF : ∀ w, G w = V' (Pipeline.arrRef spec1 w)) :
    dat.arrays G ⊢ (Pipeline.arrBufs (Ix := Unit) (Name := ℕ) (U := UR sig nD τ) (Lvl := ℕ) spec1 c V' : sProp 𝕄) := by
  obtain rfl : G = fun w => V' (Pipeline.arrRef spec1 w) := funext hF
  unfold Dat.arrays
  rw [bigSep_W1, arrBufs1_eq, (arr_whole1 0).set_eq_univ, (arr_whole1 2).set_eq_univ, (arr_whole1 3).set_eq_univ, (arr_whole1 4).set_eq_univ, (arr_whole1 5).set_eq_univ, (arr_whole1 6).set_eq_univ, hs0, hs1, hs2, hs3, hs4, hs5, hs6]
  iintro ⟨G0, G1, G2, G3, G4, G5, G6⟩
  isplitl [G0 G1]
  · iapply (pointsTo_share (PosShare.mem_left_op_right fullShare)).2
    isplitl [G0]; · iexact G0
    iexact G1
  isplitl [G2]; · iexact G2
  isplitl [G3]; · iexact G3
  isplitl [G4]; · iexact G4
  isplitl [G5]; · iexact G5
  iexact G6

/-! ## The third kernel: windows 0 and 1 both show the scale vector -/

/-- The distinct buffers behind the windows' arrays, one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v12) ↦{fullShare} V main_v12) ∗ (((c : Thread nD τ).loc main_v0_1) ↦{fullShare} V main_v0_1) ∗ (((c : Thread nD τ).loc main_v11) ↦{fullShare} V main_v11) ∗ (((c : Thread nD τ).loc main_v6) ↦{fullShare} V main_v6) ∗ (((c : Thread nD τ).loc main_v13) ↦{fullShare} V main_v13) ∗ (((c : Thread nD τ).loc main_v8) ↦{fullShare} V main_v8) ∗ (((c : Thread nD τ).loc main_v14) ↦{fullShare} V main_v14) ∗ (((c : Thread nD τ).loc main_v15_0) ↦{fullShare} V main_v15_0) ∗ (((c : Thread nD τ).loc main_v15_1) ↦{fullShare} V main_v15_1)) := by
  unfold Pipeline.arrBufs; exact bigSep_eq_bigSepL_of_eq [main_v12, main_v0_1, main_v11, main_v6, main_v13, main_v8, main_v14, main_v15_0, main_v15_1] (by decide) (by decide) _

set_option maxHeartbeats 2000000 in
/-- ENTRY. The buffers whole at contents `V` are the windows' arrays at `V`, the scale vector's buffer dealt in two
    halves to the two windows on it. -/
theorem arrays2_of_bufs {c : Dev nD} (dat : Dat τ (Elt F) Unit ℕ (UR sig nD τ) ℕ cfg2 c)
    (hs0 : dat.share 0 = fullShare.left) (hs1 : dat.share 1 = fullShare.right) (hs2 : dat.share 2 = fullShare) (hs3 : dat.share 3 = fullShare) (hs4 : dat.share 4 = fullShare) (hs5 : dat.share 5 = fullShare) (hs6 : dat.share 6 = fullShare) (hs7 : dat.share 7 = fullShare) (hs8 : dat.share 8 = fullShare) (hs9 : dat.share 9 = fullShare)
    (V : (b : Ref sig .tc) → Buf (Elt F) ((c : Thread nD τ).loc b))
    (G : (w : Fin cfg2.W) → Buf (Elt F) ((cfg2.win w).arr.view.loc (c : Thread nD τ))) (hF : ∀ w, G w = V (Pipeline.arrRef spec2 w)) :
    (Pipeline.arrBufs (Ix := Unit) (Name := ℕ) (U := UR sig nD τ) (Lvl := ℕ) spec2 c V : sProp 𝕄) ⊢ dat.arrays G := by
  obtain rfl : G = fun w => V (Pipeline.arrRef spec2 w) := funext hF
  unfold Dat.arrays
  rw [bigSep_W2, arrBufs2_eq, (arr_whole2 0).set_eq_univ, (arr_whole2 2).set_eq_univ, (arr_whole2 3).set_eq_univ, (arr_whole2 4).set_eq_univ, (arr_whole2 5).set_eq_univ, (arr_whole2 6).set_eq_univ, (arr_whole2 7).set_eq_univ, (arr_whole2 8).set_eq_univ, (arr_whole2 9).set_eq_univ, hs0, hs1, hs2, hs3, hs4, hs5, hs6, hs7, hs8, hs9]
  iintro ⟨H1, H2, H3, H4, H5, H6, H7, H8, H9⟩
  ihave Hh := (pointsTo_share (PosShare.mem_left_op_right fullShare)).1 $$ H1
  icases Hh with ⟨Hl, Hr⟩
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 2000000 in
/-- EXIT. The windows' arrays at contents that agree with `V'` window by window are the buffers whole at `V'`: the two
    halves of the scale vector's buffer joined. -/
theorem bufs_of_arrays2 {c : Dev nD} (dat : Dat τ (Elt F) Unit ℕ (UR sig nD τ) ℕ cfg2 c)
    (hs0 : dat.share 0 = fullShare.left) (hs1 : dat.share 1 = fullShare.right) (hs2 : dat.share 2 = fullShare) (hs3 : dat.share 3 = fullShare) (hs4 : dat.share 4 = fullShare) (hs5 : dat.share 5 = fullShare) (hs6 : dat.share 6 = fullShare) (hs7 : dat.share 7 = fullShare) (hs8 : dat.share 8 = fullShare) (hs9 : dat.share 9 = fullShare)
    (V' : (b : Ref sig .tc) → Buf (Elt F) ((c : Thread nD τ).loc b))
    (G : (w : Fin cfg2.W) → Buf (Elt F) ((cfg2.win w).arr.view.loc (c : Thread nD τ))) (hF : ∀ w, G w = V' (Pipeline.arrRef spec2 w)) :
    dat.arrays G ⊢ (Pipeline.arrBufs (Ix := Unit) (Name := ℕ) (U := UR sig nD τ) (Lvl := ℕ) spec2 c V' : sProp 𝕄) := by
  obtain rfl : G = fun w => V' (Pipeline.arrRef spec2 w) := funext hF
  unfold Dat.arrays
  rw [bigSep_W2, arrBufs2_eq, (arr_whole2 0).set_eq_univ, (arr_whole2 2).set_eq_univ, (arr_whole2 3).set_eq_univ, (arr_whole2 4).set_eq_univ, (arr_whole2 5).set_eq_univ, (arr_whole2 6).set_eq_univ, (arr_whole2 7).set_eq_univ, (arr_whole2 8).set_eq_univ, (arr_whole2 9).set_eq_univ, hs0, hs1, hs2, hs3, hs4, hs5, hs6, hs7, hs8, hs9]
  iintro ⟨G0, G1, G2, G3, G4, G5, G6, G7, G8, G9⟩
  isplitl [G0 G1]
  · iapply (pointsTo_share (PosShare.mem_left_op_right fullShare)).2
    isplitl [G0]; · iexact G0
    iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  iexact G9

end Cert.Kernel.Hand

end
-- ==== Proof.K.Regs.lean ====
/-
  The three kernels as items of the program's run. Each is entered with every buffer outside the kernels' private
  memory held at the contents the items before it leave, and left with them held at the contents it leaves: its windows'
  arrays are taken out of that collection at entry (for the second and third kernels the scale vector's buffer in two
  halves, one per window on it) and put back at exit with the output arrays at what the write-backs leave; the
  generator register passes through the kernel's invariant; nothing is owed.
-/
import proofs.«123374_j59193239273550_2_alg».proof.Proof.K.Chain
import proofs.«123374_j59193239273550_2_alg».proof.Proof.K.Shared
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first kernel -/

/-- Each of its arrays after it: the adjacency as entered, the two outputs at what the write-backs leave. -/
theorem hF0 (c : Dev nD) (w : Fin cfg0.W) : (dat0 (Ve0 m) c).arrAt w cfg0.N = V1 m (outsF m) c (Pipeline.arrRef spec0 w) := by
  match w with
  | ⟨0, _⟩ => exact ((dat0 (Ve0 m) c).arrAt_in 0 rfl _).trans ((A_eq0 (Ve0 m) c 0).trans (V1_of m (outsF m) c main_arg1 (by decide)).symm)
  | ⟨1, _⟩ => exact (X1_a m c).symm.trans (congrFun (V1_eq m c).symm _)
  | ⟨2, _⟩ => exact (X1_b m c).symm.trans (congrFun (V1_eq m c).symm _)
/-- Every other buffer is as it was. -/
theorem hrest0 (c : Dev nD) : ∀ b, b ∉ Finset.univ.image (Pipeline.arrRef spec0) → V1 m (outsF m) c b = Ve0 m c b :=
  fun b hb => V1_of m (outsF m) c b fun h => hb (by
    simp only [List.mem_cons, List.mem_nil_iff, or_false] at h
    rcases h with rfl | rfl
    · exact Finset.mem_image.mpr ⟨1, Finset.mem_univ _, rfl⟩
    · exact Finset.mem_image.mpr ⟨2, Finset.mem_univ _, rfl⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V0 m c) ∗ EE 0 c)
  post c := iprop(StableHlo.held (c : Thread nD τ) (Pipeline.ucRefs τ sig) (V1 m (outsF m) c) ∗ EE 1 c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => V1 m (outsF m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second kernel -/

/-- A buffer the kernel does not write holds after it what the host lines before it left. -/
theorem X3_of (c : Dev nD) (r : Ref sig .tc) (h : r ∉ ([main_v11] : List (Ref sig .tc))) : X3 m c r = StableHlo.after hostOps1 (X1 m c) r := by
  unfold X3; rw [Function.update_of_ne (StableHlo.devRef_ne_of_ne (List.ne_of_not_mem_cons h) : (Proc.devRef .tc r : DevRef τ sig) ≠ Proc.devRef .tc main_v11)]

/-- Each of its arrays after it: the inputs as entered, the output at what the write-backs leave. -/
theorem hF1 (c : Dev nD) (w : Fin cfg1.W) : (dat1 (Ve2 m) c).arrAt w cfg1.N = X3 m c (Pipeline.arrRef spec1 w) := by
  match w with
  | ⟨0, _⟩ => exact ((dat1 (Ve2 m) c).arrAt_in 0 rfl _).trans ((A_eq1 (Ve2 m) c 0).trans (X3_of m c main_v9 (by decide)).symm)
  | ⟨1, _⟩ => exact ((dat1 (Ve2 m) c).arrAt_in 1 rfl _).trans ((A_eq1 (Ve2 m) c 1).trans (X3_of m c main_v9 (by decide)).symm)
  | ⟨2, _⟩ => exact ((dat1 (Ve2 m) c).arrAt_in 2 rfl _).trans ((A_eq1 (Ve2 m) c 2).trans (X3_of m c main_v0_1 (by decide)).symm)
  | ⟨3, _⟩ => exact ((dat1 (Ve2 m) c).arrAt_in 3 rfl _).trans ((A_eq1 (Ve2 m) c 3).trans (X3_of m c main_arg0 (by decide)).symm)
  | ⟨4, _⟩ => exact ((dat1 (Ve2 m) c).arrAt_in 4 rfl _).trans ((A_eq1 (Ve2 m) c 4).trans (X3_of m c main_v4 (by decide)).symm)
  | ⟨5, _⟩ => exact ((dat1 (Ve2 m) c).arrAt_in 5 rfl _).trans ((A_eq1 (Ve2 m) c 5).trans (X3_of m c main_v10 (by decide)).symm)
  | ⟨6, _⟩ => exact (X3_a m c).symm
/-- Every other buffer is as it was. -/
theorem hrest1 (c : Dev nD) : ∀ b, b ∉ Finset.univ.image (Pipeline.arrRef spec1) → X3 m c b = Ve2 m c b :=
  fun b hb => X3_of m c b fun h => hb (by
    simp only [List.mem_cons, List.mem_nil_iff, or_false] at h
    rcases h with rfl
    · exact Finset.mem_image.mpr ⟨6, Finset.mem_univ _, rfl⟩)

set_option backward.isDefEq.respectTransparency.types false in
set_option maxHeartbeats 2000000 in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve2 m) c).loose
  hwaits := Pipeline.hwaits_of_owed_zero _ _ _ _ L lv 1 fun c t => owed1 (Ve2 m) c t
  pre c := iprop(StableHlo.held (c : Thread nD τ) (Pipeline.ucRefs τ sig) (V2 m (outsF m) c) ∗ EE 1 c)
  post c := iprop(StableHlo.held (c : Thread nD τ) (Pipeline.ucRefs τ sig) (V3 m (outsF m) c) ∗ EE 2 c)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none, V2_eq, ← Pipeline.unscopedBufs_held (Ix := Unit) (Name := ℕ) (U := UR sig nD τ) (Lvl := ℕ) c (StableHlo.after hostOps1 (X1 m c)),
      Pipeline.unscopedBufs_split₀ cfgs 1 winFacts₀1.arr_unscoped c (Ve2 m c)]
    iintro ⟨⟨⟨Hbufs, Hrest⟩, Hp, HO⟩, -, -⟩
    imodintro
    isplitl [Hbufs]
    · iapply (arrays1_of_bufs (dat1 (Ve2 m) c) (share1_0 (Ve2 m) c) (share1_1 (Ve2 m) c) (share1_ge (Ve2 m) c 2 (by decide)) (share1_ge (Ve2 m) c 3 (by decide)) (share1_ge (Ve2 m) c 4 (by decide)) (share1_ge (Ve2 m) c 5 (by decide)) (share1_ge (Ve2 m) c 6 (by decide)) (Ve2 m c) ((dat1 (Ve2 m) c).arrAt · 0) (fun w => A_eq1 (Ve2 m) c w))
      iexact Hbufs
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h0.trans (hin1 (Ve2 m) c)
  hout c := by
    rw [Pipeline.ownSems0_none]
    have h1 : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (Ve2 m) c).trans h1
  hexit c := by
    rw [V3_eq, ← Pipeline.unscopedBufs_held (Ix := Unit) (Name := ℕ) (U := UR sig nD τ) (Lvl := ℕ) c (X3 m c),
      Pipeline.unscopedBufs_split₀ cfgs 1 winFacts₀1.arr_unscoped c (fun b => X3 m c b)]
    have hrestEq : (Pipeline.unscopedRest (Ix := Unit) (Name := ℕ) (U := UR sig nD τ) (Lvl := ℕ) spec1 c (Ve2 m c) : sProp 𝕄)
        = Pipeline.unscopedRest (cfgs 1).spec c (fun b => X3 m c b) := by
      unfold Pipeline.unscopedRest
      exact bigSep_congr fun b hb => by beta_reduce; rw [hrest1 m c b (Finset.mem_sdiff.mp hb).2]
    iintro ⟨Ha, HO, HY, Hrest⟩
    imodintro
    isplitl [Ha Hrest]
    · isplitl [Ha]
      · iapply (bufs_of_arrays1 (dat1 (Ve2 m) c) (share1_0 (Ve2 m) c) (share1_1 (Ve2 m) c) (share1_ge (Ve2 m) c 2 (by decide)) (share1_ge (Ve2 m) c 3 (by decide)) (share1_ge (Ve2 m) c 4 (by decide)) (share1_ge (Ve2 m) c 5 (by decide)) (share1_ge (Ve2 m) c 6 (by decide)) (fun b => X3 m c b) ((dat1 (Ve2 m) c).arrAt · cfg1.N) (hF1 m c))
        iexact Ha
      rw [← hrestEq]; iexact Hrest
    isplitl [HY]; · iexact HY
    unfold Pipeline.Dat.owesAt Pipeline.owesWithin
    icases HO with ⟨%W, -, HO⟩; iexists W; iexact HO

/-! ## The third kernel -/

/-- A buffer the kernel does not write holds after it what the host lines before it left. -/
theorem X5_of (c : Dev nD) (r : Ref sig .tc) (h : r ∉ ([main_v15_0, main_v15_1] : List (Ref sig .tc))) : X5 m c r = StableHlo.after hostOps2 (X3 m c) r := by
  unfold X5; rw [Function.update_of_ne (StableHlo.devRef_ne_of_ne (List.ne_of_not_mem_cons (List.not_mem_of_not_mem_cons h)) : (Proc.devRef .tc r : DevRef τ sig) ≠ Proc.devRef .tc main_v15_1), Function.update_of_ne (StableHlo.devRef_ne_of_ne (List.ne_of_not_mem_cons h) : (Proc.devRef .tc r : DevRef τ sig) ≠ Proc.devRef .tc main_v15_0)]

/-- Each of its arrays after it: the inputs as entered, the outputs at what the write-backs leave. -/
theorem hF2 (c : Dev nD) (w : Fin cfg2.W) : (dat2 (Ve4 m) c).arrAt w cfg2.N = X5 m c (Pipeline.arrRef spec2 w) := by
  match w with
  | ⟨0, _⟩ => exact ((dat2 (Ve4 m) c).arrAt_in 0 rfl _).trans ((A_eq2 (Ve4 m) c 0).trans (X5_of m c main_v12 (by decide)).symm)
  | ⟨1, _⟩ => exact ((dat2 (Ve4 m) c).arrAt_in 1 rfl _).trans ((A_eq2 (Ve4 m) c 1).trans (X5_of m c main_v12 (by decide)).symm)
  | ⟨2, _⟩ => exact ((dat2 (Ve4 m) c).arrAt_in 2 rfl _).trans ((A_eq2 (Ve4 m) c 2).trans (X5_of m c main_v0_1 (by decide)).symm)
  | ⟨3, _⟩ => exact ((dat2 (Ve4 m) c).arrAt_in 3 rfl _).trans ((A_eq2 (Ve4 m) c 3).trans (X5_of m c main_v11 (by decide)).symm)
  | ⟨4, _⟩ => exact ((dat2 (Ve4 m) c).arrAt_in 4 rfl _).trans ((A_eq2 (Ve4 m) c 4).trans (X5_of m c main_v6 (by decide)).symm)
  | ⟨5, _⟩ => exact ((dat2 (Ve4 m) c).arrAt_in 5 rfl _).trans ((A_eq2 (Ve4 m) c 5).trans (X5_of m c main_v13 (by decide)).symm)
  | ⟨6, _⟩ => exact ((dat2 (Ve4 m) c).arrAt_in 6 rfl _).trans ((A_eq2 (Ve4 m) c 6).trans (X5_of m c main_v8 (by decide)).symm)
  | ⟨7, _⟩ => exact ((dat2 (Ve4 m) c).arrAt_in 7 rfl _).trans ((A_eq2 (Ve4 m) c 7).trans (X5_of m c main_v14 (by decide)).symm)
  | ⟨8, _⟩ => exact (X5_a m c).symm
  | ⟨9, _⟩ => exact (X5_b m c).symm
/-- Every other buffer is as it was. -/
theorem hrest2 (c : Dev nD) : ∀ b, b ∉ Finset.univ.image (Pipeline.arrRef spec2) → X5 m c b = Ve4 m c b :=
  fun b hb => X5_of m c b fun h => hb (by
    simp only [List.mem_cons, List.mem_nil_iff, or_false] at h
    rcases h with rfl | rfl
    · exact Finset.mem_image.mpr ⟨8, Finset.mem_univ _, rfl⟩
    · exact Finset.mem_image.mpr ⟨9, Finset.mem_univ _, rfl⟩)

set_option backward.isDefEq.respectTransparency.types false in
set_option maxHeartbeats 2000000 in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Ve4 m) c).loose
  hwaits := Pipeline.hwaits_of_owed_zero _ _ _ _ L lv 2 fun c t => owed2 (Ve4 m) c t
  pre c := iprop(StableHlo.held (c : Thread nD τ) (Pipeline.ucRefs τ sig) (V4 m (outsF m) c) ∗ EE 2 c)
  post c := iprop(StableHlo.held (c : Thread nD τ) (Pipeline.ucRefs τ sig) (V5 m (outsF m) c) ∗ EE 3 c)
  X c := iprop(∃ r, prngReg c r)
  Y c := iprop(∃ r, prngReg c r)
  Z c := Pipeline.unscopedRest (Ix := Unit) (Name := ℕ) (U := UR sig nD τ) (Lvl := ℕ) spec2 c (Ve4 m c)
  hentry c := by
    rw [Pipeline.ownSems0_none, V4_eq, ← Pipeline.unscopedBufs_held (Ix := Unit) (Name := ℕ) (U := UR sig nD τ) (Lvl := ℕ) c (StableHlo.after hostOps2 (X3 m c)),
      Pipeline.unscopedBufs_split₀ cfgs 2 winFacts₀2.arr_unscoped c (Ve4 m c)]
    iintro ⟨⟨⟨Hbufs, Hrest⟩, Hp, HO⟩, -, -⟩
    imodintro
    isplitl [Hbufs]
    · iapply (arrays2_of_bufs (dat2 (Ve4 m) c) (share2_0 (Ve4 m) c) (share2_1 (Ve4 m) c) (share2_ge (Ve4 m) c 2 (by decide)) (share2_ge (Ve4 m) c 3 (by decide)) (share2_ge (Ve4 m) c 4 (by decide)) (share2_ge (Ve4 m) c 5 (by decide)) (share2_ge (Ve4 m) c 6 (by decide)) (share2_ge (Ve4 m) c 7 (by decide)) (share2_ge (Ve4 m) c 8 (by decide)) (share2_ge (Ve4 m) c 9 (by decide)) (Ve4 m c) ((dat2 (Ve4 m) c).arrAt · 0) (fun w => A_eq2 (Ve4 m) c w))
      iexact Hbufs
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : (iprop((∃ r, prngReg c r) ∗ Pipeline.prefHeld (pcfgs (F := F) 2).pre c (fun _ => fullShare) (adm (F := F) 2).1
        ∗ Pipeline.scopedRest (Pipeline.pin (pcfgs (F := F)) adm 2).spec c) : sProp 𝕄) ⊢ Pipeline.ΦA spec2 c := by
      unfold Pipeline.ΦA
      iintro ⟨Hp, -, Hr⟩
      isplitl [Hr]; · iexact Hr
      iexact Hp
    exact h0.trans (hin2 (Ve4 m) c)
  hout c := by
    rw [Pipeline.ownSems0_none]
    have h1 : (Pipeline.ΦA spec2 c : sProp 𝕄) ⊢ iprop((∃ r, prngReg c r) ∗ BI.emp ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (hout2 (Ve4 m) c).trans h1
  hexit c := by
    rw [V5_eq, ← Pipeline.unscopedBufs_held (Ix := Unit) (Name := ℕ) (U := UR sig nD τ) (Lvl := ℕ) c (X5 m c),
      Pipeline.unscopedBufs_split₀ cfgs 2 winFacts₀2.arr_unscoped c (fun b => X5 m c b)]
    have hrestEq : (Pipeline.unscopedRest (Ix := Unit) (Name := ℕ) (U := UR sig nD τ) (Lvl := ℕ) spec2 c (Ve4 m c) : sProp 𝕄)
        = Pipeline.unscopedRest (cfgs 2).spec c (fun b => X5 m c b) := by
      unfold Pipeline.unscopedRest
      exact bigSep_congr fun b hb => by beta_reduce; rw [hrest2 m c b (Finset.mem_sdiff.mp hb).2]
    iintro ⟨Ha, HO, HY, Hrest⟩
    imodintro
    isplitl [Ha Hrest]
    · isplitl [Ha]
      · iapply (bufs_of_arrays2 (dat2 (Ve4 m) c) (share2_0 (Ve4 m) c) (share2_1 (Ve4 m) c) (share2_ge (Ve4 m) c 2 (by decide)) (share2_ge (Ve4 m) c 3 (by decide)) (share2_ge (Ve4 m) c 4 (by decide)) (share2_ge (Ve4 m) c 5 (by decide)) (share2_ge (Ve4 m) c 6 (by decide)) (share2_ge (Ve4 m) c 7 (by decide)) (share2_ge (Ve4 m) c 8 (by decide)) (share2_ge (Ve4 m) c 9 (by decide)) (fun b => X5 m c b) ((dat2 (Ve4 m) c).arrAt · cfg2.N) (hF2 m c))
        iexact Ha
      rw [← hrestEq]; iexact Hrest
    isplitl [HY]; · iexact HY
    unfold Pipeline.Dat.owesAt Pipeline.owesWithin
    icases HO with ⟨%W, -, HO⟩; iexists W; iexact HO

/-! ## The whole run -/

set_option backward.isDefEq.respectTransparency.types false in
/-- From any memory with zero counters every weakly fair execution of the program terminates, and every buffer outside
    the kernels' private memory then holds what the chain of items leaves in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X5 m c b) := by
  have h := run_cond m emb₁ () 𝒱₀ L lv (fun _ _ => rfl) ρ (outsF m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := EE)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (reg0 m) (fun _ => .rfl) (fun _ => .rfl) (reg1 m) (fun _ => .rfl) (fun _ => .rfl) (reg2 m) (fun _ => .rfl) (fun _ => .rfl)
  exact (θ_run defs _ _).mono (fun r h c b hb => (h c b hb).trans (congrFun (V5_eq m c) b)) h

/-- The frame: every argument array ends as launched (no item writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_all m ρ)
  have key : ∀ (a : Ref sig .tc) (hu : ¬ (Proc.devRef .tc a : DevRef τ sig).isScoped), r.2.mem ((c.tc : Thread nD τ).loc a) = V5 m (outsF m) c a := fun a hu =>
    (h c (Proc.devRef .tc a) (Finset.mem_filter.mpr ⟨StableHlo.devRef_mem_tcRefs a, hu⟩)).trans (congrFun (V5_eq m c).symm _)
  exact ⟨(key main_arg0 (by decide)).trans (V5_main_arg0 m (outsF m) c), (key main_arg1 (by decide)).trans (V5_main_arg1 m (outsF m) c),
    (key main_arg2 (by decide)).trans (V5_main_arg2 m (outsF m) c), (key main_arg3 (by decide)).trans (V5_main_arg3 m (outsF m) c),
    (key main_arg4 (by decide)).trans (V5_main_arg4 m (outsF m) c), (key main_arg5 (by decide)).trans (V5_main_arg5 m (outsF m) c),
    (key main_arg6 (by decide)).trans (V5_main_arg6 m (outsF m) c), (key main_arg7 (by decide)).trans (V5_main_arg7 m (outsF m) c)⟩

/-- The run read at the two results and the eight arguments: the results at what the third kernel leaves, the
    arguments as launched. -/
theorem run_value : θ_run defs (onTc (τ := τ) (main (F := F))) ⟨m, fun _ => 0, ρ⟩ (fun r => ∀ c : Dev nD,
      r.2.mem ((c.tc : Thread nD τ).loc main_v15_0) = X5 m c main_v15_0
      ∧ r.2.mem ((c.tc : Thread nD τ).loc main_v15_1) = X5 m c main_v15_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_all m ρ)
  have key : ∀ (a : Ref sig .tc) (hu : ¬ (Proc.devRef .tc a : DevRef τ sig).isScoped), r.2.mem ((c.tc : Thread nD τ).loc a) = X5 m c a := fun a hu =>
    h c (Proc.devRef .tc a) (Finset.mem_filter.mpr ⟨StableHlo.devRef_mem_tcRefs a, hu⟩)
  have arg : ∀ (a : Ref sig .tc) (hu : ¬ (Proc.devRef .tc a : DevRef τ sig).isScoped) (ha : V5 m (outsF m) c a = m ((c.tc : Thread nD τ).loc a)),
      r.2.mem ((c.tc : Thread nD τ).loc a) = m ((c.tc : Thread nD τ).loc a) := fun a hu ha =>
    (key a hu).trans ((congrFun (V5_eq m c).symm _).trans ha)
  exact ⟨key main_v15_0 (by decide), key main_v15_1 (by decide),
    arg main_arg0 (by decide) (V5_main_arg0 m (outsF m) c), arg main_arg1 (by decide) (V5_main_arg1 m (outsF m) c),
    arg main_arg2 (by decide) (V5_main_arg2 m (outsF m) c), arg main_arg3 (by decide) (V5_main_arg3 m (outsF m) c),
    arg main_arg4 (by decide) (V5_main_arg4 m (outsF m) c), arg main_arg5 (by decide) (V5_main_arg5 m (outsF m) c),
    arg main_arg6 (by decide) (V5_main_arg6 m (outsF m) c), arg main_arg7 (by decide) (V5_main_arg7 m (outsF m) c)⟩

end Cert.Kernel.Hand

end
-- ==== Proof.KI.R0Runs.lean ====
/-
  The column-sum pass (the first of the three kernels), one grid point at a time.

  The grid is 8 column tiles by 8 row tiles, the row tile r innermost. At a point the body holds a 1024 × 1024 tile of
  the adjacency, a 1 × 1024 strip of running column sums, and a 1024 × 1024 tile of the half-precision copy. When r = 0
  the strip is first set to zero; at every point the tile's column sums are added to the strip and the tile is copied.
  Two cases therefore: r = 0 (the strip's earlier contents are irrelevant) and r > 0 (the strip continues from what the
  point before left, since it is written back only after the last row tile).
  Stated here: the tile a window shows at a point, read off the array as the kernel finds it; the branch condition in
  closed form over the grid; and, per case, that the body run on whole staging buffers ends with the tile untouched and
  each output buffer overwritten by a list of stored pieces, the list being found by running the body.
-/
import proofs.«123374_j59193239273550_2_alg».proof.Proof.Gen.KernelIdeal.Launch
import proofs.«123374_j59193239273550_2_alg».proof.Proof.Gen.KernelIdeal.Skeleton
import proofs.«123374_j59193239273550_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile's staging buffer holds the tile at every point (it is fetched at every point), for any proof
    data whose array is the entry contents and whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The branch condition -/

/-- "The row tile is the first": the body's one conditional, from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging buffers at a point -/

/-- One staging buffer of each output window, through which its contents are stated. -/
abbrev VO0_1 : View sig .tc .vmem S1x1024 .f32 := (Memref.whole cc0_stg1_0 : Memref sig .tc .vmem S1x1024 .f32).view
abbrev VO0_2 : View sig .tc .vmem S1024x1024 .bf16 := (Memref.whole cc0_stg2_0 : Memref sig .tc .vmem S1024x1024 .bf16).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)

/-! ## The body, case by case -/

set_option maxHeartbeats 1000000 in
/-- FIRST ROW TILE. On whole staging buffers, the tile at `x0` and both outputs at anything, the body ends with the tile
    as it was and each output overwritten by its stored pieces (last first). -/
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : cond0_0 i)
    (x0 : Vec F S1024x1024 .f32) :
    Σ' (L1 : List (View.Piece (Elt F) S1x1024 .f32)), { L2 : List (View.Piece (Elt F) S1024x1024 .bf16) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__colsum_kernel i arg2 harg2 arg3 harg3 arg4 harg4) K } := by
  refine ⟨?_, ?_, fun E K => ?run⟩
  case run =>
    simp only [cc0__colsum_kernel_eq_skeleton]; unfold cc0__colsum_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

set_option maxHeartbeats 1000000 in
/-- A LATER ROW TILE. The same, the strip of running sums at the contents `xo1` the point before left. -/
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : ¬cond0_0 i)
    (x0 : Vec F S1024x1024 .f32) (xo1 : Vec F S1x1024 .f32) :
    Σ' (L1 : List (View.Piece (Elt F) S1x1024 .f32)), { L2 : List (View.Piece (Elt F) S1024x1024 .bf16) //
      ∀ (E : Set ℕ) (K : PUnit → sProp 𝕄),
        iprop(owns (c : Thread nD τ) arg2 fullShare x0 ∗ owns (c : Thread nD τ) arg3 fullShare xo1 ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__colsum_kernel i arg2 harg2 arg3 harg3 arg4 harg4) K } := by
  refine ⟨?_, ?_, fun E K => ?run⟩
  case run =>
    simp only [cc0__colsum_kernel_eq_skeleton]; unfold cc0__colsum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; iexact H1
    iexists _; iexact H2

end Cert.KernelIdeal.Hand

end
-- ==== Proof.KI.R0.lean ====
/-
  The column-sum pass over the whole grid: what the two output buffers hold after each point, and that the body does
  what the pipeline asks of it at every point.

  After a point the strip of running sums holds: at a first row tile (r = 0) what the body stores over any earlier
  contents; at a later one what the body stores over the strip the point before left. The half-precision tile is
  stored whole at every point. The stores of each case tile the buffer they go to, so the buffer's contents after the
  body are those stores read back, whatever it held before.
-/
import proofs.«123374_j59193239273550_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem cover0_A_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : cond0_0 i) (x0 : Vec F S1024x1024 .f32) (y : S1x1024.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S1x1024.size (by sl_kernel_rfl) y
theorem cover0_A_2 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : cond0_0 i) (x0 : Vec F S1024x1024 .f32) (y : S1024x1024.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S1024x1024.size (by sl_kernel_rfl) y
/-- The strip after a first-row-tile point: its stores read back. -/
def out0_A_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : cond0_0 i) (x0 : Vec F S1024x1024 .f32) : Vec F S1x1024 .f32 :=
  VO0_1.read (Elt F) (VO0_1.writes (Elt F) VO0_1.junk (kernelRun0_A c i arg2 harg2 arg3 harg3 arg4 harg4 hc0 x0).1)
/-- The half-precision tile after a first-row-tile point. -/
def out0_A_2 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : cond0_0 i) (x0 : Vec F S1024x1024 .f32) : Vec F S1024x1024 .bf16 :=
  VO0_2.read (Elt F) (VO0_2.writes (Elt F) VO0_2.junk (kernelRun0_A c i arg2 harg2 arg3 harg3 arg4 harg4 hc0 x0).2.1)

theorem cover0_B_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : ¬cond0_0 i) (x0 : Vec F S1024x1024 .f32) (xo1 : Vec F S1x1024 .f32) (y : S1x1024.Idx) :
    ∃ pc ∈ (kernelRun0_B c i arg2 harg2 arg3 harg3 arg4 harg4 hc0 x0 xo1).1, y ∈ pc.1.set :=
  View.cover_of_tiledL (kernelRun0_B c i arg2 harg2 arg3 harg3 arg4 harg4 hc0 x0 xo1).1 S1x1024.size (by sl_kernel_rfl) y
theorem cover0_B_2 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : ¬cond0_0 i) (x0 : Vec F S1024x1024 .f32) (xo1 : Vec F S1x1024 .f32) (y : S1024x1024.Idx) :
    ∃ pc ∈ (kernelRun0_B c i arg2 harg2 arg3 harg3 arg4 harg4 hc0 x0 xo1).2.1, y ∈ pc.1.set :=
  View.cover_of_tiledL (kernelRun0_B c i arg2 harg2 arg3 harg3 arg4 harg4 hc0 x0 xo1).2.1 S1024x1024.size (by sl_kernel_rfl) y
/-- The strip after a later point, over the strip `xo1` the point before left. -/
def out0_B_1 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : ¬cond0_0 i) (x0 : Vec F S1024x1024 .f32) (xo1 : Vec F S1x1024 .f32) : Vec F S1x1024 .f32 :=
  VO0_1.read (Elt F) (VO0_1.writes (Elt F) VO0_1.junk (kernelRun0_B c i arg2 harg2 arg3 harg3 arg4 harg4 hc0 x0 xo1).1)
def out0_B_2 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (hc0 : ¬cond0_0 i) (x0 : Vec F S1024x1024 .f32) (xo1 : Vec F S1x1024 .f32) : Vec F S1024x1024 .bf16 :=
  VO0_2.read (Elt F) (VO0_2.writes (Elt F) VO0_2.junk (kernelRun0_B c i arg2 harg2 arg3 harg3 arg4 harg4 hc0 x0 xo1).2.1)

/-! ## Point by point -/

/-- The two output buffers (strip, half-precision tile) after the body at position `n`. -/
def outsAt0 (c : Dev nD) : (n : ℕ) → n < cfg0.N → Vec F S1x1024 .f32 × Vec F S1024x1024 .bf16
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩),
              out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 8 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩),
       out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1,
       out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).1)

theorem outsAt0_A (c : Dev nD) (t : Fin cfg0.N) (h0 : t.val % 8 = 0) :
    outsAt0 V c t.val t.isLt = (out0_A_1 c (grid0.coords t) (ms0_0 t) (hs0_0 t) (ms0_1 t) (hs0_1 t) (ms0_2 t) (hs0_2 t) ((hcond0_0 t).mpr h0) (iblk0 V c 0 t), out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_1 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1,
      out0_B_2 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The proof data -/

/-- The arrays as the kernel finds them; after the body at a point the tile's buffer at the tile and the two outputs'
    at `outsAt0`; nothing carried outside the windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d

/-- At a later row tile the strip's buffer holds what the body left at the point before: it is written back only
    after the last row tile, so not between. -/
theorem before0_1_B (c : Dev nD) (t : Fin cfg0.N) (h0 : ¬t.val % 8 = 0) (d) :
    (dat0 V c).before 1 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 64 := lt_of_lt_of_eq t.isLt (show cfg0.N = 64 from N_0)
  by_cases h0 : t.val % 8 = 0
  · rw [outsAt0_A V c t h0]
    unfold out0_A_1 out0_A_2; (try dsimp only)
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    unfold owns; iexists _; isplitr
    swap; · iexact H2
    ipureintro; exact View.read_writes_of_cover _ _ _ _ _ (cover0_A_2 c _ _ _ _ _ _ _ _ _)
  · rw [outsAt0_B V c t h0]
    simp only [before0_1_B V c t h0]
    unfold out0_B_1 out0_B_2; (try dsimp only)
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _).2.2 Set.univ _)
    isplitl [H0]; · iexact H0
    isplitl [H1]; · iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _)
    unfold owns; iexists _; isplitr
    swap; · iexact H2
    ipureintro; exact View.read_writes_of_cover _ _ _ _ _ (cover0_B_2 c _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- The invariant is the same before every point: what the launch hands the region is it, and it is given back. -/
theorem hin0 (c : Dev nD) : Pipeline.ΦA spec0 c ⊢ (dat0 V c).Φ 0 := Idealize.SL.BI.Entails.refl _
theorem hout0 (c : Dev nD) : (dat0 V c).Φ (Fin.last cfg0.N) ⊢ Pipeline.ΦA spec0 c := Idealize.SL.BI.Entails.refl _

end Cert.KernelIdeal.Hand

end
-- ==== Proof.KI.R1Runs.lean ====
/-
  Region 1, the first graph layer  H = max((d · (A (d · X))) Wᵗ + b, 0), computed tile by tile: for each block of
  1024 output rows (grid coordinate 0) the reduction coordinate k (grid coordinate 1) runs over the eight 1024-wide
  column blocks of A, and an accumulator kept between points holds the partial sum  Σ_{k' ≤ k} A[i, k'] (d ∘ X)[k'].

  This module holds what the three control cases of the body share: each window's block at a point, that an input's
  buffer holds its block at every point, the two branch conditions in closed form over the 64 points
  (k = 0 : the accumulator is reset first; k = 7 : the accumulated product is scaled, multiplied by Wᵗ, shifted by b,
  clamped at zero and stored), where the output window is idle (every point with k ≠ 7), and the region invariant
  with the accumulator singled out among the core's scoped buffers.
-/
import proofs.«123374_j59193239273550_2_alg».proof.Proof.Gen.KernelIdeal.Launch
import proofs.«123374_j59193239273550_2_alg».proof.Proof.Gen.KernelIdeal.Skeleton
import proofs.«123374_j59193239273550_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, so the block the point before left in place is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved, so the block the point before left in place is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved, so the block the point before left in place is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved, so the block the point before left in place is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved, so the block the point before left in place is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved, so the block the point before left in place is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- "The reduction coordinate is 0": the condition under which the accumulator is reset. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "The reduction coordinate is 7": the condition under which the layer's output block is computed and stored. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0, an input, is never idle. -/
theorem liveAt1_0 : ∀ t : Fin cfg1.N, cfg1.idle 0 (grid1.coords t) = false := by decide +kernel
/-- Window 1, an input, is never idle. -/
theorem liveAt1_1 : ∀ t : Fin cfg1.N, cfg1.idle 1 (grid1.coords t) = false := by decide +kernel
/-- Window 2, an input, is never idle. -/
theorem liveAt1_2 : ∀ t : Fin cfg1.N, cfg1.idle 2 (grid1.coords t) = false := by decide +kernel
/-- Window 3, an input, is never idle. -/
theorem liveAt1_3 : ∀ t : Fin cfg1.N, cfg1.idle 3 (grid1.coords t) = false := by decide +kernel
/-- Window 4, an input, is never idle. -/
theorem liveAt1_4 : ∀ t : Fin cfg1.N, cfg1.idle 4 (grid1.coords t) = false := by decide +kernel
/-- Window 5, an input, is never idle. -/
theorem liveAt1_5 : ∀ t : Fin cfg1.N, cfg1.idle 5 (grid1.coords t) = false := by decide +kernel
/-- Where k = 0 the output window is idle: nothing is stored into it, -/
theorem idleAt1_6_A : ∀ t : Fin cfg1.N, cond1_0 (grid1.coords t) → ¬cond1_1 (grid1.coords t) → cfg1.idle 6 (grid1.coords t) = true := by decide +kernel
/-- and its block is not written back. -/
theorem noFlush1_6_A : ∀ t : Fin cfg1.N, cond1_0 (grid1.coords t) → ¬cond1_1 (grid1.coords t) → (cfg1.win 6).flush t = false := by decide +kernel
/-- Where 0 < k < 7 the output window is idle, -/
theorem idleAt1_6_B : ∀ t : Fin cfg1.N, ¬cond1_0 (grid1.coords t) → ¬cond1_1 (grid1.coords t) → cfg1.idle 6 (grid1.coords t) = true := by decide +kernel
/-- and its block is not written back. -/
theorem noFlush1_6_B : ∀ t : Fin cfg1.N, ¬cond1_0 (grid1.coords t) → ¬cond1_1 (grid1.coords t) → (cfg1.win 6).flush t = false := by decide +kernel
/-- Where k = 7 the output window is live: the body stores its block. -/
theorem liveAt1_6_C : ∀ t : Fin cfg1.N, ¬cond1_0 (grid1.coords t) → cond1_1 (grid1.coords t) → cfg1.idle 6 (grid1.coords t) = false := by decide +kernel

/-! ## The memrefs the body is called with -/

/-- One staging buffer of the output window, through which its contents are stated (which one does not matter). -/
abbrev VO1_6 : View sig .tc .vmem S1024x512 .f32 := (Memref.whole cc1_stg6_0 : Memref sig .tc .vmem S1024x512 .f32).view
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows. -/
abbrev scM1_0 : Memref sig .tc .vmem S1024x512 .f32 := Memref.whole cc1_scratch0
/-- The accumulator as a view: what it holds is stated through it. -/
abbrev VS1_0 : View sig .tc .vmem S1024x512 .f32 := scM1_0.view

/-- The core's scoped buffers other than this call's staging buffers and its accumulator, at some contents each:
    carried through the region unopened. -/
abbrev others1 (c : Dev nD) : sProp 𝕄 :=
  Pipeline.scopedRestBut (Ix := Unit) (Name := ℕ) (U := UR sig nD τ) (Lvl := ℕ) (Val := Elt F) spec1 c [cc1_scratch0]

/-- The region invariant with the accumulator singled out, owned at some contents. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA others1
  rw [Pipeline.scopedRest_split_of_list spec1 c [cc1_scratch0] (by decide) (by decide)]
  simp only [bigSepL_singleton, scM1_0, owns_whole]; try rfl

end Cert.KernelIdeal.Hand

end
-- ==== Proof.KI.R1RunA.lean ====
/-
  Region 1, the body where the reduction coordinate is 0: the accumulator is reset to zero, then the first tile product
  A[i, 0] (d ∘ X)[0] is added to it; nothing is stored into the output window.
-/
import proofs.«123374_j59193239273550_2_alg».proof.Proof.KI.R1Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref and in the accumulator, as pieces (last first),
    with the proof that on whole memrefs — each input's at its contents, the output's and the accumulator's as stated —
    the body runs to the continuation holding each input's as it was and each stored buffer with its pieces written.
    The pieces are the witness the run finds. -/
noncomputable def kernelRun1_A (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) :
    Σ' (L6 : List (View.Piece (Elt F) S1024x512 .f32)), { LS0 : List (View.Piece (Elt F) S1024x512 .f32) //
      ∀ (xi6 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_linear_kernel i arg2 harg2 arg3 harg3 arg4 harg4 arg5 harg5 arg6 harg6 arg7 harg7 arg8 harg8 arg9 harg9) K } := by
  refine ⟨[], ?_, fun xi6 E K => ?run⟩
  case run =>
    simp only [cc1__gcn_linear_kernel_eq_skeleton]; unfold cc1__gcn_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.R1RunB.lean ====
/-
  Region 1, the body where the reduction coordinate k is strictly between 0 and 7: the tile product A[i, k] (d ∘ X)[k]
  is added to the accumulator as the point before left it; nothing is stored into the output window.
-/
import proofs.«123374_j59193239273550_2_alg».proof.Proof.KI.R1RunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref and in the accumulator, as pieces (last first),
    with the proof that on whole memrefs — each input's at its contents, the output's and the accumulator's as stated —
    the body runs to the continuation holding each input's as it was and each stored buffer with its pieces written.
    The pieces are the witness the run finds. -/
noncomputable def kernelRun1_B (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) :
    Σ' (L6 : List (View.Piece (Elt F) S1024x512 .f32)), { LS0 : List (View.Piece (Elt F) S1024x512 .f32) //
      ∀ (xi6 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_linear_kernel i arg2 harg2 arg3 harg3 arg4 harg4 arg5 harg5 arg6 harg6 arg7 harg7 arg8 harg8 arg9 harg9) K } := by
  refine ⟨[], ?_, fun xi6 E K => ?run⟩
  case run =>
    simp only [cc1__gcn_linear_kernel_eq_skeleton]; unfold cc1__gcn_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.R1RunC.lean ====
/-
  Region 1, the body where the reduction coordinate is 7: the last tile product A[i, 7] (d ∘ X)[7] is added to the
  accumulator, and the finished sum is scaled row by row by d, multiplied by Wᵗ, shifted by the bias, clamped at zero
  and stored as the output window's block.
-/
import proofs.«123374_j59193239273550_2_alg».proof.Proof.KI.R1RunB

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref and in the accumulator, as pieces (last first),
    with the proof that on whole memrefs — each input's at its contents, the output's and the accumulator's as stated —
    the body runs to the continuation holding each input's as it was and each stored buffer with its pieces written.
    The pieces are the witness the run finds. -/
noncomputable def kernelRun1_C (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) :
    Σ' (L6 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_linear_kernel i arg2 harg2 arg3 harg3 arg4 harg4 arg5 harg5 arg6 harg6 arg7 harg7 arg8 harg8 arg9 harg9) K } := by
  refine ⟨?_, ?_, fun E K => ?run⟩
  case run =>
    simp only [cc1__gcn_linear_kernel_eq_skeleton]; unfold cc1__gcn_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.R1.lean ====
/-
  Region 1, the first graph layer, over its whole grid: what the output window's buffer and the accumulator hold after
  each point, and that the body does at every point what the pipeline asks of it.

  The accumulator is carried from point to point: where the reduction coordinate k is 0 it is reset and then holds the
  first tile product; where 0 < k it holds what the point before left plus this point's tile product; where k = 7 the
  finished sum is turned into the layer's output block, the only point of the eight at which the output window is
  stored into and written back. In each case the body's stores tile the buffer they go to, so the buffer's contents
  after the body are those stores read back, whatever it held before.

  Two windows stage the same array (the scale vector d, once by output-row block and once by reduction block), so
  each holds half of it; every other input is held whole.
-/
import proofs.«123374_j59193239273550_2_alg».proof.Proof.KI.R1RunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Where k = 0 nothing is stored into the output window (it is idle there and not written back): no pieces —
    a placeholder that nothing consults. -/
def out1_A_6 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) : Vec F S1024x512 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Where k = 0 the body's stores into the accumulator tile it, so they cover it. -/
theorem scover1_A_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (y : S1024x512.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S1024x512.size (by sl_kernel_rfl) y

/-- What the body leaves in the accumulator where k = 0: its stores read back. -/
def sout1_A_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) : Vec F S1024x512 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- Where 0 < k < 7 nothing is stored into the output window (it is idle there and not written back): no pieces —
    a placeholder that nothing consults. -/
def out1_B_6 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) : Vec F S1024x512 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Where 0 < k < 7 the body's stores into the accumulator tile it, so they cover it. -/
theorem scover1_B_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) (y : S1024x512.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S1024x512.size (by sl_kernel_rfl) y

/-- What the body leaves in the accumulator where 0 < k < 7: its stores read back. -/
def sout1_B_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) : Vec F S1024x512 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- Where k = 7 the body's one store into the output window tiles its block, so it covers it. -/
theorem cover1_C_6 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) (y : S1024x512.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x512.size (by sl_kernel_rfl) y

/-- What the body leaves in the output window's buffer where k = 7: its store read back. -/
def out1_C_6 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) : Vec F S1024x512 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Where k = 7 the body's stores into the accumulator tile it, so they cover it. -/
theorem scover1_C_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) (y : S1024x512.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x512.size (by sl_kernel_rfl) y

/-- What the body leaves in the accumulator where k = 7: its stores read back. -/
def sout1_C_0 (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) : Vec F S1024x512 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-! ## Point by point -/

/-- THE ACCUMULATION. What the output window's buffer and the accumulator hold after the body at position `n`: the case
    the closed forms select there, run on the point's memrefs and input blocks, over the accumulator as the point before
    left it (where k = 0 it is reset first, so what it held does not matter). Both conditions at once is no case. -/
def outsAt1 (c : Dev nD) : (n : ℕ) → n < cfg1.N → Vec F S1024x512 .f32 × Vec F S1024x512 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point with k = 0. -/
theorem outsAt1_A (c : Dev nD) (t : Fin cfg1.N) (h0 : t.val % 8 = 0) (h1 : ¬t.val % 8 = 7) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point with 0 < k < 7: over what the point before left in the accumulator. -/
theorem outsAt1_B (c : Dev nD) (t : Fin cfg1.N) (h0 : ¬t.val % 8 = 0) (h1 : ¬t.val % 8 = 7) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 7: over what the point before left in the accumulator. -/
theorem outsAt1_C (c : Dev nD) (t : Fin cfg1.N) (h0 : ¬t.val % 8 = 0) (h1 : t.val % 8 = 7) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point what the launch hands the region; afterwards the
    accumulator at what the point before left in it, the core's other scoped buffers at some contents, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The proof data -/

/-- The arrays as the region finds them; after the body at a point each input's buffer at its block and the output's at
    `outsAt1`'s first component; the invariant `PhiS1`; nothing owed; the two windows on the scale vector at half of it
    each, every other input whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- The share held of each array: half of the scale vector through each of its two windows, every other array whole. -/
theorem share1_0 (c : Dev nD) : (dat1 V c).share 0 = fullShare.left := rfl
theorem share1_1 (c : Dev nD) : (dat1 V c).share 1 = fullShare.right := rfl
theorem share1_ge (c : Dev nD) (w : Fin cfg1.W) (h : 2 ≤ w.val) : (dat1 V c).share w = fullShare :=
  match w, h with
  | ⟨0, _⟩, h => by exfalso; dsimp only at h; omega
  | ⟨1, _⟩, h => by exfalso; dsimp only at h; omega
  | ⟨2, _⟩, _ => rfl
  | ⟨3, _⟩, _ => rfl
  | ⟨4, _⟩, _ => rfl
  | ⟨5, _⟩, _ => rfl
  | ⟨6, _⟩, _ => rfl
  | ⟨n + 7, hn⟩, _ => absurd hn (Nat.not_lt.2 (Nat.le_add_left _ _))
/-- Nothing is owed at any point. -/
theorem owed1 (c : Dev nD) (t : Fin (cfg1.N + 1)) : (dat1 V c).owed t = 0 := rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. Each input's memref holds its block; the closed forms say which case the point is in; the
    invariant hands the body the accumulator at what the point before left (at anything before the first point) and
    takes it back at this point's contents, the core's other scoped buffers and the generator register passing through
    unread; where k ≠ 7 the output window's buffer is handed back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.R2Runs.lean ====
/-
  Region 2, the second graph layer with the classifier head: H₂ = max((d · (A (d · H))) W₂ᵗ + b₂, 0) and the logits
  H₂ Fᵗ + f, computed tile by tile. For each block of 1024 output rows (grid coordinate 0) the reduction coordinate k
  (grid coordinate 1) runs over the eight 1024-wide column blocks of A, and an accumulator kept between points holds the
  partial sum  Σ_{k' ≤ k} A[i, k'] (d ∘ H)[k'].

  This module holds what the three control cases of the body share: each window's block at a point, that an input's
  buffer holds its block at every point, the two branch conditions in closed form over the 64 points
  (k = 0 : the accumulator is reset first; k = 7 : the accumulated product is scaled, multiplied by W₂ᵗ, shifted by b₂,
  clamped at zero and stored, and the head's affine map of that block is stored beside it), where the two output windows
  are idle (every point with k ≠ 7), and the region invariant with the accumulator singled out among the core's scoped
  buffers.
-/
import proofs.«123374_j59193239273550_2_alg».proof.Proof.Gen.KernelIdeal.Launch
import proofs.«123374_j59193239273550_2_alg».proof.Proof.Gen.KernelIdeal.Skeleton
import proofs.«123374_j59193239273550_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched its block index has not moved, so the block the point before left in place is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it is not
    fetched its block index has not moved, so the block the point before left in place is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it is not
    fetched its block index has not moved, so the block the point before left in place is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it is not
    fetched its block index has not moved, so the block the point before left in place is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: where it is not
    fetched its block index has not moved, so the block the point before left in place is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: where it is not
    fetched its block index has not moved, so the block the point before left in place is this point's. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: where it is not
    fetched its block index has not moved, so the block the point before left in place is this point's. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not: where it is not
    fetched its block index has not moved, so the block the point before left in place is this point's. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions -/

/-- "The reduction coordinate is 0": the condition under which the accumulator is reset. -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- "The reduction coordinate is 7": the condition under which the layer's output block is computed and stored. -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- Window 0, an input, is never idle. -/
theorem liveAt2_0 : ∀ t : Fin cfg2.N, cfg2.idle 0 (grid2.coords t) = false := by decide +kernel
/-- Window 1, an input, is never idle. -/
theorem liveAt2_1 : ∀ t : Fin cfg2.N, cfg2.idle 1 (grid2.coords t) = false := by decide +kernel
/-- Window 2, an input, is never idle. -/
theorem liveAt2_2 : ∀ t : Fin cfg2.N, cfg2.idle 2 (grid2.coords t) = false := by decide +kernel
/-- Window 3, an input, is never idle. -/
theorem liveAt2_3 : ∀ t : Fin cfg2.N, cfg2.idle 3 (grid2.coords t) = false := by decide +kernel
/-- Window 4, an input, is never idle. -/
theorem liveAt2_4 : ∀ t : Fin cfg2.N, cfg2.idle 4 (grid2.coords t) = false := by decide +kernel
/-- Window 5, an input, is never idle. -/
theorem liveAt2_5 : ∀ t : Fin cfg2.N, cfg2.idle 5 (grid2.coords t) = false := by decide +kernel
/-- Window 6, an input, is never idle. -/
theorem liveAt2_6 : ∀ t : Fin cfg2.N, cfg2.idle 6 (grid2.coords t) = false := by decide +kernel
/-- Window 7, an input, is never idle. -/
theorem liveAt2_7 : ∀ t : Fin cfg2.N, cfg2.idle 7 (grid2.coords t) = false := by decide +kernel
/-- Where k = 0 output window 8 is idle: nothing is stored into it, -/
theorem idleAt2_8_A : ∀ t : Fin cfg2.N, cond2_0 (grid2.coords t) → ¬cond2_1 (grid2.coords t) → cfg2.idle 8 (grid2.coords t) = true := by decide +kernel
/-- and its block is not written back. -/
theorem noFlush2_8_A : ∀ t : Fin cfg2.N, cond2_0 (grid2.coords t) → ¬cond2_1 (grid2.coords t) → (cfg2.win 8).flush t = false := by decide +kernel
/-- Where 0 < k < 7 output window 8 is idle, -/
theorem idleAt2_8_B : ∀ t : Fin cfg2.N, ¬cond2_0 (grid2.coords t) → ¬cond2_1 (grid2.coords t) → cfg2.idle 8 (grid2.coords t) = true := by decide +kernel
/-- and its block is not written back. -/
theorem noFlush2_8_B : ∀ t : Fin cfg2.N, ¬cond2_0 (grid2.coords t) → ¬cond2_1 (grid2.coords t) → (cfg2.win 8).flush t = false := by decide +kernel
/-- Where k = 7 output window 8 is live: the body stores its block. -/
theorem liveAt2_8_C : ∀ t : Fin cfg2.N, ¬cond2_0 (grid2.coords t) → cond2_1 (grid2.coords t) → cfg2.idle 8 (grid2.coords t) = false := by decide +kernel
/-- Where k = 0 output window 9 is idle: nothing is stored into it, -/
theorem idleAt2_9_A : ∀ t : Fin cfg2.N, cond2_0 (grid2.coords t) → ¬cond2_1 (grid2.coords t) → cfg2.idle 9 (grid2.coords t) = true := by decide +kernel
/-- and its block is not written back. -/
theorem noFlush2_9_A : ∀ t : Fin cfg2.N, cond2_0 (grid2.coords t) → ¬cond2_1 (grid2.coords t) → (cfg2.win 9).flush t = false := by decide +kernel
/-- Where 0 < k < 7 output window 9 is idle, -/
theorem idleAt2_9_B : ∀ t : Fin cfg2.N, ¬cond2_0 (grid2.coords t) → ¬cond2_1 (grid2.coords t) → cfg2.idle 9 (grid2.coords t) = true := by decide +kernel
/-- and its block is not written back. -/
theorem noFlush2_9_B : ∀ t : Fin cfg2.N, ¬cond2_0 (grid2.coords t) → ¬cond2_1 (grid2.coords t) → (cfg2.win 9).flush t = false := by decide +kernel
/-- Where k = 7 output window 9 is live: the body stores its block. -/
theorem liveAt2_9_C : ∀ t : Fin cfg2.N, ¬cond2_0 (grid2.coords t) → cond2_1 (grid2.coords t) → cfg2.idle 9 (grid2.coords t) = false := by decide +kernel

/-! ## The memrefs the body is called with -/

/-- One staging buffer of output window 8, through which its contents are stated (which one does not matter). -/
abbrev VO2_8 : View sig .tc .vmem S1024x512 .f32 := (Memref.whole cc2_stg8_0 : Memref sig .tc .vmem S1024x512 .f32).view
/-- One staging buffer of output window 9, through which its contents are stated (which one does not matter). -/
abbrev VO2_9 : View sig .tc .vmem S1024x32 .f32 := (Memref.whole cc2_stg9_0 : Memref sig .tc .vmem S1024x32 .f32).view
abbrev ms2_0 (t : Fin cfg2.N) : Memref sig .tc .vmem S1024x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8192x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x32 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x32 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1024x512 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1024x32 .f32 := win2_9.stage (cfg2.slots t 9)
abbrev hs2_9 (t : Fin cfg2.N) : (ms2_9 t).IsWhole := hstage2_9 ((cfg2.slots t 9).cast nbuf2_9)
/-- The accumulator: a whole scoped buffer of the kernel's own, passed beside the windows. -/
abbrev scM2_0 : Memref sig .tc .vmem S1024x512 .f32 := Memref.whole cc2_scratch0
/-- The accumulator as a view: what it holds is stated through it. -/
abbrev VS2_0 : View sig .tc .vmem S1024x512 .f32 := scM2_0.view

/-- The core's scoped buffers other than this call's staging buffers and its accumulator, at some contents each:
    carried through the region unopened. -/
abbrev others2 (c : Dev nD) : sProp 𝕄 :=
  Pipeline.scopedRestBut (Ix := Unit) (Name := ℕ) (U := UR sig nD τ) (Lvl := ℕ) (Val := Elt F) spec2 c [cc2_scratch0]

/-- The region invariant with the accumulator singled out, owned at some contents. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA others2
  rw [Pipeline.scopedRest_split_of_list spec2 c [cc2_scratch0] (by decide) (by decide)]
  simp only [bigSepL_singleton, scM2_0, owns_whole]; try rfl

end Cert.KernelIdeal.Hand

end
-- ==== Proof.KI.R2RunA.lean ====
/-
  Region 2, the body where the reduction coordinate is 0: the accumulator is reset to zero, then the first tile product
  A[i, 0] (d ∘ H)[0] is added to it; nothing is stored into either output window.
-/
import proofs.«123374_j59193239273550_2_alg».proof.Proof.KI.R2Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output window's staging memref and in the accumulator, as pieces (last first),
    with the proof that on whole memrefs — each input's at its contents, the outputs' and the accumulator's as stated —
    the body runs to the continuation holding each input's as it was and each stored buffer with its pieces written.
    The pieces are the witness the run finds. -/
noncomputable def kernelRun2_A (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) :
    Σ' (L8 : List (View.Piece (Elt F) S1024x512 .f32)) (L9 : List (View.Piece (Elt F) S1024x32 .f32)), { LS0 : List (View.Piece (Elt F) S1024x512 .f32) //
      ∀ (xi8 : Vec F S1024x512 .f32) (xi9 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc2__gcn_linear_fl_kernel i arg2 harg2 arg3 harg3 arg4 harg4 arg5 harg5 arg6 harg6 arg7 harg7 arg8 harg8 arg9 harg9 arg10 harg10 arg11 harg11 arg12 harg12) K } := by
  refine ⟨[], [], ?_, fun xi8 xi9 E K => ?run⟩
  case run =>
    simp only [cc2__gcn_linear_fl_kernel_eq_skeleton]; unfold cc2__gcn_linear_fl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.KernelIdeal.Hand

end
-- ==== Proof.KI.R2RunB.lean ====
/-
  Region 2, the body where the reduction coordinate k is strictly between 0 and 7: the tile product A[i, k] (d ∘ H)[k]
  is added to the accumulator as the point before left it; nothing is stored into either output window.
-/
import proofs.«123374_j59193239273550_2_alg».proof.Proof.KI.R2RunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output window's staging memref and in the accumulator, as pieces (last first),
    with the proof that on whole memrefs — each input's at its contents, the outputs' and the accumulator's as stated —
    the body runs to the continuation holding each input's as it was and each stored buffer with its pieces written.
    The pieces are the witness the run finds. -/
noncomputable def kernelRun2_B (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) :
    Σ' (L8 : List (View.Piece (Elt F) S1024x512 .f32)) (L9 : List (View.Piece (Elt F) S1024x32 .f32)), { LS0 : List (View.Piece (Elt F) S1024x512 .f32) //
      ∀ (xi8 : Vec F S1024x512 .f32) (xi9 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc2__gcn_linear_fl_kernel i arg2 harg2 arg3 harg3 arg4 harg4 arg5 harg5 arg6 harg6 arg7 harg7 arg8 harg8 arg9 harg9 arg10 harg10 arg11 harg11 arg12 harg12) K } := by
  refine ⟨[], [], ?_, fun xi8 xi9 E K => ?run⟩
  case run =>
    simp only [cc2__gcn_linear_fl_kernel_eq_skeleton]; unfold cc2__gcn_linear_fl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS0

end Cert.KernelIdeal.Hand

end
-- ==== Proof.KI.R2RunC.lean ====
/-
  Region 2, the body where the reduction coordinate is 7: the last tile product A[i, 7] (d ∘ H)[7] is added to the
  accumulator; the finished sum is scaled row by row by d, multiplied by W₂ᵗ, shifted by the bias and clamped at zero,
  which is stored as the first output window's block; and that block multiplied by Fᵗ and shifted by f is stored as the
  second output window's block.
-/
import proofs.«123374_j59193239273550_2_alg».proof.Proof.KI.R2RunB

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in each output window's staging memref and in the accumulator, as pieces (last first),
    with the proof that on whole memrefs — each input's at its contents, the outputs' and the accumulator's as stated —
    the body runs to the continuation holding each input's as it was and each stored buffer with its pieces written.
    The pieces are the witness the run finds. -/
noncomputable def kernelRun2_C (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) :
    Σ' (L8 : List (View.Piece (Elt F) S1024x512 .f32)) (L9 : List (View.Piece (Elt F) S1024x32 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc2__gcn_linear_fl_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc2__gcn_linear_fl_kernel_eq_skeleton]; unfold cc2__gcn_linear_fl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact HS0

end Cert.KernelIdeal.Hand

end
-- ==== Proof.KI.R2.lean ====
/-
  Region 2, the second graph layer with the classifier head, over its whole grid: what the two output windows' buffers
  and the accumulator hold after each point, and that the body does at every point what the pipeline asks of it.

  The accumulator is carried from point to point: where the reduction coordinate k is 0 it is reset and then holds the
  first tile product; where 0 < k it holds what the point before left plus this point's tile product; where k = 7 the
  finished sum is turned into the layer's output block and the head's logits block, the only point of the eight at which
  the two output windows are stored into and written back. In each case the body's stores tile the buffer they go to, so
  the buffer's contents after the body are those stores read back, whatever it held before.

  Two windows stage the same array (the scale vector d, once by output-row block and once by reduction block), so
  each holds half of it; every other input is held whole.
-/
import proofs.«123374_j59193239273550_2_alg».proof.Proof.KI.R2RunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Where k = 0 nothing is stored into output window 8 (it is idle there and not written back): no pieces —
    a placeholder that nothing consults. -/
def out2_A_8 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) : Vec F S1024x512 .f32 :=
  VO2_8.read (Elt F) (VO2_8.writes (Elt F) VO2_8.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)

/-- Where k = 0 nothing is stored into output window 9 (it is idle there and not written back): no pieces —
    a placeholder that nothing consults. -/
def out2_A_9 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) : Vec F S1024x32 .f32 :=
  VO2_9.read (Elt F) (VO2_9.writes (Elt F) VO2_9.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)

/-- Where k = 0 the body's stores into the accumulator tile it, so they cover it. -/
theorem scover2_A_0 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (y : S1024x512.Idx) :
    ∃ pc ∈ (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 S1024x512.size (by sl_kernel_rfl) y

/-- What the body leaves in the accumulator where k = 0: its stores read back. -/
def sout2_A_0 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) : Vec F S1024x512 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

/-- Where 0 < k < 7 nothing is stored into output window 8 (it is idle there and not written back): no pieces —
    a placeholder that nothing consults. -/
def out2_B_8 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) : Vec F S1024x512 .f32 :=
  VO2_8.read (Elt F) (VO2_8.writes (Elt F) VO2_8.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

/-- Where 0 < k < 7 nothing is stored into output window 9 (it is idle there and not written back): no pieces —
    a placeholder that nothing consults. -/
def out2_B_9 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) : Vec F S1024x32 .f32 :=
  VO2_9.read (Elt F) (VO2_9.writes (Elt F) VO2_9.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

/-- Where 0 < k < 7 the body's stores into the accumulator tile it, so they cover it. -/
theorem scover2_B_0 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) (y : S1024x512.Idx) :
    ∃ pc ∈ (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S1024x512.size (by sl_kernel_rfl) y

/-- What the body leaves in the accumulator where 0 < k < 7: its stores read back. -/
def sout2_B_0 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) : Vec F S1024x512 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

/-- Where k = 7 the body's one store into output window 8 tiles its block, so it covers it. -/
theorem cover2_C_8 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) (y : S1024x512.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1 S1024x512.size (by sl_kernel_rfl) y

/-- What the body leaves in output window 8's buffer where k = 7: its store read back. -/
def out2_C_8 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) : Vec F S1024x512 .f32 :=
  VO2_8.read (Elt F) (VO2_8.writes (Elt F) VO2_8.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

/-- Where k = 7 the body's one store into output window 9 tiles its block, so it covers it. -/
theorem cover2_C_9 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) (y : S1024x32.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1 S1024x32.size (by sl_kernel_rfl) y

/-- What the body leaves in output window 9's buffer where k = 7: its store read back. -/
def out2_C_9 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) : Vec F S1024x32 .f32 :=
  VO2_9.read (Elt F) (VO2_9.writes (Elt F) VO2_9.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

/-- Where k = 7 the body's stores into the accumulator tile it, so they cover it. -/
theorem scover2_C_0 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) (y : S1024x512.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S1024x512.size (by sl_kernel_rfl) y

/-- What the body leaves in the accumulator where k = 7: its stores read back. -/
def sout2_C_0 (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) : Vec F S1024x512 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

/-! ## Point by point -/

/-- THE ACCUMULATION. What the output windows' buffers and the accumulator hold after the body at position `n` (the
    outputs in window order, then the accumulator): the case the closed forms select there, run on the point's memrefs and
    input blocks, over the accumulator as the point before left it (where k = 0 it is reset first, so what it held does
    not matter). Both conditions at once is no case. -/
def outsAt2 (c : Dev nD) : (n : ℕ) → n < cfg2.N → Vec F S1024x512 .f32 × Vec F S1024x32 .f32 × Vec F S1024x512 .f32
  | 0, hn => (out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩))
  | n + 1, hn =>
    if h0 : (n + 1) % 8 = 0 then
      if h1 : (n + 1) % 8 = 7 then
        False.elim (by omega)
      else
        (out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), out2_A_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩))
    else
      if h1 : (n + 1) % 8 = 7 then
        (out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.2, out2_C_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.2)
      else
        (out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.2, out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2.2)

/-- `outsAt2` at a point with k = 0. -/
theorem outsAt2_A (c : Dev nD) (t : Fin cfg2.N) (h0 : t.val % 8 = 0) (h1 : ¬t.val % 8 = 7) :
    outsAt2 V c t.val t.isLt = (out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t), out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)) := by
  obtain ⟨n, hn⟩ := t
  cases n with
  | zero => exact rfl
  | succ n => exact (dif_pos h0).trans ((dif_neg h1).trans rfl)

/-- `outsAt2` at a point with 0 < k < 7: over what the point before left in the accumulator. -/
theorem outsAt2_B (c : Dev nD) (t : Fin cfg2.N) (h0 : ¬t.val % 8 = 0) (h1 : ¬t.val % 8 = 7) :
    outsAt2 V c t.val t.isLt = (out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2, out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point with k = 7: over what the point before left in the accumulator. -/
theorem outsAt2_C (c : Dev nD) (t : Fin cfg2.N) (h0 : ¬t.val % 8 = 0) (h1 : t.val % 8 = 7) :
    outsAt2 V c t.val t.isLt = (out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2, out2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point what the launch hands the region; afterwards the
    accumulator at what the point before left in it, the core's other scoped buffers at some contents, and the
    generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ others2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2.2) ∗ others2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2) ∗ others2 (F := F) c) ∗ (∃ r, prngReg c r)) := by
  cases n with
  | zero => exact absurd rfl hz
  | succ n => rfl

/-! ## The proof data -/

/-- The arrays as the region finds them; after the body at a point each input's buffer at its block and each output's at
    its component of `outsAt2`; the invariant `PhiS2`; nothing owed; the two windows on the scale vector at half of
    it each, every other input whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t.val t.isLt).1
    | ⟨9, _⟩ => (outsAt2 V c t.val t.isLt).2.1
  Φ t := PhiS2 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = (outsAt2 V c t.val t.isLt).1 := by dsimp only [dat2]
theorem after2_9 (c : Dev nD) (t : Fin cfg2.N) : (dat2 V c).after 9 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- The share held of each array: half of the scale vector through each of its two windows, every other array whole. -/
theorem share2_0 (c : Dev nD) : (dat2 V c).share 0 = fullShare.left := rfl
theorem share2_1 (c : Dev nD) : (dat2 V c).share 1 = fullShare.right := rfl
theorem share2_ge (c : Dev nD) (w : Fin cfg2.W) (h : 2 ≤ w.val) : (dat2 V c).share w = fullShare :=
  match w, h with
  | ⟨0, _⟩, h => by exfalso; dsimp only at h; omega
  | ⟨1, _⟩, h => by exfalso; dsimp only at h; omega
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨n + 10, hn⟩, _ => absurd hn (Nat.not_lt.2 (Nat.le_add_left _ _))
/-- Nothing is owed at any point. -/
theorem owed2 (c : Dev nD) (t : Fin (cfg2.N + 1)) : (dat2 V c).owed t = 0 := rfl

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in
/-- The body at any point. Each input's memref holds its block; the closed forms say which case the point is in; the
    invariant hands the body the accumulator at what the point before left (at anything before the first point) and
    takes it back at this point's contents, the core's other scoped buffers and the generator register passing through
    unread; where k ≠ 7 each output window's buffer is handed back as it was found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 8 = 0
  · by_cases h1 : t.val % 8 = 7
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t], after2_7]
      rw [Dat.leavesExact_idle (dat2 V c) 8 t (idleAt2_8_A t ((hcond2_0 t).mpr h0) (fun h => h1 ((hcond2_1 t).mp h))) (noFlush2_8_A t ((hcond2_0 t).mpr h0) (fun h => h1 ((hcond2_1 t).mp h)))]
      rw [Dat.leavesExact_idle (dat2 V c) 9 t (idleAt2_9_A t ((hcond2_0 t).mpr h0) (fun h => h1 ((hcond2_1 t).mp h))) (noFlush2_9_A t ((hcond2_0 t).mpr h0) (fun h => h1 ((hcond2_1 t).mp h)))]
      rw [outsAt2_A V c t h0 h1]
      unfold sout2_A_0; (try dsimp only)
      by_cases hz : t.val = 0
      ·
        rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
      ·
        rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        iintro ⟨H0, H1, H2, H3, H4, H5, H6, H7, H8, H9, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
  · by_cases h1 : t.val % 8 = 7
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t], after2_7]
      rw [show (dat2 V c).leavesExact 8 t = owns (c : Thread nD τ) (ms2_8 t) fullShare ((dat2 V c).after 8 t) from by
        unfold Dat.leavesExact; rw [liveAt2_8_C t (fun h => h0 ((hcond2_0 t).mp h)) ((hcond2_1 t).mpr h1)], after2_8]
      rw [show (dat2 V c).leavesExact 9 t = owns (c : Thread nD τ) (ms2_9 t) fullShare ((dat2 V c).after 9 t) from by
        unfold Dat.leavesExact; rw [liveAt2_9_C t (fun h => h0 ((hcond2_0 t).mp h)) ((hcond2_1 t).mpr h1)], after2_9]
      rw [outsAt2_C V c t h0 h1]
      unfold out2_C_8 out2_C_9 sout2_C_0; (try dsimp only)
      have hz : t.val ≠ 0 := by omega
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover2_C_8 c _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover2_C_9 c _ _ _ _ _ _ _ _ _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
        unfold Dat.leavesExact; rw [liveAt2_7 t], after2_7]
      rw [Dat.leavesExact_idle (dat2 V c) 8 t (idleAt2_8_B t (fun h => h0 ((hcond2_0 t).mp h)) (fun h => h1 ((hcond2_1 t).mp h))) (noFlush2_8_B t (fun h => h0 ((hcond2_0 t).mp h)) (fun h => h1 ((hcond2_1 t).mp h)))]
      rw [Dat.leavesExact_idle (dat2 V c) 9 t (idleAt2_9_B t (fun h => h0 ((hcond2_0 t).mp h)) (fun h => h1 ((hcond2_1 t).mp h))) (noFlush2_9_B t (fun h => h0 ((hcond2_0 t).mp h)) (fun h => h1 ((hcond2_1 t).mp h)))]
      rw [outsAt2_B V c t h0 h1]
      unfold sout2_B_0; (try dsimp only)
      have hz : t.val ≠ 0 := by omega
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iintro ⟨H0, H1, H2, H3, H4, H5, H6, H7, H8, H9, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.KI.RunCond.lean ====
/-
  The whole program run, given the three kernels' records: every weakly fair execution ends, and every buffer outside the
  kernels' private memory then holds what the chain "first kernel, host lines, second kernel, host lines, third kernel"
  leaves in it — the arguments (no item writes one) and the results alike. The conclusion about the arguments alone is
  the frame; read at the two result buffers it is the value the program computes.
-/
import proofs.«123374_j59193239273550_2_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- Given, per kernel, a record entered from the buffers as the items before it leave them and left at the buffers as it
    leaves them: the program terminates from any memory with zero counters, and every final memory holds each buffer
    outside the kernels' private memory at the last valuation of the chain. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V5 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨hpre0 c, hpost0 c, hpre1 c, hpost1 c, hpre2 c, (hpost2 c).trans (sep_mono .rfl (hE3 c))⟩)
    (hinit := ?_) (QY := fun c s => ∀ b ∈ Pipeline.ucRefs τ sig, s.mem (((c : Thread nD τ)).1, b) = V5 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact h
    · iexact HSI

end Cert.KernelIdeal.Hand

end
-- ==== Proof.KI.Chain.lean ====
/-
  The buffers between the items of the program. The program is: first kernel; ten host lines (reshape the column sums,
  take 1/√, transpose and narrow the three weight matrices, reshape the scale and the first bias); second kernel; three
  host lines (reshape the scale and the other two biases); third kernel. Each kernel changes only its output arrays,
  and leaves there what its write-backs leave; each host stretch is a fold of its lines. Named here: the contents each
  kernel is entered from, the contents it leaves, and the three kernels' proof data at those contents.
-/
import proofs.«123374_j59193239273550_2_alg».proof.Proof.KI.R0
import proofs.«123374_j59193239273550_2_alg».proof.Proof.KI.R1
import proofs.«123374_j59193239273550_2_alg».proof.Proof.KI.R2
import proofs.«123374_j59193239273550_2_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Parameters of the run: nothing owed between cores, no levels -/

abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev Rr (c : Dev nD) : sProp 𝕄 := iprop((∃ r, prngReg c r) ∗ ∃ W, owes (c : Thread nD τ) (0 : CellTallies nD τ sig Unit) W)
abbrev EE : Fin 4 → Dev nD → sProp 𝕄 := fun _ c => Rr c

/-! ## The contents, item by item -/

/-- The first kernel is entered from the launch memory. -/
abbrev Ve0 (c : Dev nD) (b : Ref sig .tc) : Buf (Elt F) ((c : Thread nD τ).loc b) := V0 m c b
/-- After the first kernel: the column sums and the half-precision copy at what its write-backs leave. -/
def X1 (c : Dev nD) : Valuation τ sig (Elt F) :=
  Function.update (Function.update (V0 m c) main_v0_0 ((dat0 (Ve0 m) c).arrAt 1 cfg0.N)) main_v0_1 ((dat0 (Ve0 m) c).arrAt 2 cfg0.N)
/-- The second kernel is entered after the first stretch of host lines. -/
abbrev Ve2 (c : Dev nD) (b : Ref sig .tc) : Buf (Elt F) ((c : Thread nD τ).loc b) := StableHlo.after hostOps1 (X1 m c) b
/-- After the second kernel: the first layer's activations at what its write-backs leave. -/
def X3 (c : Dev nD) : Valuation τ sig (Elt F) :=
  Function.update (StableHlo.after hostOps1 (X1 m c)) main_v11 ((dat1 (Ve2 m) c).arrAt 6 cfg1.N)
/-- The third kernel is entered after the second stretch of host lines. -/
abbrev Ve4 (c : Dev nD) (b : Ref sig .tc) : Buf (Elt F) ((c : Thread nD τ).loc b) := StableHlo.after hostOps2 (X3 m c) b
/-- After the third kernel: the two results. -/
def X5 (c : Dev nD) : Valuation τ sig (Elt F) :=
  Function.update (Function.update (StableHlo.after hostOps2 (X3 m c)) main_v15_0 ((dat2 (Ve4 m) c).arrAt 8 cfg2.N)) main_v15_1 ((dat2 (Ve4 m) c).arrAt 9 cfg2.N)

/-- What the kernels leave, as the one function the chain of valuations is written over. -/
def outsF : Outs (F := F) := fun J r c => match J with
  | 1 => X1 m c r
  | 3 => X3 m c r
  | 5 => X5 m c r
  | _ => V0 m c r

theorem X1_a (c : Dev nD) : X1 m c main_v0_0 = (dat0 (Ve0 m) c).arrAt 1 cfg0.N := by
  unfold X1
  rw [Function.update_of_ne (StableHlo.devRef_ne_of_ne (by decide) : (Proc.devRef .tc main_v0_0 : DevRef τ sig) ≠ Proc.devRef .tc main_v0_1), Function.update_self]
theorem X1_b (c : Dev nD) : X1 m c main_v0_1 = (dat0 (Ve0 m) c).arrAt 2 cfg0.N := by
  unfold X1; rw [Function.update_self]
theorem X3_a (c : Dev nD) : X3 m c main_v11 = (dat1 (Ve2 m) c).arrAt 6 cfg1.N := by
  unfold X3; rw [Function.update_self]
theorem X5_a (c : Dev nD) : X5 m c main_v15_0 = (dat2 (Ve4 m) c).arrAt 8 cfg2.N := by
  unfold X5
  rw [Function.update_of_ne (StableHlo.devRef_ne_of_ne (by decide) : (Proc.devRef .tc main_v15_0 : DevRef τ sig) ≠ Proc.devRef .tc main_v15_1), Function.update_self]
theorem X5_b (c : Dev nD) : X5 m c main_v15_1 = (dat2 (Ve4 m) c).arrAt 9 cfg2.N := by
  unfold X5; rw [Function.update_self]

/-- The chain of valuations over `outsF` is the chain named above. -/
theorem V1_eq (c : Dev nD) : V1 m (outsF m) c = X1 m c := by
  show Function.update (Function.update (V0 m c) main_v0_0 (X1 m c main_v0_0)) main_v0_1 (X1 m c main_v0_1) = X1 m c
  rw [X1_a, X1_b]; rfl
theorem V2_eq (c : Dev nD) : V2 m (outsF m) c = StableHlo.after hostOps1 (X1 m c) := by
  show StableHlo.after hostOps1 (V1 m (outsF m) c) = _; rw [V1_eq]
theorem V3_eq (c : Dev nD) : V3 m (outsF m) c = X3 m c := by
  show Function.update (V2 m (outsF m) c) main_v11 (X3 m c main_v11) = X3 m c
  rw [V2_eq, X3_a]; rfl
theorem V4_eq (c : Dev nD) : V4 m (outsF m) c = StableHlo.after hostOps2 (X3 m c) := by
  show StableHlo.after hostOps2 (V3 m (outsF m) c) = _; rw [V3_eq]
theorem V5_eq (c : Dev nD) : V5 m (outsF m) c = X5 m c := by
  show Function.update (Function.update (V4 m (outsF m) c) main_v15_0 (X5 m c main_v15_0)) main_v15_1 (X5 m c main_v15_1) = X5 m c
  rw [V4_eq, X5_a, X5_b]; rfl

/-! ## The proof data family -/

def pdats : (p : Fin 3) → (c : Dev nD) → Dat τ (Elt F) Unit ℕ (UR sig nD τ) ℕ (cfgs p) c
  | ⟨0, _⟩ => fun c => dat0 (Ve0 m) c
  | ⟨1, _⟩ => fun c => dat1 (Ve2 m) c
  | ⟨2, _⟩ => fun c => dat2 (Ve4 m) c

end Cert.KernelIdeal.Hand

end
-- ==== Proof.KI.Shared.lean ====
/-
  Two windows on one array. The second and third kernels read the scale vector d twice, once as the row scale of the
  output tile and once as the column scale of the current reduction tile: two input windows over one buffer. The
  buffer, held whole, is dealt to the two windows in two complementary halves at the kernel's entry, and the halves
  are joined again at its exit; every other window's array is a buffer of its own, held whole.
-/
import proofs.«123374_j59193239273550_2_alg».proof.Proof.Gen.KernelIdeal.Launch
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second kernel: windows 0 and 1 both show the scale vector -/

/-- The distinct buffers behind the windows' arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v9) ↦{fullShare} V main_v9) ∗ (((c : Thread nD τ).loc main_v0_1) ↦{fullShare} V main_v0_1) ∗ (((c : Thread nD τ).loc main_arg0) ↦{fullShare} V main_arg0) ∗ (((c : Thread nD τ).loc main_v4) ↦{fullShare} V main_v4) ∗ (((c : Thread nD τ).loc main_v10) ↦{fullShare} V main_v10) ∗ (((c : Thread nD τ).loc main_v11) ↦{fullShare} V main_v11)) := by
  unfold Pipeline.arrBufs; exact bigSep_eq_bigSepL_of_eq [main_v9, main_v0_1, main_arg0, main_v4, main_v10, main_v11] (by decide) (by decide) _

set_option maxHeartbeats 2000000 in
/-- ENTRY. The buffers whole at contents `V` are the windows' arrays at `V`, the scale vector's buffer dealt in two
    halves to the two windows on it. -/
theorem arrays1_of_bufs {c : Dev nD} (dat : Dat τ (Elt F) Unit ℕ (UR sig nD τ) ℕ cfg1 c)
    (hs0 : dat.share 0 = fullShare.left) (hs1 : dat.share 1 = fullShare.right) (hs2 : dat.share 2 = fullShare) (hs3 : dat.share 3 = fullShare) (hs4 : dat.share 4 = fullShare) (hs5 : dat.share 5 = fullShare) (hs6 : dat.share 6 = fullShare)
    (V : (b : Ref sig .tc) → Buf (Elt F) ((c : Thread nD τ).loc b))
    (G : (w : Fin cfg1.W) → Buf (Elt F) ((cfg1.win w).arr.view.loc (c : Thread nD τ))) (hF : ∀ w, G w = V (Pipeline.arrRef spec1 w)) :
    (Pipeline.arrBufs (Ix := Unit) (Name := ℕ) (U := UR sig nD τ) (Lvl := ℕ) spec1 c V : sProp 𝕄) ⊢ dat.arrays G := by
  obtain rfl : G = fun w => V (Pipeline.arrRef spec1 w) := funext hF
  unfold Dat.arrays
  rw [bigSep_W1, arrBufs1_eq, (arr_whole1 0).set_eq_univ, (arr_whole1 2).set_eq_univ, (arr_whole1 3).set_eq_univ, (arr_whole1 4).set_eq_univ, (arr_whole1 5).set_eq_univ, (arr_whole1 6).set_eq_univ, hs0, hs1, hs2, hs3, hs4, hs5, hs6]
  iintro ⟨H1, H2, H3, H4, H5, H6⟩
  ihave Hh := (pointsTo_share (PosShare.mem_left_op_right fullShare)).1 $$ H1
  icases Hh with ⟨Hl, Hr⟩
  isplitl [Hl]; · iexact Hl
  isplitl [Hr]; · iexact Hr
  isplitl [H2]; · iexact H2
  isplitl [H3]; · iexact H3
  isplitl [H4]; · iexact H4
  isplitl [H5]; · iexact H5
  iexact H6

set_option maxHeartbeats 2000000 in
/-- EXIT. The windows' arrays at contents that agree with `V'` window by window are the buffers whole at `V'`: the two
    halves of the scale vector's buffer joined. -/
theorem bufs_of_arrays1 {c : Dev nD} (dat : Dat τ (Elt F) Unit ℕ (UR sig nD τ) ℕ cfg1 c)
    (hs0 : dat.share 0 = fullShare.left) (hs1 : dat.share 1 = fullShare.right) (hs2 : dat.share 2 = fullShare) (hs3 : dat.share 3 = fullShare) (hs4 : dat.share 4 = fullShare) (hs5 : dat.share 5 = fullShare) (hs6 : dat.share 6 = fullShare)
    (V' : (b : Ref sig .tc) → Buf (Elt F) ((c : Thread nD τ).loc b))
    (G : (w : Fin cfg1.W) → Buf (Elt F) ((cfg1.win w).arr.view.loc (c : Thread nD τ))) (hF : ∀ w, G w = V' (Pipeline.arrRef spec1 w)) :
    dat.arrays G ⊢ (Pipeline.arrBufs (Ix := Unit) (Name := ℕ) (U := UR sig nD τ) (Lvl := ℕ) spec1 c V' : sProp 𝕄) := by
  obtain rfl : G = fun w => V' (Pipeline.arrRef spec1 w) := funext hF
  unfold Dat.arrays
  rw [bigSep_W1, arrBufs1_eq, (arr_whole1 0).set_eq_univ, (arr_whole1 2).set_eq_univ, (arr_whole1 3).set_eq_univ, (arr_whole1 4).set_eq_univ, (arr_whole1 5).set_eq_univ, (arr_whole1 6).set_eq_univ, hs0, hs1, hs2, hs3, hs4, hs5, hs6]
  iintro ⟨G0, G1, G2, G3, G4, G5, G6⟩
  isplitl [G0 G1]
  · iapply (pointsTo_share (PosShare.mem_left_op_right fullShare)).2
    isplitl [G0]; · iexact G0
    iexact G1
  isplitl [G2]; · iexact G2
  isplitl [G3]; · iexact G3
  isplitl [G4]; · iexact G4
  isplitl [G5]; · iexact G5
  iexact G6

/-! ## The third kernel: windows 0 and 1 both show the scale vector -/

/-- The distinct buffers behind the windows' arrays, one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v12) ↦{fullShare} V main_v12) ∗ (((c : Thread nD τ).loc main_v0_1) ↦{fullShare} V main_v0_1) ∗ (((c : Thread nD τ).loc main_v11) ↦{fullShare} V main_v11) ∗ (((c : Thread nD τ).loc main_v6) ↦{fullShare} V main_v6) ∗ (((c : Thread nD τ).loc main_v13) ↦{fullShare} V main_v13) ∗ (((c : Thread nD τ).loc main_v8) ↦{fullShare} V main_v8) ∗ (((c : Thread nD τ).loc main_v14) ↦{fullShare} V main_v14) ∗ (((c : Thread nD τ).loc main_v15_0) ↦{fullShare} V main_v15_0) ∗ (((c : Thread nD τ).loc main_v15_1) ↦{fullShare} V main_v15_1)) := by
  unfold Pipeline.arrBufs; exact bigSep_eq_bigSepL_of_eq [main_v12, main_v0_1, main_v11, main_v6, main_v13, main_v8, main_v14, main_v15_0, main_v15_1] (by decide) (by decide) _

set_option maxHeartbeats 2000000 in
/-- ENTRY. The buffers whole at contents `V` are the windows' arrays at `V`, the scale vector's buffer dealt in two
    halves to the two windows on it. -/
theorem arrays2_of_bufs {c : Dev nD} (dat : Dat τ (Elt F) Unit ℕ (UR sig nD τ) ℕ cfg2 c)
    (hs0 : dat.share 0 = fullShare.left) (hs1 : dat.share 1 = fullShare.right) (hs2 : dat.share 2 = fullShare) (hs3 : dat.share 3 = fullShare) (hs4 : dat.share 4 = fullShare) (hs5 : dat.share 5 = fullShare) (hs6 : dat.share 6 = fullShare) (hs7 : dat.share 7 = fullShare) (hs8 : dat.share 8 = fullShare) (hs9 : dat.share 9 = fullShare)
    (V : (b : Ref sig .tc) → Buf (Elt F) ((c : Thread nD τ).loc b))
    (G : (w : Fin cfg2.W) → Buf (Elt F) ((cfg2.win w).arr.view.loc (c : Thread nD τ))) (hF : ∀ w, G w = V (Pipeline.arrRef spec2 w)) :
    (Pipeline.arrBufs (Ix := Unit) (Name := ℕ) (U := UR sig nD τ) (Lvl := ℕ) spec2 c V : sProp 𝕄) ⊢ dat.arrays G := by
  obtain rfl : G = fun w => V (Pipeline.arrRef spec2 w) := funext hF
  unfold Dat.arrays
  rw [bigSep_W2, arrBufs2_eq, (arr_whole2 0).set_eq_univ, (arr_whole2 2).set_eq_univ, (arr_whole2 3).set_eq_univ, (arr_whole2 4).set_eq_univ, (arr_whole2 5).set_eq_univ, (arr_whole2 6).set_eq_univ, (arr_whole2 7).set_eq_univ, (arr_whole2 8).set_eq_univ, (arr_whole2 9).set_eq_univ, hs0, hs1, hs2, hs3, hs4, hs5, hs6, hs7, hs8, hs9]
  iintro ⟨H1, H2, H3, H4, H5, H6, H7, H8, H9⟩
  ihave Hh := (pointsTo_share (PosShare.mem_left_op_right fullShare)).1 $$ H1
  icases Hh with ⟨Hl, Hr⟩
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 2000000 in
/-- EXIT. The windows' arrays at contents that agree with `V'` window by window are the buffers whole at `V'`: the two
    halves of the scale vector's buffer joined. -/
theorem bufs_of_arrays2 {c : Dev nD} (dat : Dat τ (Elt F) Unit ℕ (UR sig nD τ) ℕ cfg2 c)
    (hs0 : dat.share 0 = fullShare.left) (hs1 : dat.share 1 = fullShare.right) (hs2 : dat.share 2 = fullShare) (hs3 : dat.share 3 = fullShare) (hs4 : dat.share 4 = fullShare) (hs5 : dat.share 5 = fullShare) (hs6 : dat.share 6 = fullShare) (hs7 : dat.share 7 = fullShare) (hs8 : dat.share 8 = fullShare) (hs9 : dat.share 9 = fullShare)
    (V' : (b : Ref sig .tc) → Buf (Elt F) ((c : Thread nD τ).loc b))
    (G : (w : Fin cfg2.W) → Buf (Elt F) ((cfg2.win w).arr.view.loc (c : Thread nD τ))) (hF : ∀ w, G w = V' (Pipeline.arrRef spec2 w)) :
    dat.arrays G ⊢ (Pipeline.arrBufs (Ix := Unit) (Name := ℕ) (U := UR sig nD τ) (Lvl := ℕ) spec2 c V' : sProp 𝕄) := by
  obtain rfl : G = fun w => V' (Pipeline.arrRef spec2 w) := funext hF
  unfold Dat.arrays
  rw [bigSep_W2, arrBufs2_eq, (arr_whole2 0).set_eq_univ, (arr_whole2 2).set_eq_univ, (arr_whole2 3).set_eq_univ, (arr_whole2 4).set_eq_univ, (arr_whole2 5).set_eq_univ, (arr_whole2 6).set_eq_univ, (arr_whole2 7).set_eq_univ, (arr_whole2 8).set_eq_univ, (arr_whole2 9).set_eq_univ, hs0, hs1, hs2, hs3, hs4, hs5, hs6, hs7, hs8, hs9]
  iintro ⟨G0, G1, G2, G3, G4, G5, G6, G7, G8, G9⟩
  isplitl [G0 G1]
  · iapply (pointsTo_share (PosShare.mem_left_op_right fullShare)).2
    isplitl [G0]; · iexact G0
    iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  iexact G9

end Cert.KernelIdeal.Hand

end
-- ==== Proof.KI.Regs.lean ====
/-
  The three kernels as items of the program's run. Each is entered with every buffer outside the kernels' private
  memory held at the contents the items before it leave, and left with them held at the contents it leaves: its windows'
  arrays are taken out of that collection at entry (for the second and third kernels the scale vector's buffer in two
  halves, one per window on it) and put back at exit with the output arrays at what the write-backs leave; the
  generator register passes through the kernel's invariant; nothing is owed.
-/
import proofs.«123374_j59193239273550_2_alg».proof.Proof.KI.Chain
import proofs.«123374_j59193239273550_2_alg».proof.Proof.KI.Shared
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first kernel -/

/-- Each of its arrays after it: the adjacency as entered, the two outputs at what the write-backs leave. -/
theorem hF0 (c : Dev nD) (w : Fin cfg0.W) : (dat0 (Ve0 m) c).arrAt w cfg0.N = V1 m (outsF m) c (Pipeline.arrRef spec0 w) := by
  match w with
  | ⟨0, _⟩ => exact ((dat0 (Ve0 m) c).arrAt_in 0 rfl _).trans ((A_eq0 (Ve0 m) c 0).trans (V1_of m (outsF m) c main_arg1 (by decide)).symm)
  | ⟨1, _⟩ => exact (X1_a m c).symm.trans (congrFun (V1_eq m c).symm _)
  | ⟨2, _⟩ => exact (X1_b m c).symm.trans (congrFun (V1_eq m c).symm _)
/-- Every other buffer is as it was. -/
theorem hrest0 (c : Dev nD) : ∀ b, b ∉ Finset.univ.image (Pipeline.arrRef spec0) → V1 m (outsF m) c b = Ve0 m c b :=
  fun b hb => V1_of m (outsF m) c b fun h => hb (by
    simp only [List.mem_cons, List.mem_nil_iff, or_false] at h
    rcases h with rfl | rfl
    · exact Finset.mem_image.mpr ⟨1, Finset.mem_univ _, rfl⟩
    · exact Finset.mem_image.mpr ⟨2, Finset.mem_univ _, rfl⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V0 m c) ∗ EE 0 c)
  post c := iprop(StableHlo.held (c : Thread nD τ) (Pipeline.ucRefs τ sig) (V1 m (outsF m) c) ∗ EE 1 c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => V1 m (outsF m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second kernel -/

/-- A buffer the kernel does not write holds after it what the host lines before it left. -/
theorem X3_of (c : Dev nD) (r : Ref sig .tc) (h : r ∉ ([main_v11] : List (Ref sig .tc))) : X3 m c r = StableHlo.after hostOps1 (X1 m c) r := by
  unfold X3; rw [Function.update_of_ne (StableHlo.devRef_ne_of_ne (List.ne_of_not_mem_cons h) : (Proc.devRef .tc r : DevRef τ sig) ≠ Proc.devRef .tc main_v11)]

/-- Each of its arrays after it: the inputs as entered, the output at what the write-backs leave. -/
theorem hF1 (c : Dev nD) (w : Fin cfg1.W) : (dat1 (Ve2 m) c).arrAt w cfg1.N = X3 m c (Pipeline.arrRef spec1 w) := by
  match w with
  | ⟨0, _⟩ => exact ((dat1 (Ve2 m) c).arrAt_in 0 rfl _).trans ((A_eq1 (Ve2 m) c 0).trans (X3_of m c main_v9 (by decide)).symm)
  | ⟨1, _⟩ => exact ((dat1 (Ve2 m) c).arrAt_in 1 rfl _).trans ((A_eq1 (Ve2 m) c 1).trans (X3_of m c main_v9 (by decide)).symm)
  | ⟨2, _⟩ => exact ((dat1 (Ve2 m) c).arrAt_in 2 rfl _).trans ((A_eq1 (Ve2 m) c 2).trans (X3_of m c main_v0_1 (by decide)).symm)
  | ⟨3, _⟩ => exact ((dat1 (Ve2 m) c).arrAt_in 3 rfl _).trans ((A_eq1 (Ve2 m) c 3).trans (X3_of m c main_arg0 (by decide)).symm)
  | ⟨4, _⟩ => exact ((dat1 (Ve2 m) c).arrAt_in 4 rfl _).trans ((A_eq1 (Ve2 m) c 4).trans (X3_of m c main_v4 (by decide)).symm)
  | ⟨5, _⟩ => exact ((dat1 (Ve2 m) c).arrAt_in 5 rfl _).trans ((A_eq1 (Ve2 m) c 5).trans (X3_of m c main_v10 (by decide)).symm)
  | ⟨6, _⟩ => exact (X3_a m c).symm
/-- Every other buffer is as it was. -/
theorem hrest1 (c : Dev nD) : ∀ b, b ∉ Finset.univ.image (Pipeline.arrRef spec1) → X3 m c b = Ve2 m c b :=
  fun b hb => X3_of m c b fun h => hb (by
    simp only [List.mem_cons, List.mem_nil_iff, or_false] at h
    rcases h with rfl
    · exact Finset.mem_image.mpr ⟨6, Finset.mem_univ _, rfl⟩)

set_option backward.isDefEq.respectTransparency.types false in
set_option maxHeartbeats 2000000 in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve2 m) c).loose
  hwaits := Pipeline.hwaits_of_owed_zero _ _ _ _ L lv 1 fun c t => owed1 (Ve2 m) c t
  pre c := iprop(StableHlo.held (c : Thread nD τ) (Pipeline.ucRefs τ sig) (V2 m (outsF m) c) ∗ EE 1 c)
  post c := iprop(StableHlo.held (c : Thread nD τ) (Pipeline.ucRefs τ sig) (V3 m (outsF m) c) ∗ EE 2 c)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none, V2_eq, ← Pipeline.unscopedBufs_held (Ix := Unit) (Name := ℕ) (U := UR sig nD τ) (Lvl := ℕ) c (StableHlo.after hostOps1 (X1 m c)),
      Pipeline.unscopedBufs_split₀ cfgs 1 winFacts₀1.arr_unscoped c (Ve2 m c)]
    iintro ⟨⟨⟨Hbufs, Hrest⟩, Hp, HO⟩, -, -⟩
    imodintro
    isplitl [Hbufs]
    · iapply (arrays1_of_bufs (dat1 (Ve2 m) c) (share1_0 (Ve2 m) c) (share1_1 (Ve2 m) c) (share1_ge (Ve2 m) c 2 (by decide)) (share1_ge (Ve2 m) c 3 (by decide)) (share1_ge (Ve2 m) c 4 (by decide)) (share1_ge (Ve2 m) c 5 (by decide)) (share1_ge (Ve2 m) c 6 (by decide)) (Ve2 m c) ((dat1 (Ve2 m) c).arrAt · 0) (fun w => A_eq1 (Ve2 m) c w))
      iexact Hbufs
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h0.trans (hin1 (Ve2 m) c)
  hout c := by
    rw [Pipeline.ownSems0_none]
    have h1 : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (Ve2 m) c).trans h1
  hexit c := by
    rw [V3_eq, ← Pipeline.unscopedBufs_held (Ix := Unit) (Name := ℕ) (U := UR sig nD τ) (Lvl := ℕ) c (X3 m c),
      Pipeline.unscopedBufs_split₀ cfgs 1 winFacts₀1.arr_unscoped c (fun b => X3 m c b)]
    have hrestEq : (Pipeline.unscopedRest (Ix := Unit) (Name := ℕ) (U := UR sig nD τ) (Lvl := ℕ) spec1 c (Ve2 m c) : sProp 𝕄)
        = Pipeline.unscopedRest (cfgs 1).spec c (fun b => X3 m c b) := by
      unfold Pipeline.unscopedRest
      exact bigSep_congr fun b hb => by beta_reduce; rw [hrest1 m c b (Finset.mem_sdiff.mp hb).2]
    iintro ⟨Ha, HO, HY, Hrest⟩
    imodintro
    isplitl [Ha Hrest]
    · isplitl [Ha]
      · iapply (bufs_of_arrays1 (dat1 (Ve2 m) c) (share1_0 (Ve2 m) c) (share1_1 (Ve2 m) c) (share1_ge (Ve2 m) c 2 (by decide)) (share1_ge (Ve2 m) c 3 (by decide)) (share1_ge (Ve2 m) c 4 (by decide)) (share1_ge (Ve2 m) c 5 (by decide)) (share1_ge (Ve2 m) c 6 (by decide)) (fun b => X3 m c b) ((dat1 (Ve2 m) c).arrAt · cfg1.N) (hF1 m c))
        iexact Ha
      rw [← hrestEq]; iexact Hrest
    isplitl [HY]; · iexact HY
    unfold Pipeline.Dat.owesAt Pipeline.owesWithin
    icases HO with ⟨%W, -, HO⟩; iexists W; iexact HO

/-! ## The third kernel -/

/-- A buffer the kernel does not write holds after it what the host lines before it left. -/
theorem X5_of (c : Dev nD) (r : Ref sig .tc) (h : r ∉ ([main_v15_0, main_v15_1] : List (Ref sig .tc))) : X5 m c r = StableHlo.after hostOps2 (X3 m c) r := by
  unfold X5; rw [Function.update_of_ne (StableHlo.devRef_ne_of_ne (List.ne_of_not_mem_cons (List.not_mem_of_not_mem_cons h)) : (Proc.devRef .tc r : DevRef τ sig) ≠ Proc.devRef .tc main_v15_1), Function.update_of_ne (StableHlo.devRef_ne_of_ne (List.ne_of_not_mem_cons h) : (Proc.devRef .tc r : DevRef τ sig) ≠ Proc.devRef .tc main_v15_0)]

/-- Each of its arrays after it: the inputs as entered, the outputs at what the write-backs leave. -/
theorem hF2 (c : Dev nD) (w : Fin cfg2.W) : (dat2 (Ve4 m) c).arrAt w cfg2.N = X5 m c (Pipeline.arrRef spec2 w) := by
  match w with
  | ⟨0, _⟩ => exact ((dat2 (Ve4 m) c).arrAt_in 0 rfl _).trans ((A_eq2 (Ve4 m) c 0).trans (X5_of m c main_v12 (by decide)).symm)
  | ⟨1, _⟩ => exact ((dat2 (Ve4 m) c).arrAt_in 1 rfl _).trans ((A_eq2 (Ve4 m) c 1).trans (X5_of m c main_v12 (by decide)).symm)
  | ⟨2, _⟩ => exact ((dat2 (Ve4 m) c).arrAt_in 2 rfl _).trans ((A_eq2 (Ve4 m) c 2).trans (X5_of m c main_v0_1 (by decide)).symm)
  | ⟨3, _⟩ => exact ((dat2 (Ve4 m) c).arrAt_in 3 rfl _).trans ((A_eq2 (Ve4 m) c 3).trans (X5_of m c main_v11 (by decide)).symm)
  | ⟨4, _⟩ => exact ((dat2 (Ve4 m) c).arrAt_in 4 rfl _).trans ((A_eq2 (Ve4 m) c 4).trans (X5_of m c main_v6 (by decide)).symm)
  | ⟨5, _⟩ => exact ((dat2 (Ve4 m) c).arrAt_in 5 rfl _).trans ((A_eq2 (Ve4 m) c 5).trans (X5_of m c main_v13 (by decide)).symm)
  | ⟨6, _⟩ => exact ((dat2 (Ve4 m) c).arrAt_in 6 rfl _).trans ((A_eq2 (Ve4 m) c 6).trans (X5_of m c main_v8 (by decide)).symm)
  | ⟨7, _⟩ => exact ((dat2 (Ve4 m) c).arrAt_in 7 rfl _).trans ((A_eq2 (Ve4 m) c 7).trans (X5_of m c main_v14 (by decide)).symm)
  | ⟨8, _⟩ => exact (X5_a m c).symm
  | ⟨9, _⟩ => exact (X5_b m c).symm
/-- Every other buffer is as it was. -/
theorem hrest2 (c : Dev nD) : ∀ b, b ∉ Finset.univ.image (Pipeline.arrRef spec2) → X5 m c b = Ve4 m c b :=
  fun b hb => X5_of m c b fun h => hb (by
    simp only [List.mem_cons, List.mem_nil_iff, or_false] at h
    rcases h with rfl | rfl
    · exact Finset.mem_image.mpr ⟨8, Finset.mem_univ _, rfl⟩
    · exact Finset.mem_image.mpr ⟨9, Finset.mem_univ _, rfl⟩)

set_option backward.isDefEq.respectTransparency.types false in
set_option maxHeartbeats 2000000 in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Ve4 m) c).loose
  hwaits := Pipeline.hwaits_of_owed_zero _ _ _ _ L lv 2 fun c t => owed2 (Ve4 m) c t
  pre c := iprop(StableHlo.held (c : Thread nD τ) (Pipeline.ucRefs τ sig) (V4 m (outsF m) c) ∗ EE 2 c)
  post c := iprop(StableHlo.held (c : Thread nD τ) (Pipeline.ucRefs τ sig) (V5 m (outsF m) c) ∗ EE 3 c)
  X c := iprop(∃ r, prngReg c r)
  Y c := iprop(∃ r, prngReg c r)
  Z c := Pipeline.unscopedRest (Ix := Unit) (Name := ℕ) (U := UR sig nD τ) (Lvl := ℕ) spec2 c (Ve4 m c)
  hentry c := by
    rw [Pipeline.ownSems0_none, V4_eq, ← Pipeline.unscopedBufs_held (Ix := Unit) (Name := ℕ) (U := UR sig nD τ) (Lvl := ℕ) c (StableHlo.after hostOps2 (X3 m c)),
      Pipeline.unscopedBufs_split₀ cfgs 2 winFacts₀2.arr_unscoped c (Ve4 m c)]
    iintro ⟨⟨⟨Hbufs, Hrest⟩, Hp, HO⟩, -, -⟩
    imodintro
    isplitl [Hbufs]
    · iapply (arrays2_of_bufs (dat2 (Ve4 m) c) (share2_0 (Ve4 m) c) (share2_1 (Ve4 m) c) (share2_ge (Ve4 m) c 2 (by decide)) (share2_ge (Ve4 m) c 3 (by decide)) (share2_ge (Ve4 m) c 4 (by decide)) (share2_ge (Ve4 m) c 5 (by decide)) (share2_ge (Ve4 m) c 6 (by decide)) (share2_ge (Ve4 m) c 7 (by decide)) (share2_ge (Ve4 m) c 8 (by decide)) (share2_ge (Ve4 m) c 9 (by decide)) (Ve4 m c) ((dat2 (Ve4 m) c).arrAt · 0) (fun w => A_eq2 (Ve4 m) c w))
      iexact Hbufs
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : (iprop((∃ r, prngReg c r) ∗ Pipeline.prefHeld (pcfgs (F := F) 2).pre c (fun _ => fullShare) (adm (F := F) 2).1
        ∗ Pipeline.scopedRest (Pipeline.pin (pcfgs (F := F)) adm 2).spec c) : sProp 𝕄) ⊢ Pipeline.ΦA spec2 c := by
      unfold Pipeline.ΦA
      iintro ⟨Hp, -, Hr⟩
      isplitl [Hr]; · iexact Hr
      iexact Hp
    exact h0.trans (hin2 (Ve4 m) c)
  hout c := by
    rw [Pipeline.ownSems0_none]
    have h1 : (Pipeline.ΦA spec2 c : sProp 𝕄) ⊢ iprop((∃ r, prngReg c r) ∗ BI.emp ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (hout2 (Ve4 m) c).trans h1
  hexit c := by
    rw [V5_eq, ← Pipeline.unscopedBufs_held (Ix := Unit) (Name := ℕ) (U := UR sig nD τ) (Lvl := ℕ) c (X5 m c),
      Pipeline.unscopedBufs_split₀ cfgs 2 winFacts₀2.arr_unscoped c (fun b => X5 m c b)]
    have hrestEq : (Pipeline.unscopedRest (Ix := Unit) (Name := ℕ) (U := UR sig nD τ) (Lvl := ℕ) spec2 c (Ve4 m c) : sProp 𝕄)
        = Pipeline.unscopedRest (cfgs 2).spec c (fun b => X5 m c b) := by
      unfold Pipeline.unscopedRest
      exact bigSep_congr fun b hb => by beta_reduce; rw [hrest2 m c b (Finset.mem_sdiff.mp hb).2]
    iintro ⟨Ha, HO, HY, Hrest⟩
    imodintro
    isplitl [Ha Hrest]
    · isplitl [Ha]
      · iapply (bufs_of_arrays2 (dat2 (Ve4 m) c) (share2_0 (Ve4 m) c) (share2_1 (Ve4 m) c) (share2_ge (Ve4 m) c 2 (by decide)) (share2_ge (Ve4 m) c 3 (by decide)) (share2_ge (Ve4 m) c 4 (by decide)) (share2_ge (Ve4 m) c 5 (by decide)) (share2_ge (Ve4 m) c 6 (by decide)) (share2_ge (Ve4 m) c 7 (by decide)) (share2_ge (Ve4 m) c 8 (by decide)) (share2_ge (Ve4 m) c 9 (by decide)) (fun b => X5 m c b) ((dat2 (Ve4 m) c).arrAt · cfg2.N) (hF2 m c))
        iexact Ha
      rw [← hrestEq]; iexact Hrest
    isplitl [HY]; · iexact HY
    unfold Pipeline.Dat.owesAt Pipeline.owesWithin
    icases HO with ⟨%W, -, HO⟩; iexists W; iexact HO

/-! ## The whole run -/

set_option backward.isDefEq.respectTransparency.types false in
/-- From any memory with zero counters every weakly fair execution of the program terminates, and every buffer outside
    the kernels' private memory then holds what the chain of items leaves in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X5 m c b) := by
  have h := run_cond m emb₁ () 𝒱₀ L lv (fun _ _ => rfl) ρ (outsF m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := EE)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (reg0 m) (fun _ => .rfl) (fun _ => .rfl) (reg1 m) (fun _ => .rfl) (fun _ => .rfl) (reg2 m) (fun _ => .rfl) (fun _ => .rfl)
  exact (θ_run defs _ _).mono (fun r h c b hb => (h c b hb).trans (congrFun (V5_eq m c) b)) h

/-- The frame: every argument array ends as launched (no item writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_all m ρ)
  have key : ∀ (a : Ref sig .tc) (hu : ¬ (Proc.devRef .tc a : DevRef τ sig).isScoped), r.2.mem ((c.tc : Thread nD τ).loc a) = V5 m (outsF m) c a := fun a hu =>
    (h c (Proc.devRef .tc a) (Finset.mem_filter.mpr ⟨StableHlo.devRef_mem_tcRefs a, hu⟩)).trans (congrFun (V5_eq m c).symm _)
  exact ⟨(key main_arg0 (by decide)).trans (V5_main_arg0 m (outsF m) c), (key main_arg1 (by decide)).trans (V5_main_arg1 m (outsF m) c),
    (key main_arg2 (by decide)).trans (V5_main_arg2 m (outsF m) c), (key main_arg3 (by decide)).trans (V5_main_arg3 m (outsF m) c),
    (key main_arg4 (by decide)).trans (V5_main_arg4 m (outsF m) c), (key main_arg5 (by decide)).trans (V5_main_arg5 m (outsF m) c),
    (key main_arg6 (by decide)).trans (V5_main_arg6 m (outsF m) c), (key main_arg7 (by decide)).trans (V5_main_arg7 m (outsF m) c)⟩

/-- The run read at the two results and the eight arguments: the results at what the third kernel leaves, the
    arguments as launched. -/
theorem run_value : θ_run defs (onTc (τ := τ) (main (F := F))) ⟨m, fun _ => 0, ρ⟩ (fun r => ∀ c : Dev nD,
      r.2.mem ((c.tc : Thread nD τ).loc main_v15_0) = X5 m c main_v15_0
      ∧ r.2.mem ((c.tc : Thread nD τ).loc main_v15_1) = X5 m c main_v15_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (run_all m ρ)
  have key : ∀ (a : Ref sig .tc) (hu : ¬ (Proc.devRef .tc a : DevRef τ sig).isScoped), r.2.mem ((c.tc : Thread nD τ).loc a) = X5 m c a := fun a hu =>
    h c (Proc.devRef .tc a) (Finset.mem_filter.mpr ⟨StableHlo.devRef_mem_tcRefs a, hu⟩)
  have arg : ∀ (a : Ref sig .tc) (hu : ¬ (Proc.devRef .tc a : DevRef τ sig).isScoped) (ha : V5 m (outsF m) c a = m ((c.tc : Thread nD τ).loc a)),
      r.2.mem ((c.tc : Thread nD τ).loc a) = m ((c.tc : Thread nD τ).loc a) := fun a hu ha =>
    (key a hu).trans ((congrFun (V5_eq m c).symm _).trans ha)
  exact ⟨key main_v15_0 (by decide), key main_v15_1 (by decide),
    arg main_arg0 (by decide) (V5_main_arg0 m (outsF m) c), arg main_arg1 (by decide) (V5_main_arg1 m (outsF m) c),
    arg main_arg2 (by decide) (V5_main_arg2 m (outsF m) c), arg main_arg3 (by decide) (V5_main_arg3 m (outsF m) c),
    arg main_arg4 (by decide) (V5_main_arg4 m (outsF m) c), arg main_arg5 (by decide) (V5_main_arg5 m (outsF m) c),
    arg main_arg6 (by decide) (V5_main_arg6 m (outsF m) c), arg main_arg7 (by decide) (V5_main_arg7 m (outsF m) c)⟩

end Cert.KernelIdeal.Hand

end
-- ==== Proof.Spec.lean ====
/-
  The mathematics of the two-layer graph network, index by index on the extended reals.

  `A` is the n × n adjacency (n = 8192); `colsum A` its column sums as a 1 × n row; `scale` the
  vector d(j) = 1 / √(colsum j) as an n × 1 column. One layer sends an n × 512 array `B` to
  max(((d · (A (d · B))) Wᵗ) + b, 0): `layer` states it in the order "scale the rows of B, multiply by A,
  scale the rows of the product, multiply by Wᵗ, add the bias, clamp at zero"; `layerRef` in the order
  "scale A on both sides first". `head` is the affine classifier on the second layer's activations.
-/
import Idealize.ShloMosaic.PureOps.Ideal
import Idealize.ShloMosaic.Lib.ValueIdx

noncomputable section

open scoped BigOperators

namespace Cert.Spec

open Idealize.ShloMosaic Idealize.ShloMosaic.ValueIdx

/-- An a × b array of extended reals, indexed as the printed programs index a rank-2 shape. -/
abbrev Mat (a b : Nat) : Type := (⟨2, ![a, b]⟩ : Shape).Idx → EReal

/-- The column sums of `A`, as a 1 × 8192 row: entry (0, j) is the sum over the rows i of A(i, j). -/
def colsum (A : Mat 8192 8192) : Mat 1 8192 :=
  fun p => ∑ i : Fin 8192, A (ix2 i (p 1))

/-- d(j) = 1 / √(cs(0, j)) as an 8192 × 1 column. -/
def scale (cs : Mat 1 8192) : Mat 8192 1 :=
  fun p => Ideal.rsqrt (cs (ix2 (0 : Fin 1) (p 0)))

/-- One layer, rows of `B` scaled first: entry (i, o) is
    max(Σₙ ((Σⱼ A(i, j) · (B(j, n) · d(j))) · d(i)) · Wt(n, o) + b(o), 0). -/
def layer (d : Mat 8192 1) (A : Mat 8192 8192) (B : Mat 8192 512) (Wt : Mat 512 512) (b : Mat 1 512) : Mat 8192 512 :=
  fun p => max ((∑ n : Fin 512,
      ((∑ j : Fin 8192, A (ix2 (p 0) j) * (B (ix2 j n) * d (ix2 j (0 : Fin 1)))) * d (ix2 (p 0) (0 : Fin 1)))
        * Wt (ix2 n (p 1))) + b (ix2 (0 : Fin 1) (p 1))) 0

/-- The classifier head: entry (i, q) is Σₙ H(i, n) · Ft(n, q) + fb(q). -/
def head (H : Mat 8192 512) (Ft : Mat 512 32) (fb : Mat 1 32) : Mat 8192 32 :=
  fun p => (∑ n : Fin 512, H (ix2 (p 0) n) * Ft (ix2 n (p 1))) + fb (ix2 (0 : Fin 1) (p 1))

/-- One layer with the adjacency scaled on both sides first: entry (i, o) is
    max(Σₙ (Σⱼ ((d(i) · A(i, j)) · d(j)) · B(j, n)) · W(o, n) + b(o), 0). -/
def layerRef (d : Fin 8192 → EReal) (A : Mat 8192 8192) (B : Mat 8192 512) (W : Mat 512 512) (b : Fin 512 → EReal) : Mat 8192 512 :=
  fun p => max ((∑ n : Fin 512,
      (∑ j : Fin 8192, ((d (p 0) * A (ix2 (p 0) j)) * d j) * B (ix2 j n)) * W (ix2 (p 1) n)) + b (p 1)) 0

end Cert.Spec

end
-- ==== Proof.KI.R0Value.lean ====
/-
  The column-sum pass, read as values: what its two output arrays hold at the end, at the extended reals.

  The grid point t = 8 · (column tile) + (row tile) holds the 1024 × 1024 tile of the adjacency at block
  (t % 8, t / 8). At a first row tile the body leaves in the strip zero plus the tile's column sums, at a later one
  what the strip held plus the tile's column sums; so after point t the strip holds, at lane y, the sum of the first
  (t % 8 + 1) · 1024 rows of column 1024 (t / 8) + y — by induction on the point, the sum over a range growing by
  1024 rows at each step. The strip is written back after the last row tile, when that range is all 8192 rows: the
  block it writes is the column sums' block (0, t / 8), and these eight blocks cover the 1 × 8192 array. The
  half-precision tile is the tile itself (the conversion changes no extended real), written back at every point to
  block (t % 8, t / 8), and the 64 blocks cover the 8192 × 8192 array.
-/
import proofs.«123374_j59193239273550_2_alg».proof.Proof.KI.R0
import proofs.«123374_j59193239273550_2_alg».proof.Proof.Spec
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace R0V

section Cases
variable {F : FTy → Type} [FloatOps F]

theorem hz2 : (![0, 0] : Fin 2 → Nat) = fun _ => 0 := funext fun a => by fin_cases a <;> rfl

/-- At a later row tile the strip ends at the running sums it held plus the tile's column sums. -/
theorem out_B_1 (c : Dev nD) (i : grid0.Coords) (a2 : Memref sig .tc .vmem S1024x1024 .f32) (h2 : a2.IsWhole) (a3 : Memref sig .tc .vmem S1x1024 .f32) (h3 : a3.IsWhole) (a4 : Memref sig .tc .vmem S1024x1024 .bf16) (h4 : a4.IsWhole) (hc : ¬cond0_0 i) (x0 : Vec F S1024x1024 .f32) (xo1 : Vec F S1x1024 .f32) :
    out0_B_1 c i a2 h2 a3 h3 a4 h4 hc x0 xo1 = k0_pay2 xo1 x0 := by
  unfold out0_B_1
  rw [View.read_writes_eq_canon _ _ _ (cover0_B_1 c i a2 h2 a3 h3 a4 h4 hc x0 xo1)]
  unfold kernelRun0_B
  dsimp only
  rw [View.canon_unit_zero hz2]
  simp only [View.readAt_eq_ld, h2.read_unread, h3.read_unread, View.ld_unit_zero (S := S1x1024) hz2,
    View.ld_unit_zero (S := S1024x1024) hz2, shapeCast_self]

/-- At every point the half-precision tile ends at the tile, converted. -/
theorem out_B_2 (c : Dev nD) (i : grid0.Coords) (a2 : Memref sig .tc .vmem S1024x1024 .f32) (h2 : a2.IsWhole) (a3 : Memref sig .tc .vmem S1x1024 .f32) (h3 : a3.IsWhole) (a4 : Memref sig .tc .vmem S1024x1024 .bf16) (h4 : a4.IsWhole) (hc : ¬cond0_0 i) (x0 : Vec F S1024x1024 .f32) (xo1 : Vec F S1x1024 .f32) :
    out0_B_2 c i a2 h2 a3 h3 a4 h4 hc x0 xo1 = k0_pay3 x0 := by
  unfold out0_B_2
  rw [View.read_writes_eq_canon _ _ _ (cover0_B_2 c i a2 h2 a3 h3 a4 h4 hc x0 xo1)]
  unfold kernelRun0_B
  dsimp only
  rw [View.canon_unit_zero hz2]
  simp only [View.readAt_eq_ld, h2.read_unread, View.ld_unit_zero (S := S1024x1024) hz2, shapeCast_self]

/-- At a first row tile the strip ends at zero plus the tile's column sums. -/
theorem out_A_1 (c : Dev nD) (i : grid0.Coords) (a2 : Memref sig .tc .vmem S1024x1024 .f32) (h2 : a2.IsWhole) (a3 : Memref sig .tc .vmem S1x1024 .f32) (h3 : a3.IsWhole) (a4 : Memref sig .tc .vmem S1024x1024 .bf16) (h4 : a4.IsWhole) (hc : cond0_0 i) (x0 : Vec F S1024x1024 .f32) :
    out0_A_1 c i a2 h2 a3 h3 a4 h4 hc x0 = k0_pay2 (k0_pay1 (F := F)) x0 := by
  unfold out0_A_1
  rw [View.read_writes_eq_canon _ _ _ (cover0_A_1 c i a2 h2 a3 h3 a4 h4 hc x0)]
  unfold kernelRun0_A
  dsimp only
  sl_unfold_words
  rw [View.canon_cons_unit_zero (S := S1x1024) hz2, View.readCov_unit_zero (S := S1x1024) _ hz2]
  simp only [View.readAt_eq_ld, h2.read_unread, View.ld_unit_zero (S := S1x1024) hz2,
    View.ld_unit_zero (S := S1024x1024) hz2, shapeCast_self]

theorem out_A_2 (c : Dev nD) (i : grid0.Coords) (a2 : Memref sig .tc .vmem S1024x1024 .f32) (h2 : a2.IsWhole) (a3 : Memref sig .tc .vmem S1x1024 .f32) (h3 : a3.IsWhole) (a4 : Memref sig .tc .vmem S1024x1024 .bf16) (h4 : a4.IsWhole) (hc : cond0_0 i) (x0 : Vec F S1024x1024 .f32) :
    out0_A_2 c i a2 h2 a3 h3 a4 h4 hc x0 = k0_pay3 x0 := by
  unfold out0_A_2
  rw [View.read_writes_eq_canon _ _ _ (cover0_A_2 c i a2 h2 a3 h3 a4 h4 hc x0)]
  unfold kernelRun0_A
  dsimp only
  rw [View.canon_unit_zero hz2]
  simp only [View.readAt_eq_ld, h2.read_unread, View.ld_unit_zero (S := S1024x1024) hz2, shapeCast_self]

end Cases

section Value

variable (V : (c : Dev nD) → (b : Ref sig .tc) → Buf (Elt Ideal) ((c : Thread nD τ).loc b))

/-! ## The body's stored values at an index -/

/-- The zero strip. -/
theorem pay1_apply (y : S1x1024.Idx) : k0_pay1 (F := Ideal) y = 0 := Ideal.ofBits_zero_f32

/-- The running-sum update at a lane: what the strip held there plus the sum of the tile's column. -/
theorem pay2_apply (v3 : Vec Ideal S1x1024 .f32) (v5 : Vec Ideal S1024x1024 .f32) (y : S1x1024.Idx) :
    k0_pay2 (F := Ideal) v3 v5 y = v3 y + ∑ d : Fin 1024, v5 (ix2 d (y 1)) := by
  have hy0 : (y 0).val < 1 := (y 0).isLt
  have hy1 : (y 1).val < 1024 := (y 1).isLt
  unfold k0_pay2
  dsimp only
  rw [shapeCast_self, ValueIdx.addf_apply]
  refine congrArg (v3 y + ·) ?_
  refine (shapeCast_apply _ _ y (ix1 (⟨(y 1).val, hy1⟩ : Fin 1024) : S1024.Idx) (by
    rw [Shape.rowMajor_val_one, Shape.rowMajor_val_two]
    show (y 1).val = (y 0).val * 1024 + (y 1).val
    omega)).trans ?_
  refine (Ideal.multiReduction_add_single _ _ _ _ _ _).trans ?_
  refine Finset.sum_congr rfl fun d _ => congrArg v5 ?_
  exact funext fun a => Fin.ext (by match a with | ⟨0, _⟩ => rfl | ⟨1, _⟩ => rfl)

/-- The conversion to half precision changes no value. -/
theorem pay3_apply (v : Vec Ideal S1024x1024 .f32) (x : S1024x1024.Idx) : k0_pay3 (F := Ideal) v x = v x := rfl

/-! ## The blocks -/

theorem lt64 {n : ℕ} (h : n < cfg0.N) : n < 64 := lt_of_lt_of_eq h (show cfg0.N = 64 from N_0)

/-- The adjacency tile at point t is block (row tile t % 8, column tile t / 8). -/
theorem index0_0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
/-- The strip at point t is block (0, column tile t / 8). -/
theorem index0_1 : ∀ t : Fin cfg0.N, win0_1.index t 0 = 0 ∧ win0_1.index t 1 = t.val / 8 :=
  (by decide +kernel : ∀ t : Fin grid0.N, win0_1.index t 0 = 0 ∧ win0_1.index t 1 = t.val / 8)
/-- The half-precision tile at point t is block (t % 8, t / 8). -/
theorem index0_2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- The adjacency tile at point t, as an array of extended reals. -/
def tile0 (c : Dev nD) (t : Fin cfg0.N) : Vec Ideal S1024x1024 .f32 := iblk0 V c 0 t

/-- The adjacency tile at point t, at (x₀, x₁), is the adjacency at (1024 (t % 8) + x₀, 1024 (t / 8) + x₁). -/
theorem tile0_apply (c : Dev nD) (t : Fin cfg0.N) (x : S1024x1024.Idx) (k : S8192x8192.Idx)
    (hk0 : (k 0).val = 1024 * (t.val % 8) + (x 0).val) (hk1 : (k 1).val = 1024 * (t.val / 8) + (x 1).val) :
    tile0 V c t x = (V c main_arg1 : S8192x8192.Idx → EReal) k := by
  obtain ⟨hi0, hi1⟩ := index0_0 t
  unfold tile0 iblk0
  rw [View.read_apply]
  show V c main_arg1 _ = V c main_arg1 _
  congr 1
  funext a
  apply Fin.ext
  match a with
  | ⟨0, _⟩ => show win0_0.index t 0 * 1024 + 1 * (x 0).val = (k 0).val; rw [hi0, hk0]; omega
  | ⟨1, _⟩ => show win0_0.index t 1 * 1024 + 1 * (x 1).val = (k 1).val; rw [hi1, hk1]; omega

/-! ## The running strip -/

/-- Column j of the adjacency as a sequence, continued by zero past the last row (and zero for j past the last column). -/
def colExt (A : S8192x8192.Idx → EReal) (j i : ℕ) : EReal :=
  if h : i < 8192 ∧ j < 8192 then A (ix2 ⟨i, h.1⟩ ⟨j, h.2⟩) else 0

/-- The strip after point n: at lane y the sum of the first (n % 8 + 1) · 1024 rows of column 1024 (n / 8) + y. -/
def strip (A : S8192x8192.Idx → EReal) (n : ℕ) : Vec Ideal S1x1024 .f32 :=
  fun y => ∑ i ∈ Finset.range ((n % 8 + 1) * 1024), colExt A (1024 * (n / 8) + (y 1).val) i

/-- The column sum of the tile at point n at lane y is the sum of the next 1024 rows of that column. -/
theorem tile_sum (c : Dev nD) (n : ℕ) (h : n < cfg0.N) (y : S1x1024.Idx) :
    ∑ d : Fin 1024, tile0 V c ⟨n, h⟩ (ix2 d (y 1))
      = ∑ x ∈ Finset.range 1024, colExt (V c main_arg1) (1024 * (n / 8) + (y 1).val) ((n % 8) * 1024 + x) := by
  have hn := lt64 h
  have hy : (y 1).val < 1024 := (y 1).isLt
  rw [Finset.sum_range]
  refine Finset.sum_congr rfl fun d _ => ?_
  have hd : d.val < 1024 := d.isLt
  have hb : (n % 8) * 1024 + d.val < 8192 ∧ 1024 * (n / 8) + (y 1).val < 8192 := by omega
  unfold colExt
  rw [dif_pos hb]
  exact tile0_apply V c ⟨n, h⟩ (ix2 d (y 1)) _ (by show (n % 8) * 1024 + d.val = 1024 * (n % 8) + d.val; omega) rfl

/-- At a first row tile: zero plus the tile's column sums is the running strip. -/
theorem stepA (c : Dev nD) (n : ℕ) (h : n < cfg0.N) (h0 : n % 8 = 0) (y : S1x1024.Idx) :
    k0_pay2 (F := Ideal) (k0_pay1 (F := Ideal)) (tile0 V c ⟨n, h⟩) y = strip (V c main_arg1) n y := by
  rw [pay2_apply, pay1_apply, zero_add, tile_sum V c n h y]
  unfold strip
  rw [h0]
  simp only [Nat.zero_add, Nat.one_mul, Nat.zero_mul]

/-- At a later row tile: the running strip plus the tile's column sums is the next running strip. -/
theorem stepB (c : Dev nD) (n : ℕ) (h : n + 1 < cfg0.N) (h0 : ¬(n + 1) % 8 = 0) (y : S1x1024.Idx) :
    k0_pay2 (F := Ideal) (strip (V c main_arg1) n) (tile0 V c ⟨n + 1, h⟩) y = strip (V c main_arg1) (n + 1) y := by
  have hn := lt64 h
  rw [pay2_apply, tile_sum V c (n + 1) h y]
  unfold strip
  have e8 : (n + 1) / 8 = n / 8 := by omega
  have em : (n + 1) % 8 = n % 8 + 1 := by omega
  rw [e8, em, show (n % 8 + 1 + 1) * 1024 = (n % 8 + 1) * 1024 + 1024 from by ring, Finset.sum_range_add]

/-- After every point the strip's buffer holds the running strip. -/
theorem outs1_eq (c : Dev nD) (n : ℕ) : ∀ h : n < cfg0.N, (outsAt0 (F := Ideal) V c n h).1 = strip (V c main_arg1) n := by
  induction n with
  | zero =>
    intro h
    rw [outsAt0_A V c ⟨0, h⟩ (Nat.zero_mod 8)]
    dsimp only
    rw [out_A_1]
    exact funext fun y => stepA V c 0 h (Nat.zero_mod 8) y
  | succ n ih =>
    intro h
    by_cases h0 : (n + 1) % 8 = 0
    · rw [outsAt0_A V c ⟨n + 1, h⟩ h0]
      dsimp only
      rw [out_A_1]
      exact funext fun y => stepA V c (n + 1) h h0 y
    · rw [outsAt0_B V c ⟨n + 1, h⟩ h0]
      dsimp only
      rw [out_B_1]
      have e : ∀ hb, (outsAt0 (F := Ideal) V c (n + 1 - 1) hb).1 = strip (V c main_arg1) n := fun hb => ih _
      rw [e]
      exact funext fun y => stepB V c n h h0 y

/-- After every point the half-precision tile's buffer holds the adjacency tile. -/
theorem outs2_eq (c : Dev nD) (t : Fin cfg0.N) (x : S1024x1024.Idx) :
    (outsAt0 (F := Ideal) V c t.val t.isLt).2 x = tile0 V c t x := by
  by_cases h0 : t.val % 8 = 0
  · rw [outsAt0_A V c t h0]
    dsimp only
    rw [out_A_2]; rfl
  · rw [outsAt0_B V c t h0]
    dsimp only
    rw [out_B_2]; rfl

end Value

section Final

variable (V : (c : Dev nD) → (b : Ref sig .tc) → Buf (Elt Ideal) ((c : Thread nD τ).loc b))

/-- No block of the two output windows is cut: each is a whole 1 × 1024 strip, a whole 1024 × 1024 tile. -/
theorem xsize0_1 : ∀ t : Fin cfg0.N, win0_1.xsize (grid0.coords t) 0 = 1 ∧ win0_1.xsize (grid0.coords t) 1 = 1024 :=
  (by decide +kernel : ∀ t : Fin grid0.N, win0_1.xsize (grid0.coords t) 0 = 1 ∧ win0_1.xsize (grid0.coords t) 1 = 1024)
theorem xsize0_2 : ∀ t : Fin cfg0.N, win0_2.xsize (grid0.coords t) 0 = 1024 ∧ win0_2.xsize (grid0.coords t) 1 = 1024 :=
  (by decide +kernel : ∀ t : Fin grid0.N, win0_2.xsize (grid0.coords t) 0 = 1024 ∧ win0_2.xsize (grid0.coords t) 1 = 1024)

/-- A whole column of the adjacency, summed as a sequence, is its column sum. -/
theorem sum_colExt (A : S8192x8192.Idx → EReal) (j : Fin 8192) :
    ∑ i ∈ Finset.range 8192, colExt A j.val i = ∑ i : Fin 8192, A (ix2 i j) := by
  rw [Finset.sum_range]
  refine Finset.sum_congr rfl fun i _ => ?_
  unfold colExt
  rw [dif_pos ⟨i.isLt, j.isLt⟩]

/-- What a write-back of the strip writes, after a last row tile, is the block of the column sums it covers. -/
theorem flushed0_1 (c : Dev nD) (t : Fin cfg0.N) (hf : (cfg0.win 1).flush t = true) :
    (dat0 (F := Ideal) V c).flushed 1 t
      = ((cfg0.win 1).blk t).view.read (Elt Ideal) (Cert.Spec.colsum (V c main_arg1)) := by
  have h7 : t.val % 8 = 7 := (flush0_1 t).mp hf
  have hN := lt64 t.isLt
  obtain ⟨hi0, hi1⟩ := index0_1 t
  obtain ⟨hx0, hx1⟩ := xsize0_1 t
  funext y
  have hy1 : (y 1).val < 1024 := lt_of_lt_of_eq (y 1).isLt hx1
  show (dat0 V c).after 1 t ((cfg0.win 1).xinj (grid0.coords t) y) = _
  rw [after0_1, outs1_eq, View.read_apply]
  show strip (V c main_arg1) t.val _ = Cert.Spec.colsum (V c main_arg1) _
  unfold strip Cert.Spec.colsum
  rw [h7]
  have hcol : 1024 * (t.val / 8) + (y 1).val < 8192 := by omega
  refine (sum_colExt (V c main_arg1) ⟨1024 * (t.val / 8) + (y 1).val, hcol⟩).trans ?_
  refine Finset.sum_congr rfl fun i _ => congrArg (V c main_arg1) ?_
  refine funext fun a => Fin.ext ?_
  match a with
  | ⟨0, _⟩ => rfl
  | ⟨1, _⟩ =>
    show 1024 * (t.val / 8) + (y 1).val = win0_1.index t 1 * 1024 + 1 * (y 1).val
    rw [hi1]; omega

/-- Every index of the column-sum array lies in the block some write-back of the strip writes. -/
theorem cover0_1 (c : Dev nD) (i : S1x8192.Idx) :
    ∃ t : Fin cfg0.N, (cfg0.win 1).flush t = true ∧ i ∈ ((cfg0.win 1).blk t).view.set := by
  have h0 : (i 0 : Nat) < 1 := (i 0).isLt
  have h1 : (i 1 : Nat) < 8192 := (i 1).isLt
  have hN : cfg0.N = 64 := N_0
  let t : Fin cfg0.N := ⟨8 * ((i 1 : Nat) / 1024) + 7, by rw [hN]; omega⟩
  have ht : t.val = 8 * ((i 1 : Nat) / 1024) + 7 := rfl
  obtain ⟨hi0, hi1⟩ := index0_1 t
  obtain ⟨hx0, hx1⟩ := xsize0_1 t
  refine ⟨t, (flush0_1 t).mpr (by rw [ht]; omega), ?_⟩
  show i ∈ ((View.whole main_v0_0).slice (win0_1.rect t)).set
  rw [View.set_slice_whole, Rect.mem_set_unit]
  intro a
  match a with
  | ⟨0, _⟩ =>
    show win0_1.index t 0 * 1 ≤ (i 0 : Nat) ∧ (i 0 : Nat) < win0_1.index t 0 * 1 + win0_1.xsize (grid0.coords t) 0
    rw [hi0, hx0]; omega
  | ⟨1, _⟩ =>
    show win0_1.index t 1 * 1024 ≤ (i 1 : Nat) ∧ (i 1 : Nat) < win0_1.index t 1 * 1024 + win0_1.xsize (grid0.coords t) 1
    rw [hi1, hx1, ht]; omega

/-- The first output array ends at the column sums of the adjacency. -/
theorem arr1_eq (c : Dev nD) : (dat0 (F := Ideal) V c).arrAt 1 cfg0.N = Cert.Spec.colsum (V c main_arg1) :=
  (dat0 (F := Ideal) V c).arrAt_eq_of_cover 1 (Cert.Spec.colsum (V c main_arg1)) (flushed0_1 V c) (cover0_1 c)

/-- What a write-back of the half-precision tile writes is the block of the adjacency it covers. -/
theorem flushed0_2 (c : Dev nD) (t : Fin cfg0.N) (hf : (cfg0.win 2).flush t = true) :
    (dat0 (F := Ideal) V c).flushed 2 t = ((cfg0.win 2).blk t).view.read (Elt Ideal) (V c main_arg1) := by
  obtain ⟨hi0, hi1⟩ := index0_2 t
  funext y
  show (dat0 V c).after 2 t ((cfg0.win 2).xinj (grid0.coords t) y) = _
  rw [after0_2, outs2_eq, View.read_apply]
  refine tile0_apply V c t _ _ ?_ ?_
  · show win0_2.index t 0 * 1024 + 1 * (y 0).val = 1024 * (t.val % 8) + (y 0).val
    rw [hi0]; omega
  · show win0_2.index t 1 * 1024 + 1 * (y 1).val = 1024 * (t.val / 8) + (y 1).val
    rw [hi1]; omega

/-- Every index of the half-precision array lies in the block some point writes back. -/
theorem cover0_2 (c : Dev nD) (i : S8192x8192.Idx) :
    ∃ t : Fin cfg0.N, (cfg0.win 2).flush t = true ∧ i ∈ ((cfg0.win 2).blk t).view.set := by
  have h0 : (i 0 : Nat) < 8192 := (i 0).isLt
  have h1 : (i 1 : Nat) < 8192 := (i 1).isLt
  have hN : cfg0.N = 64 := N_0
  let t : Fin cfg0.N := ⟨8 * ((i 1 : Nat) / 1024) + (i 0 : Nat) / 1024, by rw [hN]; omega⟩
  have ht : t.val = 8 * ((i 1 : Nat) / 1024) + (i 0 : Nat) / 1024 := rfl
  obtain ⟨hi0, hi1⟩ := index0_2 t
  obtain ⟨hx0, hx1⟩ := xsize0_2 t
  refine ⟨t, flush0_2 t, ?_⟩
  show i ∈ ((View.whole main_v0_1).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + win0_2.xsize (grid0.coords t) 0
    rw [hi0, hx0, ht]; omega
  | ⟨1, _⟩ =>
    show win0_2.index t 1 * 1024 ≤ (i 1 : Nat) ∧ (i 1 : Nat) < win0_2.index t 1 * 1024 + win0_2.xsize (grid0.coords t) 1
    rw [hi1, hx1, ht]; omega

/-- The second output array ends at the adjacency itself: the conversion to half precision changes no value. -/
theorem arr2_eq (c : Dev nD) : (dat0 (F := Ideal) V c).arrAt 2 cfg0.N = V c main_arg1 :=
  (dat0 (F := Ideal) V c).arrAt_eq_of_cover 2 (V c main_arg1) (flushed0_2 V c) (cover0_2 c)

end Final

end R0V

/-- The first output array ends at the column sums of the adjacency. -/
theorem final0_1 (V : (c : Dev nD) → (b : Ref sig .tc) → Buf (Elt Ideal) ((c : Thread nD τ).loc b)) (c : Dev nD) :
    (dat0 (F := Ideal) V c).arrAt 1 cfg0.N = Cert.Spec.colsum (V c main_arg1) := R0V.arr1_eq V c

/-- The second output array ends at the adjacency itself. -/
theorem final0_2 (V : (c : Dev nD) → (b : Ref sig .tc) → Buf (Elt Ideal) ((c : Thread nD τ).loc b)) (c : Dev nD) :
    (dat0 (F := Ideal) V c).arrAt 2 cfg0.N = V c main_arg1 := R0V.arr2_eq V c

end Cert.KernelIdeal.Hand

end
-- ==== Proof.RefValue.lean ====
/-
  What the reference computes, as the specification's functions of its arguments.

  The reference scales the adjacency on both sides by d(j) = 1 / √(column sum j), and then, twice, multiplies by
  the features, multiplies by the transposed weights, adds the bias and clamps at zero; the classifier is one
  more product with transposed weights and a bias. Read index by index, each layer is the specification's
  `layerRef` of the reference's own arguments and the classifier its `head`. The second layer is the first
  layer's term with the first layer's result in the place of the features, so one reading serves both.
-/
import proofs.«123374_j59193239273550_2_alg».proof.Proof.Gen.ReferenceIdeal.Read
import proofs.«123374_j59193239273550_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.ShloMosaic.ValueIdx Cert

/-- Two rank-2 indices with equal coordinates are equal. -/
theorem idx2_ext {n0 n1 : Nat} (u v : (⟨2, ![n0, n1]⟩ : Shape).Idx) (h0 : u 0 = v 0) (h1 : u 1 = v 1) : u = v := by
  funext a
  match a with
  | ⟨0, _⟩ => exact h0
  | ⟨1, _⟩ => exact h1

/-- Two rank-1 indices with equal coordinates are equal. -/
theorem idx1_ext {n : Nat} (u v : (⟨1, ![n]⟩ : Shape).Idx) (h0 : u 0 = v 0) : u = v := by
  funext a
  match a with
  | ⟨0, _⟩ => exact h0

/-- The reference's scale: d(j) = 1 / √(the sum of column j of the adjacency). -/
def dRef (A : Spec.Mat 8192 8192) : Fin 8192 → EReal :=
  fun j => Ideal.rsqrt (Spec.colsum A (ix2 (0 : Fin 1) j))

/-- The reference's reciprocal square root of its column sums, at an index, is the scale there. -/
theorem v1_eq (x1 : (⟨S8192x8192, .f32⟩ : BufTy).Contents (Elt Ideal)) (i : S8192.Idx) :
    val_main_v1 (F := Ideal) x1 i = dRef x1 (i 0) := by
  rw [val_main_v1_apply, Ideal.hostUnary_rsqrt_def, val_main_v0_apply, val_main_cst_apply, Ideal.ofBits_def,
    Ideal.ofBits_zero_f32, zero_add]
  refine congrArg Ideal.rsqrt (Finset.sum_congr rfl fun k _ => congrArg x1 ?_)
  exact idx2_ext _ _ rfl rfl

/-- The adjacency scaled on both sides: entry (i, j) is (d(i) · A(i, j)) · d(j). -/
theorem v7_eq (x1 : (⟨S8192x8192, .f32⟩ : BufTy).Contents (Elt Ideal)) (p : S8192x8192.Idx) :
    val_main_v7 (F := Ideal) x1 p = (dRef x1 (p 0) * x1 p) * dRef x1 (p 1) := by
  rw [val_main_v7_apply, val_main_v4_apply, val_main_v3_apply, val_main_v2_apply, val_main_v6_apply, val_main_v5_apply,
    v1_eq, v1_eq]
  rfl

/-- The first layer's result is `layerRef` of the reference's arguments. -/
theorem layer1 (x0 : (⟨S8192x512, .f32⟩ : BufTy).Contents (Elt Ideal)) (x1 : (⟨S8192x8192, .f32⟩ : BufTy).Contents (Elt Ideal))
    (x2 : (⟨S512x512, .f32⟩ : BufTy).Contents (Elt Ideal)) (x3 : (⟨S512, .f32⟩ : BufTy).Contents (Elt Ideal)) :
    val_main_v14 (F := Ideal) x0 x1 x2 x3 = Spec.layerRef (dRef x1) x1 x0 x2 (fun o => x3 (ix1 o)) := by
  funext p
  rw [val_main_v14_apply, val_main_v13_apply, val_main_call0_v0_apply, val_main_call0_cst_apply, val_main_v12_apply,
    val_main_v11_apply, val_main_v10_apply, Ideal.maximumf_def, Ideal.addf_def, Ideal.ofBits_def, Ideal.ofBits_zero_f32]
  simp only [Spec.layerRef]
  refine congrArg (max · 0) (congrArg₂ (· + ·) (Finset.sum_congr rfl fun n _ => ?_) (congrArg x3 (idx1_ext _ _ rfl)))
  rw [val_main_v9_apply, val_main_v8_apply]
  refine congrArg₂ (· * ·) (Finset.sum_congr rfl fun j _ => ?_) (congrArg x2 (idx2_ext _ _ rfl rfl))
  rw [v7_eq]
  have e : lidx_main_v8 (lidx_main_v10 p n) j = (ix2 (p 0) j : S8192x8192.Idx) := idx2_ext _ _ rfl rfl
  rw [e]
  exact congrArg₂ (· * ·) rfl (congrArg x0 (idx2_ext _ _ rfl rfl))

/-- The second layer's term is the first layer's with the first layer's result as the features. -/
theorem v21_eq_v14 (x0 : (⟨S8192x512, .f32⟩ : BufTy).Contents (Elt Ideal)) (x1 : (⟨S8192x8192, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal)) :
    val_main_v21 (F := Ideal) x0 x1 x2 x3 x4 x5 = val_main_v14 (F := Ideal) (val_main_v14 (F := Ideal) x0 x1 x2 x3) x1 x4 x5 := rfl

/-- The reference's first result: two layers at the scale d, the second on the first's activations. -/
theorem ref_out0 (x0 : (⟨S8192x512, .f32⟩ : BufTy).Contents (Elt Ideal)) (x1 : (⟨S8192x8192, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal)) :
    val_main_v21 (F := Ideal) x0 x1 x2 x3 x4 x5
      = Spec.layerRef (dRef x1) x1 (Spec.layerRef (dRef x1) x1 x0 x2 (fun o => x3 (ix1 o))) x4 (fun o => x5 (ix1 o)) := by
  rw [v21_eq_v14, layer1, layer1]

/-- The reference's second result: the classifier head on the first result, the classifier's weights transposed
    and its bias read as a row. -/
theorem ref_out1 (x0 : (⟨S8192x512, .f32⟩ : BufTy).Contents (Elt Ideal)) (x1 : (⟨S8192x8192, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S32x512, .f32⟩ : BufTy).Contents (Elt Ideal)) (x7 : (⟨S32, .f32⟩ : BufTy).Contents (Elt Ideal)) :
    val_main_v26 (F := Ideal) x0 x1 x2 x3 x4 x5 x6 x7
      = Spec.head (val_main_v21 (F := Ideal) x0 x1 x2 x3 x4 x5)
          (fun q : (⟨2, ![512, 32]⟩ : Shape).Idx => x6 (ix2 (q 1) (q 0)))
          (fun q : (⟨2, ![1, 32]⟩ : Shape).Idx => x7 (ix1 (q 1))) := by
  funext p
  rw [val_main_v26_apply, val_main_v25_apply, val_main_v24_apply, val_main_v23_apply, Ideal.addf_def]
  simp only [Spec.head]
  refine congrArg₂ (· + ·) (Finset.sum_congr rfl fun n _ => ?_) (congrArg x7 (idx1_ext _ _ rfl))
  rw [val_main_v22_apply]
  exact congrArg₂ (· * ·) (congrArg (val_main_v21 (F := Ideal) x0 x1 x2 x3 x4 x5) (idx2_ext _ _ rfl rfl))
    (congrArg x6 (idx2_ext _ _ rfl rfl))

end Cert.ReferenceIdeal.RefValue

end
-- ==== Proof.Law.lean ====
/-
  The algebra of one layer, on the reals.

  Every array of the network is an array of reals under the certificate's precondition, and on the reals the
  two arrangements of a layer are one function: in
      Σₙ (Σⱼ ((d(i) · A(i, j)) · d(j)) · B(j, n)) · W(o, n)
  the factor d(i) does not depend on j, so it leaves the inner sum, and what remains is
      Σₙ ((Σⱼ A(i, j) · (B(j, n) · d(j))) · d(i)) · Wᵗ(n, o)
  term by term. On the extended reals the product does not distribute over the sum, which is why the statement
  asks for real entries: each array is given as the image of a real array, the scale d(j) = 1 / √(colsum j) is
  real because every column sum is positive, and both sides are then the image of one real array.
-/
import proofs.«123374_j59193239273550_2_alg».proof.Proof.Spec

noncomputable section

open scoped BigOperators

namespace Cert.ReferenceIdeal.RefValue

open Idealize.ShloMosaic Idealize.ShloMosaic.ValueIdx Cert.Spec

/-! ## The reals inside the extended reals -/

/-- The inclusion of the reals commutes with a finite sum. -/
theorem coe_sum {ι : Type*} (s : Finset ι) (f : ι → ℝ) :
    ((∑ i ∈ s, f i : ℝ) : EReal) = ∑ i ∈ s, (f i : EReal) := by
  classical
  refine Finset.induction_on s (by simp) ?_
  intro i s hi ih
  rw [Finset.sum_insert hi, Finset.sum_insert hi, EReal.coe_add, ih]

/-- The inclusion of the reals commutes with the maximum of two reals. -/
theorem coe_max (x y : ℝ) : ((max x y : ℝ) : EReal) = max (x : EReal) (y : EReal) :=
  EReal.coe_strictMono.monotone.map_max

/-- An a × b array of reals. -/
abbrev RMat (a b : Nat) : Type := (⟨2, ![a, b]⟩ : Shape).Idx → ℝ

/-- A real array read as an array of extended reals. -/
def up {a b : Nat} (m : RMat a b) : Mat a b := fun p => (m p : EReal)

theorem up_apply {a b : Nat} (m : RMat a b) (p : (⟨2, ![a, b]⟩ : Shape).Idx) : up m p = (m p : EReal) := rfl

/-- A family of extended reals each of which is a real is the image of a family of reals. -/
theorem exists_real_fun {ι : Type*} (f : ι → EReal) (h : ∀ i, ∃ r : ℝ, f i = (r : EReal)) :
    ∃ g : ι → ℝ, f = fun i => (g i : EReal) :=
  ⟨fun i => (h i).choose, funext fun i => (h i).choose_spec⟩

/-- An array every entry of which is a real is a real array read in the extended reals. -/
theorem exists_up {a b : Nat} (M : Mat a b) (h : ∀ p, ∃ r : ℝ, M p = (r : EReal)) : ∃ m : RMat a b, M = up m :=
  exists_real_fun M h

/-! ## The real twins of the specification's functions -/

/-- The column sums of a real array. -/
def colsumR (a : RMat 8192 8192) : RMat 1 8192 :=
  fun p => ∑ i : Fin 8192, a (ix2 i (p 1))

/-- 1 / √(cs(0, j)) on the reals. -/
def scaleR (cs : RMat 1 8192) : RMat 8192 1 :=
  fun p => (Real.sqrt (cs (ix2 (0 : Fin 1) (p 0))))⁻¹

/-- One layer on the reals, rows of the features scaled first. -/
def layerR (d : RMat 8192 1) (a : RMat 8192 8192) (x : RMat 8192 512) (wt : RMat 512 512) (b : RMat 1 512) : RMat 8192 512 :=
  fun p => max ((∑ n : Fin 512,
      ((∑ j : Fin 8192, a (ix2 (p 0) j) * (x (ix2 j n) * d (ix2 j (0 : Fin 1)))) * d (ix2 (p 0) (0 : Fin 1)))
        * wt (ix2 n (p 1))) + b (ix2 (0 : Fin 1) (p 1))) 0

/-- The classifier head on the reals. -/
def headR (h : RMat 8192 512) (ft : RMat 512 32) (fb : RMat 1 32) : RMat 8192 32 :=
  fun p => (∑ n : Fin 512, h (ix2 (p 0) n) * ft (ix2 n (p 1))) + fb (ix2 (0 : Fin 1) (p 1))

/-- One layer on the reals, the adjacency scaled on both sides first. -/
def layerRefR (d : Fin 8192 → ℝ) (a : RMat 8192 8192) (x : RMat 8192 512) (w : RMat 512 512) (b : Fin 512 → ℝ) : RMat 8192 512 :=
  fun p => max ((∑ n : Fin 512,
      (∑ j : Fin 8192, ((d (p 0) * a (ix2 (p 0) j)) * d j) * x (ix2 j n)) * w (ix2 (p 1) n)) + b (p 1)) 0

/-! ## Each function of real arrays is real -/

theorem colsum_up (a : RMat 8192 8192) : colsum (up a) = up (colsumR a) := by
  funext p
  simp only [colsum, colsumR, up, coe_sum]

/-- Where every column sum is positive the scale is the real 1 / √(column sum). -/
theorem scale_up (cs : RMat 1 8192) (hpos : ∀ j : Fin 8192, 0 < cs (ix2 (0 : Fin 1) j)) :
    scale (up cs) = up (scaleR cs) := by
  funext p
  have h := hpos (p 0)
  simp only [scale, scaleR, up, Ideal.rsqrt_coe, if_neg (not_lt.2 h.le), if_neg h.ne']

theorem layer_up (d : RMat 8192 1) (a : RMat 8192 8192) (x : RMat 8192 512) (wt : RMat 512 512) (b : RMat 1 512) :
    layer (up d) (up a) (up x) (up wt) (up b) = up (layerR d a x wt b) := by
  funext p
  simp only [layer, layerR, up, coe_max, EReal.coe_add, coe_sum, EReal.coe_mul, EReal.coe_zero]

theorem head_up (h : RMat 8192 512) (ft : RMat 512 32) (fb : RMat 1 32) :
    head (up h) (up ft) (up fb) = up (headR h ft fb) := by
  funext p
  simp only [head, headR, up, EReal.coe_add, coe_sum, EReal.coe_mul]

theorem layerRef_up (d : Fin 8192 → ℝ) (a : RMat 8192 8192) (x : RMat 8192 512) (w : RMat 512 512) (b : Fin 512 → ℝ) :
    layerRef (fun j => (d j : EReal)) (up a) (up x) (up w) (fun o => (b o : EReal)) = up (layerRefR d a x w b) := by
  funext p
  simp only [layerRef, layerRefR, up, coe_max, EReal.coe_add, coe_sum, EReal.coe_mul, EReal.coe_zero]

/-! ## The law -/

/-- On the reals the two arrangements of a layer agree, for any scale: d(i) leaves the sum over j. -/
theorem law_real (d : RMat 8192 1) (a : RMat 8192 8192) (x : RMat 8192 512) (w : RMat 512 512) (b : Fin 512 → ℝ) :
    layerRefR (fun j => d (ix2 j (0 : Fin 1))) a x w b
      = layerR d a x (fun p : (⟨2, ![512, 512]⟩ : Shape).Idx => w (ix2 (p 1) (p 0))) (fun p : (⟨2, ![1, 512]⟩ : Shape).Idx => b (p 1)) := by
  funext p
  show max ((∑ n : Fin 512,
      (∑ j : Fin 8192, ((d (ix2 (p 0) (0 : Fin 1)) * a (ix2 (p 0) j)) * d (ix2 j (0 : Fin 1))) * x (ix2 j n)) * w (ix2 (p 1) n)) + b (p 1)) 0
    = max ((∑ n : Fin 512,
      ((∑ j : Fin 8192, a (ix2 (p 0) j) * (x (ix2 j n) * d (ix2 j (0 : Fin 1)))) * d (ix2 (p 0) (0 : Fin 1)))
        * w (ix2 (p 1) n)) + b (p 1)) 0
  refine congrArg (fun t => max (t + b (p 1)) 0) (Finset.sum_congr rfl fun n _ => ?_)
  refine congrArg (· * w (ix2 (p 1) n)) ?_
  rw [Finset.sum_mul]
  exact Finset.sum_congr rfl fun j _ => by ring

/-- The law on the extended reals, for a real scale: with every entry of the scale column, the adjacency, the
    features, the weights and the bias a real, the reference's arrangement of a layer is the kernel's, the
    weights transposed and the bias read as a row. -/
theorem law_of_real (d : Mat 8192 1) (A : Mat 8192 8192) (B : Mat 8192 512) (W : Mat 512 512) (b : Fin 512 → EReal)
    (hd : ∃ d' : RMat 8192 1, d = up d') (hA : ∃ a : RMat 8192 8192, A = up a) (hB : ∃ x : RMat 8192 512, B = up x)
    (hW : ∃ w : RMat 512 512, W = up w) (hb : ∃ b' : Fin 512 → ℝ, b = fun o => (b' o : EReal)) :
    layerRef (fun j => d (ix2 j (0 : Fin 1))) A B W b
      = layer d A B (fun p : (⟨2, ![512, 512]⟩ : Shape).Idx => W (ix2 (p 1) (p 0))) (fun p : (⟨2, ![1, 512]⟩ : Shape).Idx => b (p 1)) := by
  obtain ⟨d', rfl⟩ := hd
  obtain ⟨a, rfl⟩ := hA
  obtain ⟨x, rfl⟩ := hB
  obtain ⟨w, rfl⟩ := hW
  obtain ⟨b', rfl⟩ := hb
  have e1 : (fun p : (⟨2, ![512, 512]⟩ : Shape).Idx => up w (ix2 (p 1) (p 0))) = up (fun p : (⟨2, ![512, 512]⟩ : Shape).Idx => w (ix2 (p 1) (p 0))) := rfl
  have e2 : (fun p : (⟨2, ![1, 512]⟩ : Shape).Idx => ((b' (p 1) : ℝ) : EReal)) = up (fun p : (⟨2, ![1, 512]⟩ : Shape).Idx => b' (p 1)) := rfl
  have e3 : (fun j : Fin 8192 => up d' (ix2 j (0 : Fin 1))) = fun j => ((d' (ix2 j (0 : Fin 1)) : ℝ) : EReal) := rfl
  rw [e1, e2, e3, layerRef_up, layer_up, law_real]

/-- The scale of a real adjacency with positive column sums is a real column. -/
theorem scale_colsum_real (A : Mat 8192 8192) (hA : ∃ a : RMat 8192 8192, A = up a)
    (hpos : ∀ j : Fin 8192, 0 < colsum A (ix2 (0 : Fin 1) j)) :
    ∃ d' : RMat 8192 1, scale (colsum A) = up d' := by
  obtain ⟨a, rfl⟩ := hA
  rw [colsum_up] at hpos ⊢
  exact ⟨scaleR (colsumR a), scale_up _ fun j => EReal.coe_pos.1 (hpos j)⟩

/-- The law: with every entry of the adjacency, the features, the weights and the bias a real and every column
    sum of the adjacency positive, the reference's arrangement of a layer at the scale 1 / √(column sum) is the
    kernel's at the scale column of the column sums, the weights transposed and the bias read as a row. -/
theorem law (A : Mat 8192 8192) (B : Mat 8192 512) (W : Mat 512 512) (b : Fin 512 → EReal)
    (hA : ∃ a : RMat 8192 8192, A = up a) (hB : ∃ x : RMat 8192 512, B = up x)
    (hW : ∃ w : RMat 512 512, W = up w) (hb : ∃ b' : Fin 512 → ℝ, b = fun o => (b' o : EReal))
    (hpos : ∀ j : Fin 8192, 0 < colsum A (ix2 (0 : Fin 1) j)) :
    layerRef (fun j => Ideal.rsqrt (colsum A (ix2 (0 : Fin 1) j))) A B W b
      = layer (scale (colsum A)) A B (fun p : (⟨2, ![512, 512]⟩ : Shape).Idx => W (ix2 (p 1) (p 0))) (fun p : (⟨2, ![1, 512]⟩ : Shape).Idx => b (p 1)) :=
  law_of_real (scale (colsum A)) A B W b (scale_colsum_real A hA hpos) hA hB hW hb

/-- A layer of real arrays is a real array (so the second layer's features are real when the first layer's
    arguments are). -/
theorem layer_real (d : Mat 8192 1) (A : Mat 8192 8192) (B : Mat 8192 512) (Wt : Mat 512 512) (b : Mat 1 512)
    (hd : ∃ d' : RMat 8192 1, d = up d') (hA : ∃ a : RMat 8192 8192, A = up a) (hB : ∃ x : RMat 8192 512, B = up x)
    (hW : ∃ w : RMat 512 512, Wt = up w) (hb : ∃ b' : RMat 1 512, b = up b') :
    ∃ h : RMat 8192 512, layer d A B Wt b = up h := by
  obtain ⟨d', rfl⟩ := hd
  obtain ⟨a, rfl⟩ := hA
  obtain ⟨x, rfl⟩ := hB
  obtain ⟨w, rfl⟩ := hW
  obtain ⟨b', rfl⟩ := hb
  exact ⟨_, layer_up d' a x w b'⟩

end Cert.ReferenceIdeal.RefValue

end
-- ==== Proof.PreDecode.lean ====
/-
  What the precondition says of the arguments.

  The precondition is the conjunction of nine tests, each "every element of an array passes": for each of the
  eight arguments, |x| < +∞ at every entry; and for the adjacency, (the sum of column j) > 0 at every j. On the
  extended reals |x| = max(x, −x) is +∞ exactly at the two infinities, so the first eight say that every entry
  of every argument is a real; the ninth is the positivity of the column sums as the specification states them.
-/
import proofs.«123374_j59193239273550_2_alg».proof.Pre_finite_inputs
import proofs.«123374_j59193239273550_2_alg».proof.Proof.Spec
import Idealize.ShloMosaic.Lib.ReduceAll
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.Pre_finite_inputs Idealize.ShloMosaic Idealize.ShloMosaic.ValueIdx Cert

/-- The rank-0 shape has one index. -/
instance : Subsingleton S_.Idx := ⟨fun _ _ => funext fun d => d.elim0⟩

/-- A one-bit word made from a Boolean is 1 exactly when the Boolean is true. -/
theorem ofBool_eq_one {b : Bool} : BitVec.ofBool b = 1#1 ↔ b = true := by cases b <;> decide

/-- |x| < +∞ on the extended reals says x is a real: max(x, −x) is +∞ at both infinities. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have hinf : Ideal.ofBits .f32 0x7F800000#32 = ⊤ := by simp [Ideal.ofBits, Ideal.ieee]
  rw [Ideal.cmpf_def, Ideal.hostAbsf_def, Ideal.absf_def, Ideal.ofBits_def, hinf] at h
  have h' : max x (-x) < ⊤ := by
    simpa only [Ideal.cmp, ofBool_eq_one, decide_eq_true_eq] using h
  induction x using EReal.rec with
  | bot => simp at h'
  | coe r => exact ⟨r, rfl⟩
  | top => simp at h'

/-- a > 0, as the comparison against the constant zero states it. -/
theorem pos_of_cmp_gt_zero (a : EReal)
    (h : FloatOps.cmpf (F := Ideal) (φ := .f32) .ogt a (FloatOps.ofBits (F := Ideal) .f32 0x00000000#32) = 1#1) : 0 < a := by
  rw [Ideal.cmpf_def, Ideal.ofBits_def, Ideal.ofBits_zero_f32] at h
  simpa only [Ideal.cmp, ofBool_eq_one, decide_eq_true_eq] using h

/-- "Every element of |x| is below +∞", read back: every entry of x is a real. -/
theorem real_of_all {s : Shape} (x : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf x) (broadcastInDim s ![] hb (constant S_ .f32 0x7F800000#32)))
      (constantI S_ 1 1#1) hr hu ValueIdx.ix0 = 1#1)
    (i : s.Idx) : ∃ r : ℝ, x i = (r : EReal) := by
  have e1 : FloatOps.cmpf (F := Ideal) (φ := .f32) .olt (FloatOps.hostAbsf (x i))
      (broadcastInDim s ![] hb (constant (F := Ideal) S_ .f32 0x7F800000#32) i) = 1#1 :=
    Host.reduce_andi_all _ _ hr hu _ e i
  have hb' : broadcastInDim s ![] hb (constant (F := Ideal) S_ .f32 0x7F800000#32) i
      = FloatOps.ofBits (F := Ideal) .f32 0x7F800000#32 :=
    broadcastInDim_apply _ hb _ i (fun a => a.elim0) (fun a => a.elim0)
  rw [hb'] at e1
  exact real_of_abs_lt_inf _ e1

variable [Facts]
open Facts

/-- The sum over axis 0 of the adjacency, from zero, at j is the specification's column sum at (0, j). -/
theorem colsum_read (A : FVec Ideal S8192x8192 .f32) (i : S8192.Idx) :
    Host.reduceAdd A (constant S_ .f32 0x00000000#32) reducesTo_S8192x8192_S8192_d0 h_S_ i
      = Spec.colsum A (ix2 (0 : Fin 1) (i 0)) := by
  simp only [Host.reduceAdd, Ideal.hostReduceAdd_def]
  rw [Ideal.hostReduceAdd_single reducesTo_S8192x8192_S8192_d0 (by decide)]
  have hz : constant (F := Ideal) S_ .f32 0x00000000#32 (Shape.Idx.first h_S_) = 0 := Ideal.ofBits_zero_f32
  rw [hz, zero_add]
  refine Finset.sum_congr rfl fun k _ => congrArg A ?_
  exact funext fun a => Fin.ext (by match a with | ⟨0, _⟩ => rfl | ⟨1, _⟩ => rfl)

/-- The precondition, read back: every entry of every argument is a real, and every column sum of the
    adjacency is positive. -/
theorem pre_decode (x0 : FVec Ideal S8192x512 .f32) (x1 : FVec Ideal S8192x8192 .f32) (x2 : FVec Ideal S512x512 .f32)
    (x3 : FVec Ideal S512 .f32) (x4 : FVec Ideal S512x512 .f32) (x5 : FVec Ideal S512 .f32)
    (x6 : FVec Ideal S32x512 .f32) (x7 : FVec Ideal S32 .f32)
    (h : fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, ∃ r : ℝ, x6 i = (r : EReal)) ∧ (∀ i, ∃ r : ℝ, x7 i = (r : EReal))
    ∧ ∀ j : Fin 8192, 0 < Spec.colsum x1 (ix2 (0 : Fin 1) j) := by
  have h0 := congrFun h ValueIdx.ix0
  dsimp only [fn, fn_part1, fn_part2] at h0
  simp only [andi, IntOp.andi_eq_one] at h0
  obtain ⟨⟨⟨⟨⟨⟨⟨⟨e0, e1⟩, e2⟩, e3⟩, e4⟩, e5⟩, e6⟩, e7⟩, e8⟩ := h0
  refine ⟨real_of_all x0 _ _ _ e0, real_of_all x1 _ _ _ e1, real_of_all x2 _ _ _ e2, real_of_all x3 _ _ _ e3,
    real_of_all x4 _ _ _ e4, real_of_all x5 _ _ _ e5, real_of_all x6 _ _ _ e6, real_of_all x7 _ _ _ e7, fun j => ?_⟩
  have e9 : FloatOps.cmpf (F := Ideal) (φ := .f32) .ogt
      (Host.reduceAdd x1 (constant S_ .f32 0x00000000#32) reducesTo_S8192x8192_S8192_d0 h_S_ (ix1 j))
      (broadcastInDim S8192 ![] bcast_S_S8192 (constant (F := Ideal) S_ .f32 0x00000000#32) (ix1 j)) = 1#1 :=
    Host.reduce_andi_all _ _ reducesTo_S8192_S_d0 h_S_ _ e8 (ix1 j)
  have hb' : broadcastInDim S8192 ![] bcast_S_S8192 (constant (F := Ideal) S_ .f32 0x00000000#32) (ix1 j)
      = FloatOps.ofBits (F := Ideal) .f32 0x00000000#32 :=
    broadcastInDim_apply _ bcast_S_S8192 _ (ix1 j) (fun a => a.elim0) (fun a => a.elim0)
  rw [hb', colsum_read] at e9
  exact pos_of_cmp_gt_zero _ e9

end Cert.ReferenceIdeal.RefValue

end
-- ==== Proof.RefLaw.lean ====
/-
  The reference's two results in the kernel's arrangement.

  Under the precondition every argument is an array of reals and every column sum of the adjacency is positive, so
  the law applies to each of the reference's two layers: the first directly, the second because the first layer's
  result is again an array of reals. The reference's results are then the specification's `layer`, `layer` and
  `head` at the scale column 1 / √(column sum), the weights transposed and the biases read as rows.
-/
import proofs.«123374_j59193239273550_2_alg».proof.Proof.RefValue
import proofs.«123374_j59193239273550_2_alg».proof.Proof.Law
import proofs.«123374_j59193239273550_2_alg».proof.Proof.PreDecode

noncomputable section

open scoped BigOperators

namespace Cert.ReferenceIdeal.RefValue

open Cert.ReferenceIdeal.Read Idealize.ShloMosaic Idealize.ShloMosaic.ValueIdx Cert

/-- The first layer in the kernel's arrangement, as a function of the reference's arguments. -/
def H1 (x0 : Spec.Mat 8192 512) (x1 : Spec.Mat 8192 8192) (x2 : Spec.Mat 512 512) (x3 : (⟨1, ![512]⟩ : Shape).Idx → EReal) :
    Spec.Mat 8192 512 :=
  Spec.layer (Spec.scale (Spec.colsum x1)) x1 x0 (fun p : (⟨2, ![512, 512]⟩ : Shape).Idx => x2 (ix2 (p 1) (p 0))) (fun p : (⟨2, ![1, 512]⟩ : Shape).Idx => x3 (ix1 (p 1)))

/-- The second layer in the kernel's arrangement, on the first layer's activations. -/
def H2 (x0 : Spec.Mat 8192 512) (x1 : Spec.Mat 8192 8192) (x2 : Spec.Mat 512 512) (x3 : (⟨1, ![512]⟩ : Shape).Idx → EReal)
    (x4 : Spec.Mat 512 512) (x5 : (⟨1, ![512]⟩ : Shape).Idx → EReal) : Spec.Mat 8192 512 :=
  Spec.layer (Spec.scale (Spec.colsum x1)) x1 (H1 x0 x1 x2 x3) (fun p : (⟨2, ![512, 512]⟩ : Shape).Idx => x4 (ix2 (p 1) (p 0)))
    (fun p : (⟨2, ![1, 512]⟩ : Shape).Idx => x5 (ix1 (p 1)))

/-- With real arguments and positive column sums, the reference's first result is the two layers in the
    kernel's arrangement. -/
theorem ref_out0_layer (x0 : Spec.Mat 8192 512) (x1 : Spec.Mat 8192 8192) (x2 : Spec.Mat 512 512)
    (x3 : (⟨1, ![512]⟩ : Shape).Idx → EReal) (x4 : Spec.Mat 512 512) (x5 : (⟨1, ![512]⟩ : Shape).Idx → EReal)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal))
    (hpos : ∀ j : Fin 8192, 0 < Spec.colsum x1 (ix2 (0 : Fin 1) j)) :
    val_main_v21 (F := Ideal) x0 x1 x2 x3 x4 x5 = H2 x0 x1 x2 x3 x4 x5 := by
  have hA := exists_up x1 h1
  have hd := scale_colsum_real x1 hA hpos
  have e1 : Spec.layerRef (dRef x1) x1 x0 x2 (fun o => x3 (ix1 o)) = H1 x0 x1 x2 x3 :=
    law x1 x0 x2 (fun o => x3 (ix1 o)) hA (exists_up x0 h0) (exists_up x2 h2) (exists_real_fun _ fun o => h3 (ix1 o)) hpos
  have hH1 : ∃ h : RMat 8192 512, H1 x0 x1 x2 x3 = up h :=
    layer_real _ _ _ _ _ hd hA (exists_up x0 h0) (exists_up _ fun p => h2 (ix2 (p 1) (p 0)))
      (exists_up _ fun p => h3 (ix1 (p 1)))
  have e2 : Spec.layerRef (dRef x1) x1 (H1 x0 x1 x2 x3) x4 (fun o => x5 (ix1 o)) = H2 x0 x1 x2 x3 x4 x5 :=
    law x1 (H1 x0 x1 x2 x3) x4 (fun o => x5 (ix1 o)) hA hH1 (exists_up x4 h4) (exists_real_fun _ fun o => h5 (ix1 o)) hpos
  rw [ref_out0, e1, e2]

/-- With real arguments and positive column sums, the reference's second result is the classifier head on the
    two layers in the kernel's arrangement. -/
theorem ref_out1_head (x0 : Spec.Mat 8192 512) (x1 : Spec.Mat 8192 8192) (x2 : Spec.Mat 512 512)
    (x3 : (⟨1, ![512]⟩ : Shape).Idx → EReal) (x4 : Spec.Mat 512 512) (x5 : (⟨1, ![512]⟩ : Shape).Idx → EReal)
    (x6 : Spec.Mat 32 512) (x7 : (⟨1, ![32]⟩ : Shape).Idx → EReal)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal))
    (hpos : ∀ j : Fin 8192, 0 < Spec.colsum x1 (ix2 (0 : Fin 1) j)) :
    val_main_v26 (F := Ideal) x0 x1 x2 x3 x4 x5 x6 x7
      = Spec.head (H2 x0 x1 x2 x3 x4 x5) (fun q : (⟨2, ![512, 32]⟩ : Shape).Idx => x6 (ix2 (q 1) (q 0)))
          (fun q : (⟨2, ![1, 32]⟩ : Shape).Idx => x7 (ix1 (q 1))) := by
  rw [ref_out1, ref_out0_layer x0 x1 x2 x3 x4 x5 h0 h1 h2 h3 h4 h5 hpos]

/-- Under the precondition, both of the reference's results in the kernel's arrangement. -/
theorem ref_of_pre [Cert.Pre_finite_inputs.Facts] (x0 : Spec.Mat 8192 512) (x1 : Spec.Mat 8192 8192) (x2 : Spec.Mat 512 512)
    (x3 : (⟨1, ![512]⟩ : Shape).Idx → EReal) (x4 : Spec.Mat 512 512) (x5 : (⟨1, ![512]⟩ : Shape).Idx → EReal)
    (x6 : Spec.Mat 32 512) (x7 : (⟨1, ![32]⟩ : Shape).Idx → EReal)
    (h : Cert.Pre_finite_inputs.fn (F := Ideal) x0 x1 x2 x3 x4 x5 x6 x7 = fun _ => 1#1) :
    val_main_v21 (F := Ideal) x0 x1 x2 x3 x4 x5 = H2 x0 x1 x2 x3 x4 x5
    ∧ val_main_v26 (F := Ideal) x0 x1 x2 x3 x4 x5 x6 x7
      = Spec.head (H2 x0 x1 x2 x3 x4 x5) (fun q : (⟨2, ![512, 32]⟩ : Shape).Idx => x6 (ix2 (q 1) (q 0)))
          (fun q : (⟨2, ![1, 32]⟩ : Shape).Idx => x7 (ix1 (q 1))) := by
  obtain ⟨h0, h1, h2, h3, h4, h5, _, _, hpos⟩ := pre_decode x0 x1 x2 x3 x4 x5 x6 x7 h
  exact ⟨ref_out0_layer x0 x1 x2 x3 x4 x5 h0 h1 h2 h3 h4 h5 hpos,
    ref_out1_head x0 x1 x2 x3 x4 x5 x6 x7 h0 h1 h2 h3 h4 h5 hpos⟩

end Cert.ReferenceIdeal.RefValue

end
-- ==== Proof.KI.HostRead.lean ====
/-
  The host lines between the kernels, read as values, and the program's two results.

  Between the first and the second kernel the host reshapes the 1 × 8192 row of column sums to a vector, takes
  1 / √ of it, reshapes that to an 8192 × 1 column, transposes (and narrows, which changes no extended real) the
  three weight matrices, and reshapes the first bias to a row; between the second and the third it reshapes the same
  scale vector to a column again and the other two biases to rows. Index by index the scale column is the
  specification's `scale` of the first kernel's column sums, each transposed matrix is the launch's matrix with its
  indices exchanged, each row is the launch's bias; everything else a kernel reads is what the kernel before left or
  what the launch gave. With what each kernel leaves in its output arrays as a function of what it reads, the
  program's two results are the two layers and the classifier head at the launch's arguments.
-/
import proofs.«123374_j59193239273550_2_alg».proof.Proof.KI.Chain
import proofs.«123374_j59193239273550_2_alg».proof.Proof.KI.R0Value
import proofs.«123374_j59193239273550_2_alg».proof.Proof.RefLaw
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable (m : (ℓ : Loc nD τ sig) → Buf (Elt Ideal) ℓ)

namespace HostRead

/-! ## Reshapes between a vector, a row and a column -/

section Reshape
variable {α : Type}

/-- A vector reshaped to a row: entry (0, j) is entry j. -/
theorem shapeCast_row {n : Nat} (x : (⟨1, ![n]⟩ : Shape).Idx → α) (h : (⟨1, ![n]⟩ : Shape).ShapeCasts ⟨2, ![1, n]⟩)
    (p : (⟨2, ![1, n]⟩ : Shape).Idx) : shapeCast ⟨2, ![1, n]⟩ x h p = x (ix1 (p 1)) := by
  have h0 : (p 0).val < 1 := (p 0).isLt
  refine shapeCast_apply x h p (ix1 (p 1)) ?_
  rw [Shape.rowMajor_val_one, Shape.rowMajor_val_two]
  show (p 1).val = (p 0).val * n + (p 1).val
  rw [show (p 0).val = 0 from by omega]; omega

/-- A vector reshaped to a column: entry (i, 0) is entry i. -/
theorem shapeCast_col {n : Nat} (x : (⟨1, ![n]⟩ : Shape).Idx → α) (h : (⟨1, ![n]⟩ : Shape).ShapeCasts ⟨2, ![n, 1]⟩)
    (p : (⟨2, ![n, 1]⟩ : Shape).Idx) : shapeCast ⟨2, ![n, 1]⟩ x h p = x (ix1 (p 0)) := by
  have h1 : (p 1).val < 1 := (p 1).isLt
  refine shapeCast_apply x h p (ix1 (p 0)) ?_
  rw [Shape.rowMajor_val_one, Shape.rowMajor_val_two]
  show (p 0).val = (p 0).val * 1 + (p 1).val
  omega

/-- A row reshaped to a vector: entry j is entry (0, j). -/
theorem shapeCast_unrow {n : Nat} (x : (⟨2, ![1, n]⟩ : Shape).Idx → α) (h : (⟨2, ![1, n]⟩ : Shape).ShapeCasts ⟨1, ![n]⟩)
    (k : (⟨1, ![n]⟩ : Shape).Idx) : shapeCast ⟨1, ![n]⟩ x h k = x (ix2 (0 : Fin 1) (k 0)) := by
  refine shapeCast_apply x h k (ix2 (0 : Fin 1) (k 0)) ?_
  rw [Shape.rowMajor_val_one, Shape.rowMajor_val_two]
  show (0 : Nat) * n + (k 0).val = (k 0).val
  omega

end Reshape

/-! ## The contents between the items, away from what an item writes -/

/-- The first kernel changes only its two output arrays. -/
theorem hr_X1_of (c : Dev nD) (r : Ref sig .tc) (h0 : r ≠ main_v0_0) (h1 : r ≠ main_v0_1) :
    X1 m c r = m ((c : Thread nD τ).loc r) := by
  unfold X1
  rw [Function.update_of_ne (StableHlo.devRef_ne_of_ne h1), Function.update_of_ne (StableHlo.devRef_ne_of_ne h0)]

/-- The second kernel changes only its output array. -/
theorem hr_X3_of (c : Dev nD) (r : Ref sig .tc) (h : r ≠ main_v11) : X3 m c r = Ve2 m c r := by
  unfold X3
  rw [Function.update_of_ne (StableHlo.devRef_ne_of_ne h)]

/-! ## The first host stretch -/

/-- The scale as a vector: 1 / √ of the column sums. -/
theorem ve2_v2 (c : Dev nD) (k : S8192.Idx) :
    Ve2 m c main_v2 k = Ideal.rsqrt (X1 m c main_v0_0 (ix2 (0 : Fin 1) (k 0))) := by
  show StableHlo.after hostOps1 (X1 m c) (Proc.devRef .tc main_v2) k = _
  after_results
  show Ideal.rsqrt (shapeCast (α := EReal) S8192 (X1 m c (Proc.devRef .tc main_v0_0)) shapeCasts_S1x8192_S8192 k) = _
  rw [shapeCast_unrow]

/-- The scale column the second kernel reads is the specification's scale of the first kernel's column sums. -/
theorem ve2_v9 (c : Dev nD) : Ve2 m c main_v9 = Cert.Spec.scale (X1 m c main_v0_0) := by
  funext p
  show StableHlo.after hostOps1 (X1 m c) (Proc.devRef .tc main_v9) p = _
  after_results
  show shapeCast (α := EReal) S8192x1 (Host.rsqrt (F := Ideal) (φ := .f32) fun i => shapeCast (α := EReal) S8192 (X1 m c (Proc.devRef .tc main_v0_0)) shapeCasts_S1x8192_S8192 i)
      shapeCasts_S8192_S8192x1 p = _
  rw [shapeCast_col]
  show Ideal.rsqrt (shapeCast (α := EReal) S8192 (X1 m c (Proc.devRef .tc main_v0_0)) shapeCasts_S1x8192_S8192 (ix1 (p 0))) = _
  rw [shapeCast_unrow]
  rfl

/-- The first layer's weights as the second kernel reads them: transposed (the narrowing changes no value). -/
theorem ve2_v4 (c : Dev nD) :
    Ve2 m c main_v4 = fun p : (⟨2, ![512, 512]⟩ : Shape).Idx => (m ((c : Thread nD τ).loc main_arg2)) (ix2 (p 1) (p 0)) := by
  funext p
  show StableHlo.after hostOps1 (X1 m c) (Proc.devRef .tc main_v4) p = _
  after_results
  show transpose S512x512 [1, 0] (X1 m c (Proc.devRef .tc main_arg2)) transposes_S512x512_S512x512_1_0 p = _
  rw [transpose_apply [1, 0] _ transposes_S512x512_S512x512_1_0 p (ix2 (p 1) (p 0)) (fun b => match b with
    | ⟨0, _⟩ => rfl
    | ⟨1, _⟩ => rfl)]
  exact congrFun (hr_X1_of m c main_arg2 (by decide) (by decide)) _

/-- The first bias as the second kernel reads it: as a row. -/
theorem ve2_v10 (c : Dev nD) :
    Ve2 m c main_v10 = fun p : (⟨2, ![1, 512]⟩ : Shape).Idx => (m ((c : Thread nD τ).loc main_arg3)) (ix1 (p 1)) := by
  funext p
  show StableHlo.after hostOps1 (X1 m c) (Proc.devRef .tc main_v10) p = _
  after_results
  show shapeCast (α := EReal) S1x512 (X1 m c (Proc.devRef .tc main_arg3)) shapeCasts_S512_S1x512 p = _
  rw [shapeCast_row]
  exact congrFun (hr_X1_of m c main_arg3 (by decide) (by decide)) _

/-- The half-precision adjacency is not touched by the host lines. -/
theorem ve2_v0_1 (c : Dev nD) : Ve2 m c main_v0_1 = X1 m c main_v0_1 := by
  show StableHlo.after hostOps1 (X1 m c) (Proc.devRef .tc main_v0_1) = _
  after_results

/-- The features are the launch's. -/
theorem ve2_arg0 (c : Dev nD) : Ve2 m c main_arg0 = (m ((c : Thread nD τ).loc main_arg0)) := by
  show StableHlo.after hostOps1 (X1 m c) (Proc.devRef .tc main_arg0) = _
  after_results
  exact hr_X1_of m c main_arg0 (by decide) (by decide)

/-! ## The second host stretch -/

/-- The scale column the third kernel reads is the same scale. -/
theorem ve4_v12 (c : Dev nD) : Ve4 m c main_v12 = Cert.Spec.scale (X1 m c main_v0_0) := by
  funext p
  show StableHlo.after hostOps2 (X3 m c) (Proc.devRef .tc main_v12) p = _
  after_results
  show shapeCast (α := EReal) S8192x1 (X3 m c (Proc.devRef .tc main_v2)) shapeCasts_S8192_S8192x1 p = _
  rw [shapeCast_col, hr_X3_of m c main_v2 (by decide), ve2_v2]
  rfl

/-- The second layer's weights as the third kernel reads them: transposed. -/
theorem ve4_v6 (c : Dev nD) :
    Ve4 m c main_v6 = fun p : (⟨2, ![512, 512]⟩ : Shape).Idx => (m ((c : Thread nD τ).loc main_arg4)) (ix2 (p 1) (p 0)) := by
  funext p
  show StableHlo.after hostOps2 (X3 m c) (Proc.devRef .tc main_v6) p = _
  after_results
  rw [hr_X3_of m c main_v6 (by decide)]
  show StableHlo.after hostOps1 (X1 m c) (Proc.devRef .tc main_v6) p = _
  after_results
  show transpose S512x512 [1, 0] (X1 m c (Proc.devRef .tc main_arg4)) transposes_S512x512_S512x512_1_0 p = _
  rw [transpose_apply [1, 0] _ transposes_S512x512_S512x512_1_0 p (ix2 (p 1) (p 0)) (fun b => match b with
    | ⟨0, _⟩ => rfl
    | ⟨1, _⟩ => rfl)]
  exact congrFun (hr_X1_of m c main_arg4 (by decide) (by decide)) _

/-- The second bias as a row. -/
theorem ve4_v13 (c : Dev nD) :
    Ve4 m c main_v13 = fun p : (⟨2, ![1, 512]⟩ : Shape).Idx => (m ((c : Thread nD τ).loc main_arg5)) (ix1 (p 1)) := by
  funext p
  show StableHlo.after hostOps2 (X3 m c) (Proc.devRef .tc main_v13) p = _
  after_results
  show shapeCast (α := EReal) S1x512 (X3 m c (Proc.devRef .tc main_arg5)) shapeCasts_S512_S1x512 p = _
  rw [shapeCast_row, hr_X3_of m c main_arg5 (by decide)]
  show StableHlo.after hostOps1 (X1 m c) (Proc.devRef .tc main_arg5) _ = _
  after_results
  exact congrFun (hr_X1_of m c main_arg5 (by decide) (by decide)) _

/-- The classifier's weights as the third kernel reads them: transposed. -/
theorem ve4_v8 (c : Dev nD) :
    Ve4 m c main_v8 = fun p : (⟨2, ![512, 32]⟩ : Shape).Idx => (m ((c : Thread nD τ).loc main_arg6)) (ix2 (p 1) (p 0)) := by
  funext p
  show StableHlo.after hostOps2 (X3 m c) (Proc.devRef .tc main_v8) p = _
  after_results
  rw [hr_X3_of m c main_v8 (by decide)]
  show StableHlo.after hostOps1 (X1 m c) (Proc.devRef .tc main_v8) p = _
  after_results
  show transpose S512x32 [1, 0] (X1 m c (Proc.devRef .tc main_arg6)) transposes_S32x512_S512x32_1_0 p = _
  rw [transpose_apply [1, 0] _ transposes_S32x512_S512x32_1_0 p (ix2 (p 1) (p 0)) (fun b => match b with
    | ⟨0, _⟩ => rfl
    | ⟨1, _⟩ => rfl)]
  exact congrFun (hr_X1_of m c main_arg6 (by decide) (by decide)) _

/-- The classifier's bias as a row. -/
theorem ve4_v14 (c : Dev nD) :
    Ve4 m c main_v14 = fun p : (⟨2, ![1, 32]⟩ : Shape).Idx => (m ((c : Thread nD τ).loc main_arg7)) (ix1 (p 1)) := by
  funext p
  show StableHlo.after hostOps2 (X3 m c) (Proc.devRef .tc main_v14) p = _
  after_results
  show shapeCast (α := EReal) S1x32 (X3 m c (Proc.devRef .tc main_arg7)) shapeCasts_S32_S1x32 p = _
  rw [shapeCast_row, hr_X3_of m c main_arg7 (by decide)]
  show StableHlo.after hostOps1 (X1 m c) (Proc.devRef .tc main_arg7) _ = _
  after_results
  exact congrFun (hr_X1_of m c main_arg7 (by decide) (by decide)) _

/-- The first layer's activations are what the second kernel left. -/
theorem ve4_v11 (c : Dev nD) : Ve4 m c main_v11 = X3 m c main_v11 := by
  show StableHlo.after hostOps2 (X3 m c) (Proc.devRef .tc main_v11) = _
  after_results

/-- The half-precision adjacency is still what the first kernel left. -/
theorem ve4_v0_1 (c : Dev nD) : Ve4 m c main_v0_1 = X1 m c main_v0_1 := by
  show StableHlo.after hostOps2 (X3 m c) (Proc.devRef .tc main_v0_1) = _
  after_results
  rw [hr_X3_of m c main_v0_1 (by decide)]
  exact ve2_v0_1 m c

end HostRead

open HostRead

/-! ## The kernel's two results -/

/-- Given what the second and third kernels leave in their output arrays as functions of the buffers they are
    entered from, the program's two results are the two layers and the classifier head of the specification at the
    launch's arguments, in the kernel's arrangement. -/
theorem kernel_value
    (h1 : ∀ (V : (c : Dev nD) → (b : Ref sig .tc) → Buf (Elt Ideal) ((c : Thread nD τ).loc b)) (c : Dev nD),
      (dat1 (F := Ideal) V c).arrAt 6 cfg1.N
        = Cert.Spec.layer (V c main_v9) (V c main_v0_1) (V c main_arg0) (V c main_v4) (V c main_v10))
    (h2a : ∀ (V : (c : Dev nD) → (b : Ref sig .tc) → Buf (Elt Ideal) ((c : Thread nD τ).loc b)) (c : Dev nD),
      (dat2 (F := Ideal) V c).arrAt 8 cfg2.N
        = Cert.Spec.layer (V c main_v12) (V c main_v0_1) (V c main_v11) (V c main_v6) (V c main_v13))
    (h2b : ∀ (V : (c : Dev nD) → (b : Ref sig .tc) → Buf (Elt Ideal) ((c : Thread nD τ).loc b)) (c : Dev nD),
      (dat2 (F := Ideal) V c).arrAt 9 cfg2.N
        = Cert.Spec.head ((dat2 (F := Ideal) V c).arrAt 8 cfg2.N) (V c main_v8) (V c main_v14))
    (c : Dev nD) :
    X5 m c main_v15_0
        = Cert.ReferenceIdeal.RefValue.H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ X5 m c main_v15_1
        = Cert.Spec.head (Cert.ReferenceIdeal.RefValue.H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
            (fun q : (⟨2, ![512, 32]⟩ : Shape).Idx => (m ((c : Thread nD τ).loc main_arg6)) (ix2 (q 1) (q 0)))
            (fun q : (⟨2, ![1, 32]⟩ : Shape).Idx => (m ((c : Thread nD τ).loc main_arg7)) (ix1 (q 1))) := by
  -- the first kernel's two arrays
  have eA : X1 m c main_v0_1 = (m ((c : Thread nD τ).loc main_arg1)) := (X1_b m c).trans (final0_2 (Ve0 m) c)
  have eS : X1 m c main_v0_0 = Cert.Spec.colsum (m ((c : Thread nD τ).loc main_arg1)) := (X1_a m c).trans (final0_1 (Ve0 m) c)
  -- the first layer
  have eH1 : X3 m c main_v11 = Cert.ReferenceIdeal.RefValue.H1 (m ((c : Thread nD τ).loc main_arg0)) (m ((c : Thread nD τ).loc main_arg1)) (m ((c : Thread nD τ).loc main_arg2)) (m ((c : Thread nD τ).loc main_arg3)) := by
    rw [X3_a, h1 (Ve2 m) c, ve2_v9, ve2_v0_1, ve2_arg0, ve2_v4, ve2_v10, eA, eS]
    rfl
  -- the second layer
  have eH2 : X5 m c main_v15_0
      = Cert.ReferenceIdeal.RefValue.H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
    rw [X5_a, h2a (Ve4 m) c, ve4_v12, ve4_v0_1, ve4_v11, ve4_v6, ve4_v13, eA, eS, eH1]
    rfl
  refine ⟨eH2, ?_⟩
  rw [X5_b, h2b (Ve4 m) c, ← X5_a, eH2, ve4_v8, ve4_v14]

end Cert.KernelIdeal.Hand

end
-- ==== Proof.KI.R1ValuePieces.lean ====
/-
  Region 1, the first graph layer: what each control case of the body leaves, as the body's arithmetic applied to the
  blocks it loads.

  At every point the accumulator ends at  acc + A_tile · (B_rows ∘ d_k)  (where the reduction coordinate is 0, with
  acc the zero block the reset stores; elsewhere with acc what the point before left). Where the reduction coordinate
  is 7 the output block is the finished accumulator scaled row by row by d, multiplied by Wᵗ, shifted by the bias and
  clamped at zero. B is resident as a whole: the body loads the 1024 rows of reduction tile k out of it.
-/
import proofs.«123374_j59193239273550_2_alg».proof.Proof.KI.R1
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 rectangle, as a constant function. -/
theorem hz2 : (![0, 0] : Fin 2 → Nat) = fun _ => 0 := funext fun a => by fin_cases a <;> rfl

/-- The 1024 rows of B that belong to reduction tile k: rows 1024·k … 1024·k + 1023 of the resident array. -/
abbrev brows (i : grid1.Coords) (x3 : Vec F S8192x512 .f32) : Vec F S1024x512 .f32 :=
  View.ld x3 (Rect.unit (s := S8192x512) (k1_off1 i) S1024x512.size (k1_off1_inb i))

/-- Where 0 < k < 7 the accumulator holding `xs0` is left at `xs0 + A_tile · (B_rows ∘ d_k)`. -/
theorem sacc_B (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) :
    sout1_B_0 c i arg2 harg2 arg3 harg3 arg4 harg4 arg5 harg5 arg6 harg6 arg7 harg7 arg8 harg8 arg9 harg9 hc0 hc1 x0 x1 x2 x3 x4 x5 xs0 = k1_pay2 (brows i x3) x1 xs0 x2 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 x4 x5 xs0)]
  unfold kernelRun1_B
  dsimp only
  rw [View.canon_unit_zero hz2]
  simp only [View.readAt_eq_ld, harg2.read_unread, harg3.read_unread, harg4.read_unread, harg5.read_unread, harg6.read_unread, harg7.read_unread, harg9.read_unread,
    View.ld_unit_zero (S := S1024x1) hz2, View.ld_unit_zero (S := S1024x512) hz2, View.ld_unit_zero (S := S1024x1024) hz2,
    View.ld_unit_zero (S := S512x512) hz2, View.ld_unit_zero (S := S1x512) hz2]

/-- Where k = 7 the accumulator holding `xs0` is left at `xs0 + A_tile · (B_rows ∘ d_k)` as well. -/
theorem sacc_C (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) :
    sout1_C_0 c i arg2 harg2 arg3 harg3 arg4 harg4 arg5 harg5 arg6 harg6 arg7 harg7 arg8 harg8 arg9 harg9 hc0 hc1 x0 x1 x2 x3 x4 x5 xs0 = k1_pay2 (brows i x3) x1 xs0 x2 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg9.read_unread,
    View.ld_unit_zero (S := S1024x1) hz2, View.ld_unit_zero (S := S1024x512) hz2, View.ld_unit_zero (S := S1024x1024) hz2,
    View.ld_unit_zero (S := S512x512) hz2, View.ld_unit_zero (S := S1x512) hz2] <;> rfl

/-- Where k = 0 the accumulator is reset to the zero block first, so it is left at `0 + A_tile · (B_rows ∘ d_k)`. -/
theorem sacc_A (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond1_0 i) (hc1 : ¬cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) :
    sout1_A_0 c i arg2 harg2 arg3 harg3 arg4 harg4 arg5 harg5 arg6 harg6 arg7 harg7 arg8 harg8 arg9 harg9 hc0 hc1 x0 x1 x2 x3 x4 x5 = k1_pay2 (brows i x3) x1 (k1_pay1 (F := F)) x2 := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S1024x512) hz2, View.readCov_unit_zero (S := S1024x512) _ hz2]
  simp only [View.readAt_eq_ld, harg2.read_unread, harg3.read_unread, harg4.read_unread, harg5.read_unread, harg6.read_unread, harg7.read_unread, harg9.read_unread,
    View.ld_unit_zero (S := S1024x1) hz2, View.ld_unit_zero (S := S1024x512) hz2, View.ld_unit_zero (S := S1024x1024) hz2,
    View.ld_unit_zero (S := S512x512) hz2, View.ld_unit_zero (S := S1x512) hz2] <;> rfl

/-- Where k = 7 the output block is the body's last payload of the finished accumulator, the scale rows of the row
    tile, Wᵗ and the bias row. -/
theorem out_C (c : Dev nD) (i : grid1.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond1_0 i) (hc1 : cond1_1 i)
    (x0 : Vec F S1024x1 .f32) (x1 : Vec F S1024x1 .f32) (x2 : Vec F S1024x1024 .bf16) (x3 : Vec F S8192x512 .f32) (x4 : Vec F S512x512 .bf16) (x5 : Vec F S1x512 .f32) (xs0 : Vec F S1024x512 .f32) :
    out1_C_6 c i arg2 harg2 arg3 harg3 arg4 harg4 arg5 harg5 arg6 harg6 arg7 harg7 arg8 harg8 arg9 harg9 hc0 hc1 x0 x1 x2 x3 x4 x5 xs0 = k1_pay3 (k1_pay2 (brows i x3) x1 xs0 x2) x0 x4 x5 := by
  unfold out1_C_6
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero hz2, View.readCov_unit_zero (S := S1024x512) _ hz2]
  simp only [View.readAt_eq_ld, harg2.read_unread, harg3.read_unread, harg4.read_unread, harg5.read_unread, harg6.read_unread, harg7.read_unread, harg9.read_unread,
    View.ld_unit_zero (S := S1024x1) hz2, View.ld_unit_zero (S := S1024x512) hz2, View.ld_unit_zero (S := S1024x1024) hz2,
    View.ld_unit_zero (S := S512x512) hz2, View.ld_unit_zero (S := S1x512) hz2] <;> rfl

end Cert.KernelIdeal.Hand

end
-- ==== Proof.KI.R1ValueBlocks.lean ====
/-
  Region 1, the first graph layer: where each window's block sits in its array, and what the accumulator and the
  output block hold after a point in terms of the point's blocks.

  Point t = 8·(row tile) + k. The two windows on the scale vector d hold its rows 1024·(row tile) … and 1024·k …;
  the adjacency window holds the tile (row tile, k); B, Wᵗ and the bias are resident whole, and the body takes rows
  1024·k … of B. So an entry of a block is the entry of its array at the block's offset plus the entry's own
  coordinates.
-/
import proofs.«123374_j59193239273550_2_alg».proof.Proof.KI.R1ValuePieces
import proofs.«123374_j59193239273550_2_alg».proof.Proof.Spec

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The windows' block indices and the offset of the rows of B, at every one of the 64 points. -/
theorem idx1_facts : ∀ t : Fin cfg1.N,
    win1_0.index t 0 = t.val / 8 ∧ win1_0.index t 1 = 0 ∧ win1_1.index t 0 = t.val % 8 ∧ win1_1.index t 1 = 0
    ∧ win1_2.index t 0 = t.val / 8 ∧ win1_2.index t 1 = t.val % 8
    ∧ win1_3.index t 0 = 0 ∧ win1_3.index t 1 = 0 ∧ win1_4.index t 0 = 0 ∧ win1_4.index t 1 = 0
    ∧ win1_5.index t 0 = 0 ∧ win1_5.index t 1 = 0 ∧ win1_6.index t 0 = t.val / 8 ∧ win1_6.index t 1 = 0
    ∧ k1_off1 (grid1.coords t) 0 = 1024 * (t.val % 8) ∧ k1_off1 (grid1.coords t) 1 = 0 :=
  (by decide +kernel : ∀ t : Fin grid1.N, _)

section Blocks
variable (V : (c : Dev nD) → (b : Ref sig .tc) → Buf (Elt Ideal) ((c : Thread nD τ).loc b))

/-! ## A block's entry is an entry of its array -/

/-- The scale vector through its first window: rows of the row tile. -/
theorem blkDrow_apply (c : Dev nD) (t : Fin cfg1.N) (x : S1024x1.Idx) (k : (⟨2, ![8192, 1]⟩ : Shape).Idx)
    (hk0 : (k 0).val = 1024 * (t.val / 8) + (x 0).val) (hk1 : (k 1).val = 0 + (x 1).val) :
    (iblk1 V c 0 t : Vec Ideal S1024x1 .f32) x = (V c main_v9 : Cert.Spec.Mat 8192 1) k := by
  obtain ⟨e00, e01, e10, e11, e20, e21, e30, e31, e40, e41, e50, e51, e60, e61, eo0, eo1⟩ := idx1_facts t
  unfold iblk1
  rw [View.read_apply]
  show V c main_v9 _ = V c main_v9 _
  congr 1
  funext a
  apply Fin.ext
  match a with
  | ⟨0, _⟩ => show win1_0.index t 0 * 1024 + 1 * (x 0).val = (k 0).val; rw [e00, hk0]; omega
  | ⟨1, _⟩ => show win1_0.index t 1 * 1 + 1 * (x 1).val = (k 1).val; rw [e01, hk1]; omega

/-- The scale vector through its second window: rows of the reduction tile. -/
theorem blkDred_apply (c : Dev nD) (t : Fin cfg1.N) (x : S1024x1.Idx) (k : (⟨2, ![8192, 1]⟩ : Shape).Idx)
    (hk0 : (k 0).val = 1024 * (t.val % 8) + (x 0).val) (hk1 : (k 1).val = 0 + (x 1).val) :
    (iblk1 V c 1 t : Vec Ideal S1024x1 .f32) x = (V c main_v9 : Cert.Spec.Mat 8192 1) k := by
  obtain ⟨e00, e01, e10, e11, e20, e21, e30, e31, e40, e41, e50, e51, e60, e61, eo0, eo1⟩ := idx1_facts t
  unfold iblk1
  rw [View.read_apply]
  show V c main_v9 _ = V c main_v9 _
  congr 1
  funext a
  apply Fin.ext
  match a with
  | ⟨0, _⟩ => show win1_1.index t 0 * 1024 + 1 * (x 0).val = (k 0).val; rw [e10, hk0]; omega
  | ⟨1, _⟩ => show win1_1.index t 1 * 1 + 1 * (x 1).val = (k 1).val; rw [e11, hk1]; omega

/-- The adjacency tile (row tile, reduction tile). -/
theorem blkA_apply (c : Dev nD) (t : Fin cfg1.N) (x : S1024x1024.Idx) (k : (⟨2, ![8192, 8192]⟩ : Shape).Idx)
    (hk0 : (k 0).val = 1024 * (t.val / 8) + (x 0).val) (hk1 : (k 1).val = 1024 * (t.val % 8) + (x 1).val) :
    (iblk1 V c 2 t : Vec Ideal S1024x1024 .bf16) x = (V c main_v0_1 : Cert.Spec.Mat 8192 8192) k := by
  obtain ⟨e00, e01, e10, e11, e20, e21, e30, e31, e40, e41, e50, e51, e60, e61, eo0, eo1⟩ := idx1_facts t
  unfold iblk1
  rw [View.read_apply]
  show V c main_v0_1 _ = V c main_v0_1 _
  congr 1
  funext a
  apply Fin.ext
  match a with
  | ⟨0, _⟩ => show win1_2.index t 0 * 1024 + 1 * (x 0).val = (k 0).val; rw [e20, hk0]; omega
  | ⟨1, _⟩ => show win1_2.index t 1 * 1024 + 1 * (x 1).val = (k 1).val; rw [e21, hk1]; omega

/-- B, resident whole. -/
theorem blkB_apply (c : Dev nD) (t : Fin cfg1.N) (x : S8192x512.Idx) (k : (⟨2, ![8192, 512]⟩ : Shape).Idx)
    (hk0 : (k 0).val = 0 + (x 0).val) (hk1 : (k 1).val = 0 + (x 1).val) :
    (iblk1 V c 3 t : Vec Ideal S8192x512 .f32) x = (V c main_arg0 : Cert.Spec.Mat 8192 512) k := by
  obtain ⟨e00, e01, e10, e11, e20, e21, e30, e31, e40, e41, e50, e51, e60, e61, eo0, eo1⟩ := idx1_facts t
  unfold iblk1
  rw [View.read_apply]
  show V c main_arg0 _ = V c main_arg0 _
  congr 1
  funext a
  apply Fin.ext
  match a with
  | ⟨0, _⟩ => show win1_3.index t 0 * 8192 + 1 * (x 0).val = (k 0).val; rw [e30, hk0]; omega
  | ⟨1, _⟩ => show win1_3.index t 1 * 512 + 1 * (x 1).val = (k 1).val; rw [e31, hk1]; omega

/-- Wᵗ, resident whole. -/
theorem blkW_apply (c : Dev nD) (t : Fin cfg1.N) (x : S512x512.Idx) (k : (⟨2, ![512, 512]⟩ : Shape).Idx)
    (hk0 : (k 0).val = 0 + (x 0).val) (hk1 : (k 1).val = 0 + (x 1).val) :
    (iblk1 V c 4 t : Vec Ideal S512x512 .bf16) x = (V c main_v4 : Cert.Spec.Mat 512 512) k := by
  obtain ⟨e00, e01, e10, e11, e20, e21, e30, e31, e40, e41, e50, e51, e60, e61, eo0, eo1⟩ := idx1_facts t
  unfold iblk1
  rw [View.read_apply]
  show V c main_v4 _ = V c main_v4 _
  congr 1
  funext a
  apply Fin.ext
  match a with
  | ⟨0, _⟩ => show win1_4.index t 0 * 512 + 1 * (x 0).val = (k 0).val; rw [e40, hk0]; omega
  | ⟨1, _⟩ => show win1_4.index t 1 * 512 + 1 * (x 1).val = (k 1).val; rw [e41, hk1]; omega

/-- The bias row, resident whole. -/
theorem blkBias_apply (c : Dev nD) (t : Fin cfg1.N) (x : S1x512.Idx) (k : (⟨2, ![1, 512]⟩ : Shape).Idx)
    (hk0 : (k 0).val = 0 + (x 0).val) (hk1 : (k 1).val = 0 + (x 1).val) :
    (iblk1 V c 5 t : Vec Ideal S1x512 .f32) x = (V c main_v10 : Cert.Spec.Mat 1 512) k := by
  obtain ⟨e00, e01, e10, e11, e20, e21, e30, e31, e40, e41, e50, e51, e60, e61, eo0, eo1⟩ := idx1_facts t
  unfold iblk1
  rw [View.read_apply]
  show V c main_v10 _ = V c main_v10 _
  congr 1
  funext a
  apply Fin.ext
  match a with
  | ⟨0, _⟩ => show win1_5.index t 0 * 1 + 1 * (x 0).val = (k 0).val; rw [e50, hk0]; omega
  | ⟨1, _⟩ => show win1_5.index t 1 * 512 + 1 * (x 1).val = (k 1).val; rw [e51, hk1]; omega

/-- The rows of B the body loads at point t: rows 1024·k … of the array. -/
theorem browsB_apply (c : Dev nD) (t : Fin cfg1.N) (x : S1024x512.Idx) (k : (⟨2, ![8192, 512]⟩ : Shape).Idx)
    (hk0 : (k 0).val = 1024 * (t.val % 8) + (x 0).val) (hk1 : (k 1).val = (x 1).val) :
    brows (grid1.coords t) (iblk1 V c 3 t) x = (V c main_arg0 : Cert.Spec.Mat 8192 512) k := by
  obtain ⟨e00, e01, e10, e11, e20, e21, e30, e31, e40, e41, e50, e51, e60, e61, eo0, eo1⟩ := idx1_facts t
  show (iblk1 V c 3 t : Vec Ideal S8192x512 .f32) ((Rect.unit (s := S8192x512) (k1_off1 (grid1.coords t)) S1024x512.size (k1_off1_inb (grid1.coords t))).emb x) = _
  refine blkB_apply V c t _ k ?_ ?_
  · rw [Rect.emb_apply]
    show (k 0).val = 0 + (k1_off1 (grid1.coords t) 0 + 1 * (x 0).val)
    rw [eo0, hk0]; omega
  · rw [Rect.emb_apply]
    show (k 1).val = 0 + (k1_off1 (grid1.coords t) 1 + 1 * (x 1).val)
    rw [eo1, hk1]; omega

end Blocks

/-! ## After a point -/

section Points
variable {F : FTy → Type} [FloatOps F]
variable (V : (c : Dev nD) → (b : Ref sig .tc) → Buf (Elt F) ((c : Thread nD τ).loc b))

/-- Where k = 0 the accumulator ends at the zero block plus this point's tile product. -/
theorem acc_A (c : Dev nD) (t : Fin cfg1.N) (h0 : t.val % 8 = 0) (h1 : ¬t.val % 8 = 7) :
    (outsAt1 V c t.val t.isLt).2
      = k1_pay2 (brows (grid1.coords t) (iblk1 V c 3 t)) (iblk1 V c 1 t) (k1_pay1 (F := F)) (iblk1 V c 2 t) := by
  rw [outsAt1_A V c t h0 h1]
  dsimp only
  exact sacc_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)

/-- Where k ≠ 0 the accumulator ends at what the point before left plus this point's tile product. -/
theorem acc_S (c : Dev nD) (t : Fin cfg1.N) (h0 : ¬t.val % 8 = 0) :
    (outsAt1 V c t.val t.isLt).2
      = k1_pay2 (brows (grid1.coords t) (iblk1 V c 3 t)) (iblk1 V c 1 t) (outsAt1 V c (t.val - 1) (Nat.lt_of_le_of_lt (Nat.sub_le _ _) t.isLt)).2 (iblk1 V c 2 t) := by
  by_cases h1 : t.val % 8 = 7
  · rw [outsAt1_C V c t h0 h1]
    dsimp only
    exact sacc_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2
  · rw [outsAt1_B V c t h0 h1]
    dsimp only
    exact sacc_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

/-- Where k = 7 the output block is the closing payload of the finished accumulator. -/
theorem out_at7 (c : Dev nD) (t : Fin cfg1.N) (h0 : ¬t.val % 8 = 0) (h1 : t.val % 8 = 7) :
    (outsAt1 V c t.val t.isLt).1
      = k1_pay3 (outsAt1 V c t.val t.isLt).2 (iblk1 V c 0 t) (iblk1 V c 4 t) (iblk1 V c 5 t) := by
  rw [acc_S V c t h0, outsAt1_C V c t h0 h1]
  dsimp only
  exact out_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

end Points

end Cert.KernelIdeal.Hand

end
-- ==== Proof.KI.R1ValuePay.lean ====
/-
  The arithmetic of the first graph layer's body, read entry by entry on the extended reals.

  One reduction step adds to the accumulator the product of the adjacency tile with the rows of B scaled by d:
  entry (p, q) gains  Σⱼ A_tile(p, j) · (B_rows(j, q) · d_k(j)).  The closing step scales row p of the accumulator by
  d(p), multiplies by Wᵗ, adds the bias and clamps at zero:  max(Σₙ (acc(p, n) · d(p)) · Wt(n, q) + b(q), 0).
  Changes of float format are the identity on the extended reals.
-/
import proofs.«123374_j59193239273550_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal.Gen
open Idealize.ShloMosaic Idealize.ShloMosaic.ValueIdx

/-! ## The two broadcasts -/

/-- A 1024 × 1 column spread over 512 columns reads, at (p, q), the column's entry p. -/
theorem bcastCol_apply {α : Type} (x : S1024x1.Idx → α) (p : Fin 1024) (q : Fin 512) :
    broadcastTo S1024x512 x broadcasts_S1024x1_S1024x512 (ix2 p q) = x (ix2 p (0 : Fin 1)) :=
  broadcastTo_apply x broadcasts_S1024x1_S1024x512 (ix2 p q) (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A 1 × 512 row spread over 1024 rows reads, at (p, q), the row's entry q. -/
theorem bcastRow_apply {α : Type} (x : S1x512.Idx → α) (p : Fin 1024) (q : Fin 512) :
    broadcastTo S1024x512 x broadcasts_S1x512_S1024x512 (ix2 p q) = x (ix2 (0 : Fin 1) q) :=
  broadcastTo_apply x broadcasts_S1x512_S1024x512 (ix2 p q) (ix2 (0 : Fin 1) q) (fun a => match a with
    | ⟨0, _⟩ => by show 0 = if (1 : Nat) = 1 then 0 else p.val; rw [if_pos rfl]
    | ⟨1, _⟩ => by show q.val = if (512 : Nat) = 1 then 0 else q.val; rw [if_neg (by decide)])

/-! ## The two products -/

theorem mmA_lhs0 (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem mmA_lhs1 (i : S1024x512.Idx) (q : dot_S1024x1024_S1024x512_S1024x512_1_0_0_1_n_n.contr.Idx) : (dot_S1024x1024_S1024x512_S1024x512_1_0_0_1_n_n.lhsIdx i q 1).val = (q ⟨0, by decide⟩).val :=
  dot_S1024x1024_S1024x512_S1024x512_1_0_0_1_n_n.lhsIdx_val_of_single rfl i q
theorem mmA_rhs0 (i : S1024x512.Idx) (q : dot_S1024x1024_S1024x512_S1024x512_1_0_0_1_n_n.contr.Idx) : (dot_S1024x1024_S1024x512_S1024x512_1_0_0_1_n_n.rhsIdx i q 0).val = (q ⟨0, by decide⟩).val :=
  dot_S1024x1024_S1024x512_S1024x512_1_0_0_1_n_n.rhsIdx_val_of_single rfl i q
theorem mmA_rhs1 (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product into the zero block, read at (p, q): the sum over the 1024 contracted positions of the row of the left
    factor times the column of the right. -/
theorem mmA_apply (l : FVec Ideal S1024x1024 .bf16) (r : FVec Ideal S1024x512 .bf16) (p : Fin 1024) (q : Fin 512) :
    FloatOps.matmul dot_S1024x1024_S1024x512_S1024x512_1_0_0_1_n_n none l r (constant (F := Ideal) S1024x512 .f32 0x00000000#32) (ix2 p q)
      = ∑ j : Fin 1024, l (ix2 p j) * r (ix2 j q) := by
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun a => Fin.ext (by
    match a with
    | ⟨0, _⟩ => exact mmA_lhs0 _ _
    | ⟨1, _⟩ => exact (mmA_lhs1 _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun a => Fin.ext (by
    match a with
    | ⟨0, _⟩ => exact (mmA_rhs0 _ _).trans hk
    | ⟨1, _⟩ => exact mmA_rhs1 _ _)
  rw [el, er]

theorem mmW_lhs0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem mmW_lhs1 (i : S1024x512.Idx) (q : dot_S1024x512_S512x512_S1024x512_1_0_0_1_n_n.contr.Idx) : (dot_S1024x512_S512x512_S1024x512_1_0_0_1_n_n.lhsIdx i q 1).val = (q ⟨0, by decide⟩).val :=
  dot_S1024x512_S512x512_S1024x512_1_0_0_1_n_n.lhsIdx_val_of_single rfl i q
theorem mmW_rhs0 (i : S1024x512.Idx) (q : dot_S1024x512_S512x512_S1024x512_1_0_0_1_n_n.contr.Idx) : (dot_S1024x512_S512x512_S1024x512_1_0_0_1_n_n.rhsIdx i q 0).val = (q ⟨0, by decide⟩).val :=
  dot_S1024x512_S512x512_S1024x512_1_0_0_1_n_n.rhsIdx_val_of_single rfl i q
theorem mmW_rhs1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product into the zero block, read at (p, q): the sum over the 512 contracted positions of the row of the left
    factor times the column of the right. -/
theorem mmW_apply (l : FVec Ideal S1024x512 .bf16) (r : FVec Ideal S512x512 .bf16) (p : Fin 1024) (q : Fin 512) :
    FloatOps.matmul dot_S1024x512_S512x512_S1024x512_1_0_0_1_n_n none l r (constant (F := Ideal) S1024x512 .f32 0x00000000#32) (ix2 p q)
      = ∑ j : Fin 512, l (ix2 p j) * r (ix2 j q) := by
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact mmW_lhs0 _ _
    | ⟨1, _⟩ => exact (mmW_lhs1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (mmW_rhs0 _ _).trans hk
    | ⟨1, _⟩ => exact mmW_rhs1 _ _)
  rw [el, er]

/-! ## The payloads -/

/-- One reduction step at entry (p, q). -/
theorem pay2_apply (v6 : Vec Ideal S1024x512 .f32) (v7 : Vec Ideal S1024x1 .f32) (v12 : Vec Ideal S1024x512 .f32)
    (v13 : Vec Ideal S1024x1024 .bf16) (p : Fin 1024) (q : Fin 512) :
    k1_pay2 (F := Ideal) v6 v7 v12 v13 (ix2 p q)
      = v12 (ix2 p q) + ∑ j : Fin 1024, v13 (ix2 p j) * (v6 (ix2 j q) * v7 (ix2 j (0 : Fin 1))) := by
  unfold k1_pay2
  simp only [shapeCast_self]
  refine congrArg (v12 (ix2 p q) + ·) ?_
  refine (mmA_apply _ _ p q).trans ?_
  refine Finset.sum_congr rfl fun j _ => ?_
  refine congrArg (v13 (ix2 p j) * ·) ?_
  show v6 (ix2 j q) * broadcastTo S1024x512 v7 broadcasts_S1024x1_S1024x512 (ix2 j q) = _
  rw [bcastCol_apply]

/-- The closing step at entry (p, q). -/
theorem pay3_apply (v23 : Vec Ideal S1024x512 .f32) (v24 : Vec Ideal S1024x1 .f32) (v29 : Vec Ideal S512x512 .bf16)
    (v32 : Vec Ideal S1x512 .f32) (p : Fin 1024) (q : Fin 512) :
    k1_pay3 (F := Ideal) v23 v24 v29 v32 (ix2 p q)
      = max ((∑ n : Fin 512, (v23 (ix2 p n) * v24 (ix2 p (0 : Fin 1))) * v29 (ix2 n q)) + v32 (ix2 (0 : Fin 1) q)) 0 := by
  unfold k1_pay3
  simp only [shapeCast_self]
  refine congrArg₂ max ?_ Ideal.ofBits_zero_f32
  refine congrArg₂ (· + ·) ?_ (bcastRow_apply v32 p q)
  refine (mmW_apply _ _ p q).trans ?_
  refine Finset.sum_congr rfl fun n _ => ?_
  refine congrArg (· * v29 (ix2 n q)) ?_
  show v23 (ix2 p n) * broadcastTo S1024x512 v24 broadcasts_S1024x1_S1024x512 (ix2 p n) = _
  rw [bcastCol_apply]

/-- The zero block the reset stores is zero at every entry. -/
theorem pay1_apply (j : S1024x512.Idx) : k1_pay1 (F := Ideal) j = 0 := by
  unfold k1_pay1
  simp only [shapeCast_self]
  exact Ideal.ofBits_zero_f32

end Cert.KernelIdeal.Hand

end
-- ==== Proof.LibTileSum.lean ====
/-
  Regrouping a sum over a range cut into equal tiles, and the value of a running
  accumulator that adds the tiles one after another.

  Everything here holds in any additive commutative monoid; the extended reals are one,
  so no finiteness hypothesis is needed.
-/
import Mathlib.Algebra.BigOperators.Fin
import Idealize.ShloMosaic.PureOps.Ideal

namespace Cert.TileSum

open Finset

variable {M : Type*} [AddCommMonoid M]

/-- The position `t * j + r` of row `r` of tile `j` lies below `n * t`. -/
theorem tile_pos_lt {n t : ℕ} (j : Fin n) (r : Fin t) : t * j.val + r.val < n * t := by
  calc t * j.val + r.val < t * j.val + t := Nat.add_lt_add_left r.isLt _
    _ = t * (j.val + 1) := by rw [Nat.mul_succ]
    _ ≤ t * n := Nat.mul_le_mul_left _ j.isLt
    _ = n * t := Nat.mul_comm _ _

/-- A sum over `n * t` positions is the sum, over the `n` tiles, of the sums over the `t` rows of
each tile, row `r` of tile `j` being position `t * j + r`. -/
theorem sum_tiles_mul (n t : ℕ) (f : Fin (n * t) → M) :
    ∑ j : Fin n, ∑ r : Fin t, f ⟨t * j.val + r.val, tile_pos_lt j r⟩ = ∑ s : Fin (n * t), f s := by
  rw [← Fintype.sum_prod_type']
  refine Fintype.sum_equiv finProdFinEquiv _ _ ?_
  rintro ⟨j, r⟩
  refine congrArg f (Fin.ext ?_)
  simp only [finProdFinEquiv_apply_val]
  exact Nat.add_comm _ _

/-- The case of 8 tiles of 512 rows: a sum over 4096 positions, tile by tile. -/
theorem sum_tiles (f : Fin 4096 → M) :
    ∑ j : Fin 8, ∑ r : Fin 512, f ⟨512 * j.val + r.val, by omega⟩ = ∑ s : Fin 4096, f s :=
  sum_tiles_mul 8 512 f

/-- The same with a starting value in front, as an accumulator that starts from `z` sees it. -/
theorem add_sum_tiles (z : M) (f : Fin 4096 → M) :
    z + ∑ j : Fin 8, ∑ r : Fin 512, f ⟨512 * j.val + r.val, by omega⟩ = z + ∑ s : Fin 4096, f s := by
  rw [sum_tiles]

/-- The running accumulator over 8 tile sums `g`: it starts as `z + g 0` and step `n + 1` adds
`g (n + 1)` on the right of what step `n` left. -/
def accUpTo (z : M) (g : Fin 8 → M) : (n : ℕ) → n < 8 → M
  | 0, _ => z + g 0
  | n + 1, h => accUpTo z g n (by omega) + g ⟨n + 1, h⟩

/-- Eight terms added one after another to `z`, left to right, are `z` plus their sum. -/
theorem add_eight (z : M) (g : Fin 8 → M) :
    z + g 0 + g 1 + g 2 + g 3 + g 4 + g 5 + g 6 + g 7 = z + ∑ j : Fin 8, g j := by
  rw [Fin.sum_univ_eight]
  simp only [add_assoc]

/-- After the last step the accumulator holds `z` plus the sum of all 8 tile sums. -/
theorem accUpTo_last (z : M) (g : Fin 8 → M) :
    accUpTo z g 7 (by omega) = z + ∑ j : Fin 8, g j := by
  rw [← add_eight]
  rfl

/-- The accumulator over tile sums of 512 rows each ends as `z` plus the sum over all 4096
positions. -/
theorem accUpTo_tiles (z : M) (f : Fin 4096 → M) :
    accUpTo z (fun j : Fin 8 => ∑ r : Fin 512, f ⟨512 * j.val + r.val, by omega⟩) 7 (by omega)
      = z + ∑ s : Fin 4096, f s := by
  rw [accUpTo_last, sum_tiles]

end Cert.TileSum
-- ==== Proof.KI.R1ValueAlg.lean ====
/-
  The first graph layer, entry by entry: one reduction step adds one tile of the inner sum, eight steps add the whole
  sum, and the closing step turns the finished sums of a row into that row of the layer.

  For array row i and feature n the inner sum is  Σⱼ A(i, j) · (B(j, n) · d(j))  over the 8192 columns j; cut into
  eight tiles of 1024 columns it is the sum of eight tile sums, which is what an accumulator that starts from zero and
  adds the tiles one after another ends holding.
-/
import proofs.«123374_j59193239273550_2_alg».proof.Proof.KI.R1ValuePay
import proofs.«123374_j59193239273550_2_alg».proof.Proof.LibTileSum
import proofs.«123374_j59193239273550_2_alg».proof.Proof.Spec

set_option maxRecDepth 16384

noncomputable section

open scoped BigOperators

namespace Cert.KernelIdeal.Hand

open Cert.KernelIdeal.Gen
open Idealize.ShloMosaic Idealize.ShloMosaic.ValueIdx
open Cert.Spec (Mat)

/-- Row p of row tile a, as a row of the whole array. -/
abbrev rowIx (a : Fin 8) (p : Fin 1024) : Fin 8192 := ⟨1024 * a.val + p.val, by have := a.isLt; have := p.isLt; omega⟩
/-- Column r of reduction tile k, as a column of the whole array. -/
abbrev colIx (k : Fin 8) (r : Fin 1024) : Fin 8192 := ⟨1024 * k.val + r.val, by have := k.isLt; have := r.isLt; omega⟩

/-- The term of the inner sum at column j: A(i, j) · (B(j, n) · d(j)). -/
def term (d : Mat 8192 1) (A : Mat 8192 8192) (B : Mat 8192 512) (i : Fin 8192) (n : Fin 512) (j : Fin 8192) : EReal :=
  A (ix2 i j) * (B (ix2 j n) * d (ix2 j (0 : Fin 1)))

/-- The inner sum over the 1024 columns of reduction tile k. -/
def tileSum (d : Mat 8192 1) (A : Mat 8192 8192) (B : Mat 8192 512) (i : Fin 8192) (n : Fin 512) (k : Fin 8) : EReal :=
  ∑ r : Fin 1024, term d A B i n (colIx k r)

/-- One reduction step: when the loaded blocks are the tile (row tile of i, k) of A and rows of tile k of B and of d,
    entry (p, n) of the accumulator gains the tile sum of row i. -/
theorem step_apply (d : Mat 8192 1) (A : Mat 8192 8192) (B : Mat 8192 512) (i : Fin 8192) (k : Fin 8)
    (bB : Vec Ideal S1024x512 .f32) (bD : Vec Ideal S1024x1 .f32) (acc : Vec Ideal S1024x512 .f32)
    (bA : Vec Ideal S1024x1024 .bf16) (p : Fin 1024) (n : Fin 512)
    (hA : ∀ r : Fin 1024, bA (ix2 p r) = A (ix2 i (colIx k r)))
    (hB : ∀ r : Fin 1024, bB (ix2 r n) = B (ix2 (colIx k r) n))
    (hD : ∀ r : Fin 1024, bD (ix2 r (0 : Fin 1)) = d (ix2 (colIx k r) (0 : Fin 1))) :
    k1_pay2 (F := Ideal) bB bD acc bA (ix2 p n) = acc (ix2 p n) + tileSum d A B i n k := by
  rw [pay2_apply]
  refine congrArg (acc (ix2 p n) + ·) ?_
  unfold tileSum term
  exact Finset.sum_congr rfl fun r _ => by rw [hA r, hB r, hD r]

/-- Eight tiles added one after another to zero are the whole inner sum. -/
theorem tiles_total (d : Mat 8192 1) (A : Mat 8192 8192) (B : Mat 8192 512) (i : Fin 8192) (n : Fin 512) :
    TileSum.accUpTo 0 (tileSum d A B i n) 7 (by omega) = ∑ j : Fin 8192, term d A B i n j := by
  rw [TileSum.accUpTo_last, zero_add]
  unfold tileSum
  exact TileSum.sum_tiles_mul 8 1024 (term d A B i n)

/-- The closing step: when the accumulator's row p holds the finished inner sums S of row i, and the other blocks are
    the row's scale, Wᵗ and the bias, entry (p, q) of the output block is the layer's. -/
theorem close_apply (d : Mat 8192 1) (Wt : Mat 512 512) (b : Mat 1 512) (i : Fin 8192) (S : Fin 512 → EReal)
    (acc : Vec Ideal S1024x512 .f32) (bD : Vec Ideal S1024x1 .f32) (bW : Vec Ideal S512x512 .bf16) (bb : Vec Ideal S1x512 .f32)
    (p : Fin 1024) (q : Fin 512)
    (hacc : ∀ n : Fin 512, acc (ix2 p n) = S n) (hD : bD (ix2 p (0 : Fin 1)) = d (ix2 i (0 : Fin 1)))
    (hW : ∀ n : Fin 512, bW (ix2 n q) = Wt (ix2 n q)) (hb : bb (ix2 (0 : Fin 1) q) = b (ix2 (0 : Fin 1) q)) :
    k1_pay3 (F := Ideal) acc bD bW bb (ix2 p q)
      = max ((∑ n : Fin 512, (S n * d (ix2 i (0 : Fin 1))) * Wt (ix2 n q)) + b (ix2 (0 : Fin 1) q)) 0 := by
  rw [pay3_apply, hD, hb]
  refine congrArg (fun z => max (z + b (ix2 (0 : Fin 1) q)) 0) ?_
  exact Finset.sum_congr rfl fun n _ => by rw [hacc n, hW n]

/-- The layer at entry (i, q), with its inner sum named. -/
theorem layer_apply (d : Mat 8192 1) (A : Mat 8192 8192) (B : Mat 8192 512) (Wt : Mat 512 512) (b : Mat 1 512)
    (i : Fin 8192) (q : Fin 512) :
    Cert.Spec.layer d A B Wt b (ix2 i q)
      = max ((∑ n : Fin 512, ((∑ j : Fin 8192, term d A B i n j) * d (ix2 i (0 : Fin 1))) * Wt (ix2 n q)) + b (ix2 (0 : Fin 1) q)) 0 := rfl

end Cert.KernelIdeal.Hand

end
-- ==== Proof.KI.R1Value.lean ====
/-
  Region 1, the first graph layer, as a value: after the region the output array holds

      max(Σₙ ((Σⱼ A(i, j) · (B(j, n) · d(j))) · d(i)) · Wt(n, o) + b(o), 0)

  at every entry (i, o). For a block of 1024 rows the accumulator gathers, over the eight reduction tiles in turn, the
  inner sums of those rows: after tile k it holds zero plus the first k + 1 tile sums (by induction on k). At the eighth
  tile the finished sums are scaled, multiplied by Wᵗ, shifted and clamped, and that block alone is written back; the
  eight such blocks cover the array, row i being written at point 8 · (i / 1024) + 7.
-/
import proofs.«123374_j59193239273550_2_alg».proof.Proof.KI.R1ValueBlocks
import proofs.«123374_j59193239273550_2_alg».proof.Proof.KI.R1ValueAlg
import Idealize.ShloMosaic.Lib.Pipeline.Value
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Spec (Mat)

variable (V : (c : Dev nD) → (b : Ref sig .tc) → Buf (Elt Ideal) ((c : Thread nD τ).loc b))

/-- The same point under two names holds the same contents. -/
theorem outsAt1_congr (c : Dev nD) {n n' : ℕ} (e : n = n') (h : n < cfg1.N) (h' : n' < cfg1.N) :
    outsAt1 V c n h = outsAt1 V c n' h' := by subst e; rfl

/-- The row tile of a point is one of eight. -/
theorem rowTile_lt (t : Fin cfg1.N) : t.val / 8 < 8 := by
  have h : t.val < 64 := lt_of_lt_of_eq t.isLt (show cfg1.N = 64 from N_1)
  omega

/-- One reduction step at point t = 8·a + k: entry (p, n) of the accumulator gains the sum over reduction tile k of the
    inner sum of array row 1024·a + p. -/
theorem point_step (c : Dev nD) (t : Fin cfg1.N) (a k : Fin 8) (ht : t.val = 8 * a.val + k.val)
    (acc : Vec Ideal S1024x512 .f32) (p : Fin 1024) (n : Fin 512) :
    k1_pay2 (F := Ideal) (brows (grid1.coords t) (iblk1 V c 3 t)) (iblk1 V c 1 t) acc (iblk1 V c 2 t) (ix2 p n)
      = acc (ix2 p n) + tileSum (V c main_v9) (V c main_v0_1) (V c main_arg0) (rowIx a p) n k := by
  have ha := a.isLt; have hk := k.isLt
  refine step_apply (V c main_v9) (V c main_v0_1) (V c main_arg0) (rowIx a p) k (brows (grid1.coords t) (iblk1 V c 3 t)) (iblk1 V c 1 t) acc (iblk1 V c 2 t) p n ?_ ?_ ?_
  · intro r
    exact blkA_apply V c t (ix2 p r) (ix2 (rowIx a p) (colIx k r))
      (by show 1024 * a.val + p.val = 1024 * (t.val / 8) + p.val; omega)
      (by show 1024 * k.val + r.val = 1024 * (t.val % 8) + r.val; omega)
  · intro r
    exact browsB_apply V c t (ix2 r n) (ix2 (colIx k r) n)
      (by show 1024 * k.val + r.val = 1024 * (t.val % 8) + r.val; omega) rfl
  · intro r
    exact blkDred_apply V c t (ix2 r (0 : Fin 1)) (ix2 (colIx k r) (0 : Fin 1))
      (by show 1024 * k.val + r.val = 1024 * (t.val % 8) + r.val; omega) (by show (0 : ℕ) = 0 + 0; rfl)

/-- THE ACCUMULATOR after point 8·a + k: zero plus the first k + 1 tile sums of each of its rows. -/
theorem acc_eq (c : Dev nD) (a : Fin 8) : ∀ (k : ℕ) (hk : k < 8) (h : 8 * a.val + k < cfg1.N) (p : Fin 1024) (n : Fin 512),
    (outsAt1 V c (8 * a.val + k) h).2 (ix2 p n)
      = TileSum.accUpTo 0 (tileSum (V c main_v9) (V c main_v0_1) (V c main_arg0) (rowIx a p) n) k hk
  | 0, hk, h, p, n => by
    rw [acc_A V c ⟨8 * a.val + 0, h⟩ (by show (8 * a.val + 0) % 8 = 0; omega) (by show ¬(8 * a.val + 0) % 8 = 7; omega)]
    rw [point_step V c ⟨8 * a.val + 0, h⟩ a ⟨0, hk⟩ rfl, pay1_apply]
    rfl
  | k + 1, hk, h, p, n => by
    rw [acc_S V c ⟨8 * a.val + (k + 1), h⟩ (by show ¬(8 * a.val + (k + 1)) % 8 = 0; omega)]
    rw [point_step V c ⟨8 * a.val + (k + 1), h⟩ a ⟨k + 1, hk⟩ rfl]
    show (outsAt1 V c (8 * a.val + k) _).2 (ix2 p n) + _ = _
    rw [acc_eq c a k (by omega) _ p n]
    rfl

/-- THE OUTPUT BLOCK at a point with k = 7: entry (p, q) is the layer at row 1024 · (row tile) + p, column q. -/
theorem out_eq (c : Dev nD) (t : Fin cfg1.N) (h7 : t.val % 8 = 7) (p : Fin 1024) (q : Fin 512) :
    (outsAt1 V c t.val t.isLt).1 (ix2 p q) = Cert.Spec.layer (V c main_v9) (V c main_v0_1) (V c main_arg0) (V c main_v4) (V c main_v10) (ix2 (rowIx ⟨t.val / 8, rowTile_lt t⟩ p) q) := by
  have e : t.val = 8 * (t.val / 8) + 7 := by omega
  rw [out_at7 V c t (by omega) h7, layer_apply]
  refine close_apply (V c main_v9) (V c main_v4) (V c main_v10) (rowIx ⟨t.val / 8, rowTile_lt t⟩ p)
    (fun n => ∑ j : Fin 8192, term (V c main_v9) (V c main_v0_1) (V c main_arg0) (rowIx ⟨t.val / 8, rowTile_lt t⟩ p) n j)
    (outsAt1 V c t.val t.isLt).2 (iblk1 V c 0 t) (iblk1 V c 4 t) (iblk1 V c 5 t) p q ?_ ?_ ?_ ?_
  · intro n
    rw [outsAt1_congr V c e t.isLt (lt_of_eq_of_lt e.symm t.isLt),
      acc_eq V c ⟨t.val / 8, rowTile_lt t⟩ 7 (by omega) (lt_of_eq_of_lt e.symm t.isLt) p n, tiles_total]
  · exact blkDrow_apply V c t (ix2 p (0 : Fin 1)) (ix2 (rowIx ⟨t.val / 8, rowTile_lt t⟩ p) (0 : Fin 1))
      (by show 1024 * (t.val / 8) + p.val = 1024 * (t.val / 8) + p.val; rfl) (by show (0 : ℕ) = 0 + 0; rfl)
  · intro n
    exact blkW_apply V c t (ix2 n q) (ix2 n q) (by show n.val = 0 + n.val; omega) (by show q.val = 0 + q.val; omega)
  · exact blkBias_apply V c t (ix2 (0 : Fin 1) q) (ix2 (0 : Fin 1) q) (by show (0 : ℕ) = 0 + 0; rfl) (by show q.val = 0 + q.val; omega)

/-- The layer's output as contents of the output array. -/
abbrev layerOut (c : Dev nD) : Buf (Elt Ideal) ((c : Thread nD τ).loc main_v11) := Cert.Spec.layer (V c main_v9) (V c main_v0_1) (V c main_arg0) (V c main_v4) (V c main_v10)

/-- WHAT A POINT WRITES BACK (only points with k = 7 do): its block of the layer's output. -/
theorem flushed1_eq (c : Dev nD) (t : Fin cfg1.N) (hf : (cfg1.win 6).flush t = true) :
    (dat1 (F := Ideal) V c).flushed 6 t = ((cfg1.win 6).blk t).view.read (Elt Ideal) (layerOut V c) := by
  have h7 : t.val % 8 = 7 := (flush1_6 t).mp hf
  obtain ⟨e00, e01, e10, e11, e20, e21, e30, e31, e40, e41, e50, e51, e60, e61, eo0, eo1⟩ := idx1_facts t
  show (cfg1.win 6).cut (grid1.coords t) ((dat1 V c).after 6 t) = _
  rw [after1_6]
  funext y
  obtain ⟨p, q, rfl⟩ : ∃ (p : Fin 1024) (q : Fin 512), y = ix2 p q := ⟨y 0, y 1, eq_ix2 y⟩
  rw [View.read_apply]
  show (outsAt1 V c t.val t.isLt).1 (ix2 p q) = Cert.Spec.layer (V c main_v9) (V c main_v0_1) (V c main_arg0) (V c main_v4) (V c main_v10) (((cfg1.win 6).blk t).view.emb (ix2 p q))
  rw [out_eq V c t h7 p q]
  congr 1
  funext b; apply Fin.ext
  match b with
  | ⟨0, _⟩ => show 1024 * (t.val / 8) + p.val = win1_6.index t 0 * 1024 + 1 * p.val; rw [e60]; omega
  | ⟨1, _⟩ => show q.val = win1_6.index t 1 * 512 + 1 * q.val; rw [e61]; omega

/-- An entry of the output array is in point t's block iff each coordinate is in the block's range on its axis. -/
theorem mem_blk6 (t : Fin cfg1.N) (i : S8192x512.Idx) :
    i ∈ ((cfg1.win 6).blk t).view.set ↔ ∀ a : Fin 2, win1_6.index t a * S1024x512.size a ≤ (i a).val ∧ (i a).val < win1_6.index t a * S1024x512.size a + S1024x512.size a := by
  show i ∈ ((View.whole main_v11).slice (win1_6.rect t)).set ↔ _
  rw [View.set_slice_whole, Rect.mem_set_unit]
  exact Iff.rfl

/-- THE LAYER: after the region the output array holds the first graph layer of the arrays the region found. -/
theorem final1 (c : Dev nD) : (dat1 (F := Ideal) V c).arrAt 6 cfg1.N = Cert.Spec.layer (V c main_v9) (V c main_v0_1) (V c main_arg0) (V c main_v4) (V c main_v10) :=
  (dat1 V c).arrAt_eq_of_cover 6 (layerOut V c) (flushed1_eq V c) fun i => by
    have hN : cfg1.N = 64 := N_1
    have hi0 : (i 0 : ℕ) < 8192 := (i 0).isLt
    have hi1 : (i 1 : ℕ) < 512 := (i 1).isLt
    have hT : 8 * ((i 0 : ℕ) / 1024) + 7 < cfg1.N := by omega
    obtain ⟨e00, e01, e10, e11, e20, e21, e30, e31, e40, e41, e50, e51, e60, e61, eo0, eo1⟩ := idx1_facts ⟨8 * ((i 0 : ℕ) / 1024) + 7, hT⟩
    have f0 : win1_6.index ⟨8 * ((i 0 : ℕ) / 1024) + 7, hT⟩ 0 = (8 * ((i 0 : ℕ) / 1024) + 7) / 8 := e60
    refine ⟨⟨8 * ((i 0 : ℕ) / 1024) + 7, hT⟩, (flush1_6 _).mpr (by show (8 * ((i 0 : ℕ) / 1024) + 7) % 8 = 7; omega), ?_⟩
    rw [mem_blk6]
    intro b
    match b with
    | ⟨0, _⟩ =>
      show win1_6.index ⟨8 * ((i 0 : ℕ) / 1024) + 7, hT⟩ 0 * 1024 ≤ (i 0 : ℕ) ∧ (i 0 : ℕ) < win1_6.index ⟨8 * ((i 0 : ℕ) / 1024) + 7, hT⟩ 0 * 1024 + 1024
      rw [f0]; omega
    | ⟨1, _⟩ =>
      show win1_6.index ⟨8 * ((i 0 : ℕ) / 1024) + 7, hT⟩ 1 * 512 ≤ (i 1 : ℕ) ∧ (i 1 : ℕ) < win1_6.index ⟨8 * ((i 0 : ℕ) / 1024) + 7, hT⟩ 1 * 512 + 512
      rw [e61]; omega

end Cert.KernelIdeal.Hand

end
-- ==== Proof.KI.R2Pieces.lean ====
/-
  Region 2, the second graph layer with the classifier head: what each control case of the body leaves, as the body's
  arithmetic applied to the blocks it loads.

  At every point the accumulator ends at  acc + A_tile · (H_rows ∘ d_k)  (where the reduction coordinate is 0, with acc
  the zero block the reset stores; elsewhere with acc what the point before left). Where the reduction coordinate is 7
  the first output block is the finished accumulator scaled row by row by d, multiplied by W₂ᵗ, shifted by the bias and
  clamped at zero, and the second is that block multiplied by Fᵗ and shifted by f. H is resident as a whole: the body
  loads the 1024 rows of reduction tile k out of it.
-/
import proofs.«123374_j59193239273550_2_alg».proof.Proof.KI.R2
import Idealize.ShloMosaic.Lib.Pipeline.Value
import Idealize.ShloMosaic.Lib.ValueIdx

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 rectangle, as a constant function. -/
theorem hz_R2 : (![0, 0] : Fin 2 → Nat) = fun _ => 0 := funext fun a => by fin_cases a <;> rfl

/-- The 1024 rows of H that belong to reduction tile k: rows 1024·k … 1024·k + 1023 of the resident array. -/
abbrev brows2 (i : grid2.Coords) (x3 : Vec F S8192x512 .f32) : Vec F S1024x512 .f32 :=
  View.ld x3 (Rect.unit (s := S8192x512) (k2_off1 i) S1024x512.size (k2_off1_inb i))

/-- Where 0 < k < 7 the accumulator holding `xs0` is left at `xs0 + A_tile · (H_rows ∘ d_k)`. -/
theorem sacc2_B (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) :
    sout2_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k2_pay2 (brows2 i x3) x1 xs0 x2 := by
  unfold sout2_B_0
  rw [View.read_writes_eq_canon _ _ _ (scover2_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun2_B
  dsimp only
  rw [View.canon_unit_zero hz_R2]
  simp only [View.readAt_eq_ld, harg2.read_unread, harg3.read_unread, harg4.read_unread, harg5.read_unread, harg6.read_unread, harg7.read_unread, harg8.read_unread, harg9.read_unread, harg12.read_unread,
    View.ld_unit_zero (S := S1024x1) hz_R2, View.ld_unit_zero (S := S1024x1024) hz_R2, View.ld_unit_zero (S := S512x512) hz_R2, View.ld_unit_zero (S := S1x512) hz_R2, View.ld_unit_zero (S := S512x32) hz_R2, View.ld_unit_zero (S := S1x32) hz_R2, View.ld_unit_zero (S := S1024x512) hz_R2, View.ld_unit_zero (S := S1024x32) hz_R2] <;> rfl

/-- Where k = 7 the accumulator holding `xs0` is left at `xs0 + A_tile · (H_rows ∘ d_k)` as well. -/
theorem sacc2_C (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) :
    sout2_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k2_pay2 (brows2 i x3) x1 xs0 x2 := by
  unfold sout2_C_0
  rw [View.read_writes_eq_canon _ _ _ (scover2_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun2_C
  dsimp only
  sl_unfold_words
  rw [View.canon_unit_zero hz_R2]
  simp only [View.readAt_eq_ld, harg2.read_unread, harg3.read_unread, harg4.read_unread, harg5.read_unread, harg6.read_unread, harg7.read_unread, harg8.read_unread, harg9.read_unread, harg12.read_unread,
    View.ld_unit_zero (S := S1024x1) hz_R2, View.ld_unit_zero (S := S1024x1024) hz_R2, View.ld_unit_zero (S := S512x512) hz_R2, View.ld_unit_zero (S := S1x512) hz_R2, View.ld_unit_zero (S := S512x32) hz_R2, View.ld_unit_zero (S := S1x32) hz_R2, View.ld_unit_zero (S := S1024x512) hz_R2, View.ld_unit_zero (S := S1024x32) hz_R2] <;> rfl

/-- Where k = 0 the accumulator is reset to the zero block first, so it is left at `0 + A_tile · (H_rows ∘ d_k)`. -/
theorem sacc2_A (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : cond2_0 i) (hc1 : ¬cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) :
    sout2_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k2_pay2 (brows2 i x3) x1 (k2_pay1 (F := F)) x2 := by
  unfold sout2_A_0
  rw [View.read_writes_eq_canon _ _ _ (scover2_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun2_A
  dsimp only
  sl_unfold_words
  rw [View.canon_cons_unit_zero (S := S1024x512) hz_R2, View.readCov_unit_zero (S := S1024x512) _ hz_R2]
  simp only [View.readAt_eq_ld, harg2.read_unread, harg3.read_unread, harg4.read_unread, harg5.read_unread, harg6.read_unread, harg7.read_unread, harg8.read_unread, harg9.read_unread, harg12.read_unread,
    View.ld_unit_zero (S := S1024x1) hz_R2, View.ld_unit_zero (S := S1024x1024) hz_R2, View.ld_unit_zero (S := S512x512) hz_R2, View.ld_unit_zero (S := S1x512) hz_R2, View.ld_unit_zero (S := S512x32) hz_R2, View.ld_unit_zero (S := S1x32) hz_R2, View.ld_unit_zero (S := S1024x512) hz_R2, View.ld_unit_zero (S := S1024x32) hz_R2] <;> rfl

/-- Where k = 7 the first output block is the body's layer payload of the finished accumulator, the scale rows of the row tile, W₂ᵗ and the bias row. -/
theorem out2_C_layer (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) :
    out2_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k2_pay3 (k2_pay2 (brows2 i x3) x1 xs0 x2) x0 x4 x5 := by
  unfold out2_C_8
  rw [View.read_writes_eq_canon _ _ _ (cover2_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun2_C
  dsimp only
  sl_unfold_words
  rw [View.canon_unit_zero hz_R2, View.readCov_unit_zero (S := S1024x512) _ hz_R2]
  simp only [View.readAt_eq_ld, harg2.read_unread, harg3.read_unread, harg4.read_unread, harg5.read_unread, harg6.read_unread, harg7.read_unread, harg8.read_unread, harg9.read_unread, harg12.read_unread,
    View.ld_unit_zero (S := S1024x1) hz_R2, View.ld_unit_zero (S := S1024x1024) hz_R2, View.ld_unit_zero (S := S512x512) hz_R2, View.ld_unit_zero (S := S1x512) hz_R2, View.ld_unit_zero (S := S512x32) hz_R2, View.ld_unit_zero (S := S1x32) hz_R2, View.ld_unit_zero (S := S1024x512) hz_R2, View.ld_unit_zero (S := S1024x32) hz_R2] <;> rfl

/-- Where k = 7 the second output block is the body's head payload of the same operands, Fᵗ and the head's bias row. -/
theorem out2_C_head (c : Dev nD) (i : grid2.Coords) (arg2 : Memref sig .tc .vmem S1024x1 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S8192x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x32 .bf16) (harg8 : arg8.IsWhole) (arg9 : Memref sig .tc .vmem S1x32 .f32) (harg9 : arg9.IsWhole) (arg10 : Memref sig .tc .vmem S1024x512 .f32) (harg10 : arg10.IsWhole) (arg11 : Memref sig .tc .vmem S1024x32 .f32) (harg11 : arg11.IsWhole) (arg12 : Memref sig .tc .vmem S1024x512 .f32) (harg12 : arg12.IsWhole) (hc0 : ¬cond2_0 i) (hc1 : cond2_1 i)
    (x0 : Vec F S1024x1 .f32) (x1 : Vec F S1024x1 .f32) (x2 : Vec F S1024x1024 .bf16) (x3 : Vec F S8192x512 .f32) (x4 : Vec F S512x512 .bf16) (x5 : Vec F S1x512 .f32) (x6 : Vec F S512x32 .bf16) (x7 : Vec F S1x32 .f32) (xs0 : Vec F S1024x512 .f32) :
    out2_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = k2_pay4 (k2_pay2 (brows2 i x3) x1 xs0 x2) x0 x4 x5 x6 x7 := by
  unfold out2_C_9
  rw [View.read_writes_eq_canon _ _ _ (cover2_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun2_C
  dsimp only
  sl_unfold_words
  rw [View.canon_unit_zero hz_R2, View.readCov_unit_zero (S := S1024x512) _ hz_R2]
  simp only [View.readAt_eq_ld, harg2.read_unread, harg3.read_unread, harg4.read_unread, harg5.read_unread, harg6.read_unread, harg7.read_unread, harg8.read_unread, harg9.read_unread, harg12.read_unread,
    View.ld_unit_zero (S := S1024x1) hz_R2, View.ld_unit_zero (S := S1024x1024) hz_R2, View.ld_unit_zero (S := S512x512) hz_R2, View.ld_unit_zero (S := S1x512) hz_R2, View.ld_unit_zero (S := S512x32) hz_R2, View.ld_unit_zero (S := S1x32) hz_R2, View.ld_unit_zero (S := S1024x512) hz_R2, View.ld_unit_zero (S := S1024x32) hz_R2] <;> rfl

end Cert.KernelIdeal.Hand

end
-- ==== Proof.KI.R2Blocks.lean ====
/-
  Region 2, the second graph layer with the classifier head: where each window's block sits in its array, and what the
  accumulator and the two output blocks hold after a point in terms of the point's blocks.

  Point t = 8·(row tile) + k. The two windows on the scale vector d hold its rows 1024·(row tile) … and 1024·k …; the
  adjacency window holds the tile (row tile, k); H, W₂ᵗ, Fᵗ and the two bias rows are resident whole, and the body takes
  rows 1024·k … of H. So an entry of a block is the entry of its array at the block's offset plus the entry's own
  coordinates.
-/
import proofs.«123374_j59193239273550_2_alg».proof.Proof.KI.R2Pieces
import proofs.«123374_j59193239273550_2_alg».proof.Proof.Spec

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The windows' block indices and the offset of the rows of H, at every one of the 64 points. -/
theorem idx2_facts : ∀ t : Fin cfg2.N,
    win2_0.index t 0 = t.val / 8
    ∧ win2_0.index t 1 = 0
    ∧ win2_1.index t 0 = t.val % 8
    ∧ win2_1.index t 1 = 0
    ∧ win2_2.index t 0 = t.val / 8
    ∧ win2_2.index t 1 = t.val % 8
    ∧ win2_3.index t 0 = 0
    ∧ win2_3.index t 1 = 0
    ∧ win2_4.index t 0 = 0
    ∧ win2_4.index t 1 = 0
    ∧ win2_5.index t 0 = 0
    ∧ win2_5.index t 1 = 0
    ∧ win2_6.index t 0 = 0
    ∧ win2_6.index t 1 = 0
    ∧ win2_7.index t 0 = 0
    ∧ win2_7.index t 1 = 0
    ∧ win2_8.index t 0 = t.val / 8
    ∧ win2_8.index t 1 = 0
    ∧ win2_9.index t 0 = t.val / 8
    ∧ win2_9.index t 1 = 0
    ∧ k2_off1 (grid2.coords t) 0 = 1024 * (t.val % 8)
    ∧ k2_off1 (grid2.coords t) 1 = 0 :=
  (by decide +kernel : ∀ t : Fin grid2.N, _)

section Blocks
variable (V : (c : Dev nD) → (b : Ref sig .tc) → Buf (Elt Ideal) ((c : Thread nD τ).loc b))

/-! ## A block's entry is an entry of its array -/

/-- The scale vector through its first window: rows of the row tile. -/
theorem blk2Drow_apply (c : Dev nD) (t : Fin cfg2.N) (x : S1024x1.Idx) (k : (⟨2, ![8192, 1]⟩ : Shape).Idx)
    (hk0 : (k 0).val = 1024 * (t.val / 8) + (x 0).val) (hk1 : (k 1).val = 0 + (x 1).val) :
    (iblk2 V c 0 t : Vec Ideal S1024x1 .f32) x = (V c main_v12 : Cert.Spec.Mat 8192 1) k := by
  obtain ⟨e00, e01, e10, e11, e20, e21, e30, e31, e40, e41, e50, e51, e60, e61, e70, e71, e80, e81, e90, e91, eo0, eo1⟩ := idx2_facts t
  unfold iblk2
  rw [View.read_apply]
  show V c main_v12 _ = V c main_v12 _
  congr 1
  funext a
  apply Fin.ext
  match a with
  | ⟨0, _⟩ => show win2_0.index t 0 * 1024 + 1 * (x 0).val = (k 0).val; rw [e00, hk0]; omega
  | ⟨1, _⟩ => show win2_0.index t 1 * 1 + 1 * (x 1).val = (k 1).val; rw [e01, hk1]; omega

/-- The scale vector through its second window: rows of the reduction tile. -/
theorem blk2Dred_apply (c : Dev nD) (t : Fin cfg2.N) (x : S1024x1.Idx) (k : (⟨2, ![8192, 1]⟩ : Shape).Idx)
    (hk0 : (k 0).val = 1024 * (t.val % 8) + (x 0).val) (hk1 : (k 1).val = 0 + (x 1).val) :
    (iblk2 V c 1 t : Vec Ideal S1024x1 .f32) x = (V c main_v12 : Cert.Spec.Mat 8192 1) k := by
  obtain ⟨e00, e01, e10, e11, e20, e21, e30, e31, e40, e41, e50, e51, e60, e61, e70, e71, e80, e81, e90, e91, eo0, eo1⟩ := idx2_facts t
  unfold iblk2
  rw [View.read_apply]
  show V c main_v12 _ = V c main_v12 _
  congr 1
  funext a
  apply Fin.ext
  match a with
  | ⟨0, _⟩ => show win2_1.index t 0 * 1024 + 1 * (x 0).val = (k 0).val; rw [e10, hk0]; omega
  | ⟨1, _⟩ => show win2_1.index t 1 * 1 + 1 * (x 1).val = (k 1).val; rw [e11, hk1]; omega

/-- The adjacency tile (row tile, reduction tile). -/
theorem blk2A_apply (c : Dev nD) (t : Fin cfg2.N) (x : S1024x1024.Idx) (k : (⟨2, ![8192, 8192]⟩ : Shape).Idx)
    (hk0 : (k 0).val = 1024 * (t.val / 8) + (x 0).val) (hk1 : (k 1).val = 1024 * (t.val % 8) + (x 1).val) :
    (iblk2 V c 2 t : Vec Ideal S1024x1024 .bf16) x = (V c main_v0_1 : Cert.Spec.Mat 8192 8192) k := by
  obtain ⟨e00, e01, e10, e11, e20, e21, e30, e31, e40, e41, e50, e51, e60, e61, e70, e71, e80, e81, e90, e91, eo0, eo1⟩ := idx2_facts t
  unfold iblk2
  rw [View.read_apply]
  show V c main_v0_1 _ = V c main_v0_1 _
  congr 1
  funext a
  apply Fin.ext
  match a with
  | ⟨0, _⟩ => show win2_2.index t 0 * 1024 + 1 * (x 0).val = (k 0).val; rw [e20, hk0]; omega
  | ⟨1, _⟩ => show win2_2.index t 1 * 1024 + 1 * (x 1).val = (k 1).val; rw [e21, hk1]; omega

/-- H, the first layer's activations, resident whole. -/
theorem blk2B_apply (c : Dev nD) (t : Fin cfg2.N) (x : S8192x512.Idx) (k : (⟨2, ![8192, 512]⟩ : Shape).Idx)
    (hk0 : (k 0).val = 0 + (x 0).val) (hk1 : (k 1).val = 0 + (x 1).val) :
    (iblk2 V c 3 t : Vec Ideal S8192x512 .f32) x = (V c main_v11 : Cert.Spec.Mat 8192 512) k := by
  obtain ⟨e00, e01, e10, e11, e20, e21, e30, e31, e40, e41, e50, e51, e60, e61, e70, e71, e80, e81, e90, e91, eo0, eo1⟩ := idx2_facts t
  unfold iblk2
  rw [View.read_apply]
  show V c main_v11 _ = V c main_v11 _
  congr 1
  funext a
  apply Fin.ext
  match a with
  | ⟨0, _⟩ => show win2_3.index t 0 * 8192 + 1 * (x 0).val = (k 0).val; rw [e30, hk0]; omega
  | ⟨1, _⟩ => show win2_3.index t 1 * 512 + 1 * (x 1).val = (k 1).val; rw [e31, hk1]; omega

/-- W₂ᵗ, resident whole. -/
theorem blk2W_apply (c : Dev nD) (t : Fin cfg2.N) (x : S512x512.Idx) (k : (⟨2, ![512, 512]⟩ : Shape).Idx)
    (hk0 : (k 0).val = 0 + (x 0).val) (hk1 : (k 1).val = 0 + (x 1).val) :
    (iblk2 V c 4 t : Vec Ideal S512x512 .bf16) x = (V c main_v6 : Cert.Spec.Mat 512 512) k := by
  obtain ⟨e00, e01, e10, e11, e20, e21, e30, e31, e40, e41, e50, e51, e60, e61, e70, e71, e80, e81, e90, e91, eo0, eo1⟩ := idx2_facts t
  unfold iblk2
  rw [View.read_apply]
  show V c main_v6 _ = V c main_v6 _
  congr 1
  funext a
  apply Fin.ext
  match a with
  | ⟨0, _⟩ => show win2_4.index t 0 * 512 + 1 * (x 0).val = (k 0).val; rw [e40, hk0]; omega
  | ⟨1, _⟩ => show win2_4.index t 1 * 512 + 1 * (x 1).val = (k 1).val; rw [e41, hk1]; omega

/-- The layer's bias row, resident whole. -/
theorem blk2Bias_apply (c : Dev nD) (t : Fin cfg2.N) (x : S1x512.Idx) (k : (⟨2, ![1, 512]⟩ : Shape).Idx)
    (hk0 : (k 0).val = 0 + (x 0).val) (hk1 : (k 1).val = 0 + (x 1).val) :
    (iblk2 V c 5 t : Vec Ideal S1x512 .f32) x = (V c main_v13 : Cert.Spec.Mat 1 512) k := by
  obtain ⟨e00, e01, e10, e11, e20, e21, e30, e31, e40, e41, e50, e51, e60, e61, e70, e71, e80, e81, e90, e91, eo0, eo1⟩ := idx2_facts t
  unfold iblk2
  rw [View.read_apply]
  show V c main_v13 _ = V c main_v13 _
  congr 1
  funext a
  apply Fin.ext
  match a with
  | ⟨0, _⟩ => show win2_5.index t 0 * 1 + 1 * (x 0).val = (k 0).val; rw [e50, hk0]; omega
  | ⟨1, _⟩ => show win2_5.index t 1 * 512 + 1 * (x 1).val = (k 1).val; rw [e51, hk1]; omega

/-- Fᵗ, resident whole. -/
theorem blk2F_apply (c : Dev nD) (t : Fin cfg2.N) (x : S512x32.Idx) (k : (⟨2, ![512, 32]⟩ : Shape).Idx)
    (hk0 : (k 0).val = 0 + (x 0).val) (hk1 : (k 1).val = 0 + (x 1).val) :
    (iblk2 V c 6 t : Vec Ideal S512x32 .bf16) x = (V c main_v8 : Cert.Spec.Mat 512 32) k := by
  obtain ⟨e00, e01, e10, e11, e20, e21, e30, e31, e40, e41, e50, e51, e60, e61, e70, e71, e80, e81, e90, e91, eo0, eo1⟩ := idx2_facts t
  unfold iblk2
  rw [View.read_apply]
  show V c main_v8 _ = V c main_v8 _
  congr 1
  funext a
  apply Fin.ext
  match a with
  | ⟨0, _⟩ => show win2_6.index t 0 * 512 + 1 * (x 0).val = (k 0).val; rw [e60, hk0]; omega
  | ⟨1, _⟩ => show win2_6.index t 1 * 32 + 1 * (x 1).val = (k 1).val; rw [e61, hk1]; omega

/-- The head's bias row, resident whole. -/
theorem blk2Fb_apply (c : Dev nD) (t : Fin cfg2.N) (x : S1x32.Idx) (k : (⟨2, ![1, 32]⟩ : Shape).Idx)
    (hk0 : (k 0).val = 0 + (x 0).val) (hk1 : (k 1).val = 0 + (x 1).val) :
    (iblk2 V c 7 t : Vec Ideal S1x32 .f32) x = (V c main_v14 : Cert.Spec.Mat 1 32) k := by
  obtain ⟨e00, e01, e10, e11, e20, e21, e30, e31, e40, e41, e50, e51, e60, e61, e70, e71, e80, e81, e90, e91, eo0, eo1⟩ := idx2_facts t
  unfold iblk2
  rw [View.read_apply]
  show V c main_v14 _ = V c main_v14 _
  congr 1
  funext a
  apply Fin.ext
  match a with
  | ⟨0, _⟩ => show win2_7.index t 0 * 1 + 1 * (x 0).val = (k 0).val; rw [e70, hk0]; omega
  | ⟨1, _⟩ => show win2_7.index t 1 * 32 + 1 * (x 1).val = (k 1).val; rw [e71, hk1]; omega

/-- The rows of H the body loads at point t: rows 1024·k … of the array. -/
theorem brows2_apply (c : Dev nD) (t : Fin cfg2.N) (x : S1024x512.Idx) (k : (⟨2, ![8192, 512]⟩ : Shape).Idx)
    (hk0 : (k 0).val = 1024 * (t.val % 8) + (x 0).val) (hk1 : (k 1).val = (x 1).val) :
    brows2 (grid2.coords t) (iblk2 V c 3 t) x = (V c main_v11 : Cert.Spec.Mat 8192 512) k := by
  obtain ⟨e00, e01, e10, e11, e20, e21, e30, e31, e40, e41, e50, e51, e60, e61, e70, e71, e80, e81, e90, e91, eo0, eo1⟩ := idx2_facts t
  show (iblk2 V c 3 t : Vec Ideal S8192x512 .f32) ((Rect.unit (s := S8192x512) (k2_off1 (grid2.coords t)) S1024x512.size (k2_off1_inb (grid2.coords t))).emb x) = _
  refine blk2B_apply V c t _ k ?_ ?_
  · rw [Rect.emb_apply]
    show (k 0).val = 0 + (k2_off1 (grid2.coords t) 0 + 1 * (x 0).val)
    rw [eo0, hk0]; omega
  · rw [Rect.emb_apply]
    show (k 1).val = 0 + (k2_off1 (grid2.coords t) 1 + 1 * (x 1).val)
    rw [eo1, hk1]; omega

end Blocks

/-! ## After a point -/

section Points
variable {F : FTy → Type} [FloatOps F]
variable (V : (c : Dev nD) → (b : Ref sig .tc) → Buf (Elt F) ((c : Thread nD τ).loc b))

/-- Where k = 0 the accumulator ends at the zero block plus this point's tile product. -/
theorem acc2_A (c : Dev nD) (t : Fin cfg2.N) (h0 : t.val % 8 = 0) (h1 : ¬t.val % 8 = 7) :
    (outsAt2 V c t.val t.isLt).2.2
      = k2_pay2 (brows2 (grid2.coords t) (iblk2 V c 3 t)) (iblk2 V c 1 t) (k2_pay1 (F := F)) (iblk2 V c 2 t) := by
  rw [outsAt2_A V c t h0 h1]
  dsimp only
  exact sacc2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)

/-- Where k ≠ 0 the accumulator ends at what the point before left plus this point's tile product. -/
theorem acc2_S (c : Dev nD) (t : Fin cfg2.N) (h0 : ¬t.val % 8 = 0) :
    (outsAt2 V c t.val t.isLt).2.2
      = k2_pay2 (brows2 (grid2.coords t) (iblk2 V c 3 t)) (iblk2 V c 1 t) (outsAt2 V c (t.val - 1) (Nat.lt_of_le_of_lt (Nat.sub_le _ _) t.isLt)).2.2 (iblk2 V c 2 t) := by
  by_cases h1 : t.val % 8 = 7
  · rw [outsAt2_C V c t h0 h1]
    dsimp only
    exact sacc2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2
  · rw [outsAt2_B V c t h0 h1]
    dsimp only
    exact sacc2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2

/-- Where k = 7 the first output block is the closing payload of the finished accumulator. -/
theorem out2_at7 (c : Dev nD) (t : Fin cfg2.N) (h0 : ¬t.val % 8 = 0) (h1 : t.val % 8 = 7) :
    (outsAt2 V c t.val t.isLt).1
      = k2_pay3 (outsAt2 V c t.val t.isLt).2.2 (iblk2 V c 0 t) (iblk2 V c 4 t) (iblk2 V c 5 t) := by
  rw [acc2_S V c t h0, outsAt2_C V c t h0 h1]
  dsimp only
  exact out2_C_layer (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2

/-- Where k = 7 the second output block is the head payload of the same operands. -/
theorem head2_at7 (c : Dev nD) (t : Fin cfg2.N) (h0 : ¬t.val % 8 = 0) (h1 : t.val % 8 = 7) :
    (outsAt2 V c t.val t.isLt).2.1
      = k2_pay4 (outsAt2 V c t.val t.isLt).2.2 (iblk2 V c 0 t) (iblk2 V c 4 t) (iblk2 V c 5 t) (iblk2 V c 6 t) (iblk2 V c 7 t) := by
  rw [acc2_S V c t h0, outsAt2_C V c t h0 h1]
  dsimp only
  exact out2_C_head (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2.2

end Points

end Cert.KernelIdeal.Hand

end
-- ==== Proof.KI.Dots.lean ====
/-
  The three matrix products of the two layer kernels, each read as a plain sum: entry (r, o) of a product is the sum over
  the inner positions s of (left row r, s) times (s, right column o). The products are stated over a contraction index
  whose one coordinate is the inner position; here that index is exchanged for the coordinate itself. Also here: a column
  of scale factors spread along the rows, and a row of biases spread down the columns, read at an entry.
-/
import proofs.«123374_j59193239273550_2_alg».proof.Proof.Gen.KernelIdeal
import Idealize.ShloMosaic.Lib.ValueIdx
import Idealize.ShloMosaic.PureOps.Ideal.Laws
import Idealize.ShloMosaic.Lib.Pipeline.Value

set_option maxRecDepth 16384

noncomputable section

open scoped BigOperators

namespace Cert.KernelIdeal.Hand

open Cert.KernelIdeal.Gen
open Idealize.ShloMosaic Idealize.ShloMosaic.ValueIdx

/-! ## the 1024 × 1024 adjacency tile against the 1024 × 512 scaled operand tile -/

/-- The dimension numbers of the product of the 1024 × 1024 adjacency tile against the 1024 × 512 scaled operand tile: rows of the left operand against columns of the right. -/
abbrev DA : DotDims S1024x1024 S1024x512 S1024x512 := dot_S1024x1024_S1024x512_S1024x512_1_0_0_1_n_n

theorem DA_lhs0 (j : S1024x512.Idx) (k : DA.contr.Idx) : (DA.lhsIdx j k 0 : ℕ) = j 0 := by
  simp [DotDims.lhsIdx, DA, dot_S1024x1024_S1024x512_S1024x512_1_0_0_1_n_n]; rfl
theorem DA_lhs1 (j : S1024x512.Idx) (k : DA.contr.Idx) : (DA.lhsIdx j k 1 : ℕ) = k ⟨0, by decide⟩ := by
  simp [DotDims.lhsIdx, DA, dot_S1024x1024_S1024x512_S1024x512_1_0_0_1_n_n]; rfl
theorem DA_rhs0 (j : S1024x512.Idx) (k : DA.contr.Idx) : (DA.rhsIdx j k 0 : ℕ) = k ⟨0, by decide⟩ := by
  simp [DotDims.rhsIdx, DA, dot_S1024x1024_S1024x512_S1024x512_1_0_0_1_n_n]; rfl
theorem DA_rhs1 (j : S1024x512.Idx) (k : DA.contr.Idx) : (DA.rhsIdx j k 1 : ℕ) = j 1 := by
  simp [DotDims.rhsIdx, DA, dot_S1024x1024_S1024x512_S1024x512_1_0_0_1_n_n]; rfl

/-- The contraction's index is its one coordinate, below 1024. -/
abbrev eA : DA.contr.Idx ≃ Fin 1024 := contrEquiv1 DA 1024 rfl rfl

/-- The product's sum over the contraction index is the sum over the 1024 inner positions of row entry times
    column entry. -/
theorem DA_sum (lhs : S1024x1024.Idx → EReal) (rhs : S1024x512.Idx → EReal) (j : S1024x512.Idx) :
    ∑ k : DA.contr.Idx, lhs (DA.lhsIdx j k) * rhs (DA.rhsIdx j k)
      = ∑ s : Fin 1024, lhs (ix2 (j 0) s : S1024x1024.Idx) * rhs (ix2 s (j 1) : S1024x512.Idx) := by
  refine Fintype.sum_equiv eA _ _ fun k => ?_
  have hl : DA.lhsIdx j k = (ix2 (j 0) (eA k) : S1024x1024.Idx) := by
    funext a
    match a with
    | ⟨0, _⟩ => exact Fin.ext (DA_lhs0 j k)
    | ⟨1, _⟩ => exact Fin.ext (DA_lhs1 j k)
  have hr : DA.rhsIdx j k = (ix2 (eA k) (j 1) : S1024x512.Idx) := by
    funext a
    match a with
    | ⟨0, _⟩ => exact Fin.ext (DA_rhs0 j k)
    | ⟨1, _⟩ => exact Fin.ext (DA_rhs1 j k)
  rw [hl, hr]

/-! ## the 1024 × 512 scaled sum against the 512 × 512 transposed weights -/

/-- The dimension numbers of the product of the 1024 × 512 scaled sum against the 512 × 512 transposed weights: rows of the left operand against columns of the right. -/
abbrev DW : DotDims S1024x512 S512x512 S1024x512 := dot_S1024x512_S512x512_S1024x512_1_0_0_1_n_n

theorem DW_lhs0 (j : S1024x512.Idx) (k : DW.contr.Idx) : (DW.lhsIdx j k 0 : ℕ) = j 0 := by
  simp [DotDims.lhsIdx, DW, dot_S1024x512_S512x512_S1024x512_1_0_0_1_n_n]; rfl
theorem DW_lhs1 (j : S1024x512.Idx) (k : DW.contr.Idx) : (DW.lhsIdx j k 1 : ℕ) = k ⟨0, by decide⟩ := by
  simp [DotDims.lhsIdx, DW, dot_S1024x512_S512x512_S1024x512_1_0_0_1_n_n]; rfl
theorem DW_rhs0 (j : S1024x512.Idx) (k : DW.contr.Idx) : (DW.rhsIdx j k 0 : ℕ) = k ⟨0, by decide⟩ := by
  simp [DotDims.rhsIdx, DW, dot_S1024x512_S512x512_S1024x512_1_0_0_1_n_n]; rfl
theorem DW_rhs1 (j : S1024x512.Idx) (k : DW.contr.Idx) : (DW.rhsIdx j k 1 : ℕ) = j 1 := by
  simp [DotDims.rhsIdx, DW, dot_S1024x512_S512x512_S1024x512_1_0_0_1_n_n]; rfl

/-- The contraction's index is its one coordinate, below 512. -/
abbrev eW : DW.contr.Idx ≃ Fin 512 := contrEquiv1 DW 512 rfl rfl

/-- The product's sum over the contraction index is the sum over the 512 inner positions of row entry times
    column entry. -/
theorem DW_sum (lhs : S1024x512.Idx → EReal) (rhs : S512x512.Idx → EReal) (j : S1024x512.Idx) :
    ∑ k : DW.contr.Idx, lhs (DW.lhsIdx j k) * rhs (DW.rhsIdx j k)
      = ∑ s : Fin 512, lhs (ix2 (j 0) s : S1024x512.Idx) * rhs (ix2 s (j 1) : S512x512.Idx) := by
  refine Fintype.sum_equiv eW _ _ fun k => ?_
  have hl : DW.lhsIdx j k = (ix2 (j 0) (eW k) : S1024x512.Idx) := by
    funext a
    match a with
    | ⟨0, _⟩ => exact Fin.ext (DW_lhs0 j k)
    | ⟨1, _⟩ => exact Fin.ext (DW_lhs1 j k)
  have hr : DW.rhsIdx j k = (ix2 (eW k) (j 1) : S512x512.Idx) := by
    funext a
    match a with
    | ⟨0, _⟩ => exact Fin.ext (DW_rhs0 j k)
    | ⟨1, _⟩ => exact Fin.ext (DW_rhs1 j k)
  rw [hl, hr]

/-! ## the 1024 × 512 activations against the 512 × 32 transposed head weights -/

/-- The dimension numbers of the product of the 1024 × 512 activations against the 512 × 32 transposed head weights: rows of the left operand against columns of the right. -/
abbrev DH : DotDims S1024x512 S512x32 S1024x32 := dot_S1024x512_S512x32_S1024x32_1_0_0_1_n_n

theorem DH_lhs0 (j : S1024x32.Idx) (k : DH.contr.Idx) : (DH.lhsIdx j k 0 : ℕ) = j 0 := by
  simp [DotDims.lhsIdx, DH, dot_S1024x512_S512x32_S1024x32_1_0_0_1_n_n]; rfl
theorem DH_lhs1 (j : S1024x32.Idx) (k : DH.contr.Idx) : (DH.lhsIdx j k 1 : ℕ) = k ⟨0, by decide⟩ := by
  simp [DotDims.lhsIdx, DH, dot_S1024x512_S512x32_S1024x32_1_0_0_1_n_n]; rfl
theorem DH_rhs0 (j : S1024x32.Idx) (k : DH.contr.Idx) : (DH.rhsIdx j k 0 : ℕ) = k ⟨0, by decide⟩ := by
  simp [DotDims.rhsIdx, DH, dot_S1024x512_S512x32_S1024x32_1_0_0_1_n_n]; rfl
theorem DH_rhs1 (j : S1024x32.Idx) (k : DH.contr.Idx) : (DH.rhsIdx j k 1 : ℕ) = j 1 := by
  simp [DotDims.rhsIdx, DH, dot_S1024x512_S512x32_S1024x32_1_0_0_1_n_n]; rfl

/-- The contraction's index is its one coordinate, below 512. -/
abbrev eH : DH.contr.Idx ≃ Fin 512 := contrEquiv1 DH 512 rfl rfl

/-- The product's sum over the contraction index is the sum over the 512 inner positions of row entry times
    column entry. -/
theorem DH_sum (lhs : S1024x512.Idx → EReal) (rhs : S512x32.Idx → EReal) (j : S1024x32.Idx) :
    ∑ k : DH.contr.Idx, lhs (DH.lhsIdx j k) * rhs (DH.rhsIdx j k)
      = ∑ s : Fin 512, lhs (ix2 (j 0) s : S1024x512.Idx) * rhs (ix2 s (j 1) : S512x32.Idx) := by
  refine Fintype.sum_equiv eH _ _ fun k => ?_
  have hl : DH.lhsIdx j k = (ix2 (j 0) (eH k) : S1024x512.Idx) := by
    funext a
    match a with
    | ⟨0, _⟩ => exact Fin.ext (DH_lhs0 j k)
    | ⟨1, _⟩ => exact Fin.ext (DH_lhs1 j k)
  have hr : DH.rhsIdx j k = (ix2 (eH k) (j 1) : S512x32.Idx) := by
    funext a
    match a with
    | ⟨0, _⟩ => exact Fin.ext (DH_rhs0 j k)
    | ⟨1, _⟩ => exact Fin.ext (DH_rhs1 j k)
  rw [hl, hr]
/-! ## A column or a row spread over a block -/

/-- A column of scale factors spread along the rows: entry (s, n) is the factor of row s. -/
theorem spread_col (v : Vec Ideal S1024x1 .f32) (j : S1024x512.Idx) :
    broadcastTo S1024x512 v broadcasts_S1024x1_S1024x512 j = v (ix2 (j 0) (0 : Fin 1)) :=
  broadcastTo_apply (s := S1024x1) (t := S1024x512) v broadcasts_S1024x1_S1024x512 j (ix2 (j 0) (0 : Fin 1))
    (fun a => by match a with | ⟨0, _⟩ => rfl | ⟨1, _⟩ => rfl)

/-- A row of biases spread down the columns: entry (r, o) is the bias of column o. -/
theorem spread_row512 (v : Vec Ideal S1x512 .f32) (j : S1024x512.Idx) :
    broadcastTo S1024x512 v broadcasts_S1x512_S1024x512 j = v (ix2 (0 : Fin 1) (j 1)) :=
  broadcastTo_apply (s := S1x512) (t := S1024x512) v broadcasts_S1x512_S1024x512 j (ix2 (0 : Fin 1) (j 1))
    (fun a => by match a with | ⟨0, _⟩ => rfl | ⟨1, _⟩ => rfl)

theorem spread_row32 (v : Vec Ideal S1x32 .f32) (j : S1024x32.Idx) :
    broadcastTo S1024x32 v broadcasts_S1x32_S1024x32 j = v (ix2 (0 : Fin 1) (j 1)) :=
  broadcastTo_apply (s := S1x32) (t := S1024x32) v broadcasts_S1x32_S1024x32 j (ix2 (0 : Fin 1) (j 1))
    (fun a => by match a with | ⟨0, _⟩ => rfl | ⟨1, _⟩ => rfl)

end Cert.KernelIdeal.Hand

end
-- ==== Proof.KI.R2Ideal.lean ====
/-
  The arithmetic of the second layer kernel's body read entry by entry on the extended reals, where no rounding is left:
  the accumulator step adds to entry (r, n) the sum over the 1024 inner positions s of A(r, s) · (H(s, n) · d(s)); the
  layer step sends the finished accumulator X to max(Σₙ (X(r, n) · d(r)) · Wt(n, o) + b(o), 0); the head step sends that
  to Σₙ (·)(r, n) · Ft(n, q) + f(q).
-/
import proofs.«123374_j59193239273550_2_alg».proof.Proof.KI.Dots
import proofs.«123374_j59193239273550_2_alg».proof.Proof.Gen.KernelIdeal.Skeleton
import Idealize.ShloMosaic.Lib.Pipeline.Value

set_option maxRecDepth 16384

noncomputable section

open scoped BigOperators

namespace Cert.KernelIdeal.Hand

open Cert.KernelIdeal.Gen
open Idealize.ShloMosaic Idealize.ShloMosaic.ValueIdx

/-- The reset stores the zero block. -/
theorem pay2_zero (j : S1024x512.Idx) : k2_pay1 (F := Ideal) j = 0 := by
  unfold k2_pay1
  simp only [shapeCast_self]
  exact Ideal.ofBits_zero_f32

/-- THE ACCUMULATOR STEP: entry j of the new accumulator is the old entry plus the tile product's entry. -/
theorem pay2_acc (v6 : Vec Ideal S1024x512 .f32) (v8 : Vec Ideal S1024x1 .f32) (v13 : Vec Ideal S1024x512 .f32)
    (v14 : Vec Ideal S1024x1024 .bf16) (j : S1024x512.Idx) :
    k2_pay2 v6 v8 v13 v14 j
      = v13 j + ∑ s : Fin 1024, v14 (ix2 (j 0) s) * (v6 (ix2 s (j 1)) * v8 (ix2 s (0 : Fin 1))) := by
  unfold k2_pay2
  simp only [shapeCast_self, matmul]
  rw [addf_apply, Ideal.matmul_constant_zero_apply, DA_sum]
  refine congrArg (v13 j + ·) (Finset.sum_congr rfl fun s _ => ?_)
  rw [truncf_apply, mulf_apply, spread_col]

/-- THE LAYER STEP: entry j of the output block from the finished accumulator `X`, the row tile's scale factors, the
    transposed weights and the bias row. -/
theorem pay2_layer (X : Vec Ideal S1024x512 .f32) (v25 : Vec Ideal S1024x1 .f32) (v30 : Vec Ideal S512x512 .bf16)
    (v33 : Vec Ideal S1x512 .f32) (j : S1024x512.Idx) :
    k2_pay3 X v25 v30 v33 j
      = max ((∑ n : Fin 512, (X (ix2 (j 0) n) * v25 (ix2 (j 0) (0 : Fin 1))) * v30 (ix2 n (j 1))) + v33 (ix2 (0 : Fin 1) (j 1))) 0 := by
  unfold k2_pay3
  simp only [shapeCast_self, matmul]
  rw [maximumf_apply, addf_apply, Ideal.matmul_constant_zero_apply, DW_sum, spread_row512, broadcast_apply]
  refine congrArg₂ max (congrArg (· + _) (Finset.sum_congr rfl fun n _ => ?_)) Ideal.ofBits_zero_f32
  rw [truncf_apply, mulf_apply, spread_col]

/-- THE HEAD STEP: entry j of the logits block is the layer block's row against the transposed head weights' column,
    plus the head's bias. -/
theorem pay2_head (X : Vec Ideal S1024x512 .f32) (v25 : Vec Ideal S1024x1 .f32) (v30 : Vec Ideal S512x512 .bf16)
    (v33 : Vec Ideal S1x512 .f32) (v41 : Vec Ideal S512x32 .bf16) (v44 : Vec Ideal S1x32 .f32) (j : S1024x32.Idx) :
    k2_pay4 X v25 v30 v33 v41 v44 j
      = (∑ n : Fin 512, k2_pay3 X v25 v30 v33 (ix2 (j 0) n) * v41 (ix2 n (j 1))) + v44 (ix2 (0 : Fin 1) (j 1)) := by
  unfold k2_pay4
  simp only [shapeCast_self, matmul]
  rw [addf_apply, Ideal.matmul_constant_zero_apply, DH_sum, spread_row32]
  refine congrArg (· + _) (Finset.sum_congr rfl fun n _ => ?_)
  rw [truncf_apply]

end Cert.KernelIdeal.Hand

end
-- ==== Proof.KI.R2Alg.lean ====
/-
  The second graph layer with the classifier head, entry by entry: one reduction step adds one tile of the inner sum,
  the closing step turns the finished sums of a row into that row of the layer, and the head step turns that row of the
  layer into the row of logits.
-/
import proofs.«123374_j59193239273550_2_alg».proof.Proof.KI.R2Ideal
import proofs.«123374_j59193239273550_2_alg».proof.Proof.KI.R1ValueAlg

set_option maxRecDepth 16384

noncomputable section

open scoped BigOperators

namespace Cert.KernelIdeal.Hand

open Cert.KernelIdeal.Gen
open Idealize.ShloMosaic Idealize.ShloMosaic.ValueIdx
open Cert.Spec (Mat)

/-- One reduction step: when the loaded blocks are the tile (row tile of i, k) of A and rows of tile k of H and of d,
    entry (p, n) of the accumulator gains the tile sum of row i. -/
theorem step2_apply (d : Mat 8192 1) (A : Mat 8192 8192) (B : Mat 8192 512) (i : Fin 8192) (k : Fin 8)
    (bB : Vec Ideal S1024x512 .f32) (bD : Vec Ideal S1024x1 .f32) (acc : Vec Ideal S1024x512 .f32)
    (bA : Vec Ideal S1024x1024 .bf16) (p : Fin 1024) (n : Fin 512)
    (hA : ∀ r : Fin 1024, bA (ix2 p r) = A (ix2 i (colIx k r)))
    (hB : ∀ r : Fin 1024, bB (ix2 r n) = B (ix2 (colIx k r) n))
    (hD : ∀ r : Fin 1024, bD (ix2 r (0 : Fin 1)) = d (ix2 (colIx k r) (0 : Fin 1))) :
    k2_pay2 (F := Ideal) bB bD acc bA (ix2 p n) = acc (ix2 p n) + tileSum d A B i n k := by
  rw [pay2_acc]
  show acc (ix2 p n) + ∑ s : Fin 1024, bA (ix2 p s) * (bB (ix2 s n) * bD (ix2 s (0 : Fin 1))) = _
  refine congrArg (acc (ix2 p n) + ·) ?_
  unfold tileSum term
  exact Finset.sum_congr rfl fun r _ => by rw [hA r, hB r, hD r]

/-- The closing step: when the accumulator's row p holds the finished inner sums S of row i, and the other blocks are
    the row's scale, W₂ᵗ and the bias, entry (p, q) of the first output block is the layer's. -/
theorem close2_apply (d : Mat 8192 1) (Wt : Mat 512 512) (b : Mat 1 512) (i : Fin 8192) (S : Fin 512 → EReal)
    (acc : Vec Ideal S1024x512 .f32) (bD : Vec Ideal S1024x1 .f32) (bW : Vec Ideal S512x512 .bf16) (bb : Vec Ideal S1x512 .f32)
    (p : Fin 1024) (q : Fin 512)
    (hacc : ∀ n : Fin 512, acc (ix2 p n) = S n) (hD : bD (ix2 p (0 : Fin 1)) = d (ix2 i (0 : Fin 1)))
    (hW : ∀ n : Fin 512, bW (ix2 n q) = Wt (ix2 n q)) (hb : bb (ix2 (0 : Fin 1) q) = b (ix2 (0 : Fin 1) q)) :
    k2_pay3 (F := Ideal) acc bD bW bb (ix2 p q)
      = max ((∑ n : Fin 512, (S n * d (ix2 i (0 : Fin 1))) * Wt (ix2 n q)) + b (ix2 (0 : Fin 1) q)) 0 := by
  rw [pay2_layer]
  show max ((∑ n : Fin 512, (acc (ix2 p n) * bD (ix2 p (0 : Fin 1))) * bW (ix2 n q)) + bb (ix2 (0 : Fin 1) q)) 0 = _
  rw [hD, hb]
  refine congrArg (fun z => max (z + b (ix2 (0 : Fin 1) q)) 0) ?_
  exact Finset.sum_congr rfl fun n _ => by rw [hacc n, hW n]

/-- The head step: when the layer block's row p holds the row L of the layer, and the other blocks are Fᵗ and the
    head's bias, entry (p, q) of the second output block is the head's. -/
theorem head2_apply (Ft : Mat 512 32) (f : Mat 1 32) (L : Fin 512 → EReal)
    (acc : Vec Ideal S1024x512 .f32) (bD : Vec Ideal S1024x1 .f32) (bW : Vec Ideal S512x512 .bf16) (bb : Vec Ideal S1x512 .f32)
    (bF : Vec Ideal S512x32 .bf16) (bf : Vec Ideal S1x32 .f32) (p : Fin 1024) (q : Fin 32)
    (hL : ∀ n : Fin 512, k2_pay3 (F := Ideal) acc bD bW bb (ix2 p n) = L n)
    (hF : ∀ n : Fin 512, bF (ix2 n q) = Ft (ix2 n q)) (hf : bf (ix2 (0 : Fin 1) q) = f (ix2 (0 : Fin 1) q)) :
    k2_pay4 (F := Ideal) acc bD bW bb bF bf (ix2 p q) = (∑ n : Fin 512, L n * Ft (ix2 n q)) + f (ix2 (0 : Fin 1) q) := by
  rw [pay2_head]
  show (∑ n : Fin 512, k2_pay3 (F := Ideal) acc bD bW bb (ix2 p n) * bF (ix2 n q)) + bf (ix2 (0 : Fin 1) q) = _
  rw [hf]
  refine congrArg (· + f (ix2 (0 : Fin 1) q)) ?_
  exact Finset.sum_congr rfl fun n _ => by rw [hL n, hF n]

/-- The head at entry (i, q). -/
theorem head_apply (H : Mat 8192 512) (Ft : Mat 512 32) (f : Mat 1 32) (i : Fin 8192) (q : Fin 32) :
    Cert.Spec.head H Ft f (ix2 i q) = (∑ n : Fin 512, H (ix2 i n) * Ft (ix2 n q)) + f (ix2 (0 : Fin 1) q) := rfl

end Cert.KernelIdeal.Hand

end
-- ==== Proof.KI.R2Value.lean ====
/-
  Region 2, the second graph layer with the classifier head, as a value: after the region the first output array holds

      L(i, o) = max(Σₙ ((Σⱼ A(i, j) · (H(j, n) · d(j))) · d(i)) · Wt(n, o) + b(o), 0)

  at every entry (i, o), and the second holds  Σₙ L(i, n) · Ft(n, q) + f(q)  at every entry (i, q). For a block of 1024
  rows the accumulator gathers, over the eight reduction tiles in turn, the inner sums of those rows: after tile k it
  holds zero plus the first k + 1 tile sums (by induction on k). At the eighth tile the finished sums are scaled,
  multiplied by Wtᵗ, shifted and clamped, and that block and its image under the head are written back; the eight such
  blocks of each output cover its array, row i being written at point 8 · (i / 1024) + 7.
-/
import proofs.«123374_j59193239273550_2_alg».proof.Proof.KI.R2Blocks
import proofs.«123374_j59193239273550_2_alg».proof.Proof.KI.R2Alg
import Idealize.ShloMosaic.Lib.Pipeline.Value
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Spec (Mat)

variable (V : (c : Dev nD) → (b : Ref sig .tc) → Buf (Elt Ideal) ((c : Thread nD τ).loc b))

/-- The same point under two names holds the same contents. -/
theorem outsAt2_congr (c : Dev nD) {n n' : ℕ} (e : n = n') (h : n < cfg2.N) (h' : n' < cfg2.N) :
    outsAt2 V c n h = outsAt2 V c n' h' := by subst e; rfl

/-- The row tile of a point is one of eight. -/
theorem rowTile2_lt (t : Fin cfg2.N) : t.val / 8 < 8 := by
  have h : t.val < 64 := lt_of_lt_of_eq t.isLt (show cfg2.N = 64 from N_2)
  omega

/-- One reduction step at point t = 8·a + k: entry (p, n) of the accumulator gains the sum over reduction tile k of the
    inner sum of array row 1024·a + p. -/
theorem point2_step (c : Dev nD) (t : Fin cfg2.N) (a k : Fin 8) (ht : t.val = 8 * a.val + k.val)
    (acc : Vec Ideal S1024x512 .f32) (p : Fin 1024) (n : Fin 512) :
    k2_pay2 (F := Ideal) (brows2 (grid2.coords t) (iblk2 V c 3 t)) (iblk2 V c 1 t) acc (iblk2 V c 2 t) (ix2 p n)
      = acc (ix2 p n) + tileSum (V c main_v12) (V c main_v0_1) (V c main_v11) (rowIx a p) n k := by
  have ha := a.isLt; have hk := k.isLt
  refine step2_apply (V c main_v12) (V c main_v0_1) (V c main_v11) (rowIx a p) k (brows2 (grid2.coords t) (iblk2 V c 3 t)) (iblk2 V c 1 t) acc (iblk2 V c 2 t) p n ?_ ?_ ?_
  · intro r
    exact blk2A_apply V c t (ix2 p r) (ix2 (rowIx a p) (colIx k r))
      (by show 1024 * a.val + p.val = 1024 * (t.val / 8) + p.val; omega)
      (by show 1024 * k.val + r.val = 1024 * (t.val % 8) + r.val; omega)
  · intro r
    exact brows2_apply V c t (ix2 r n) (ix2 (colIx k r) n)
      (by show 1024 * k.val + r.val = 1024 * (t.val % 8) + r.val; omega) rfl
  · intro r
    exact blk2Dred_apply V c t (ix2 r (0 : Fin 1)) (ix2 (colIx k r) (0 : Fin 1))
      (by show 1024 * k.val + r.val = 1024 * (t.val % 8) + r.val; omega) (by show (0 : ℕ) = 0 + 0; rfl)

/-- THE ACCUMULATOR after point 8·a + k: zero plus the first k + 1 tile sums of each of its rows. -/
theorem acc2_eq (c : Dev nD) (a : Fin 8) : ∀ (k : ℕ) (hk : k < 8) (h : 8 * a.val + k < cfg2.N) (p : Fin 1024) (n : Fin 512),
    (outsAt2 V c (8 * a.val + k) h).2.2 (ix2 p n)
      = TileSum.accUpTo 0 (tileSum (V c main_v12) (V c main_v0_1) (V c main_v11) (rowIx a p) n) k hk
  | 0, hk, h, p, n => by
    rw [acc2_A V c ⟨8 * a.val + 0, h⟩ (by show (8 * a.val + 0) % 8 = 0; omega) (by show ¬(8 * a.val + 0) % 8 = 7; omega)]
    rw [point2_step V c ⟨8 * a.val + 0, h⟩ a ⟨0, hk⟩ rfl, pay2_zero]
    rfl
  | k + 1, hk, h, p, n => by
    rw [acc2_S V c ⟨8 * a.val + (k + 1), h⟩ (by show ¬(8 * a.val + (k + 1)) % 8 = 0; omega)]
    rw [point2_step V c ⟨8 * a.val + (k + 1), h⟩ a ⟨k + 1, hk⟩ rfl]
    show (outsAt2 V c (8 * a.val + k) _).2.2 (ix2 p n) + _ = _
    rw [acc2_eq c a k (by omega) _ p n]
    rfl

/-- THE LAYER STEP at a point with k = 7: applied to the finished accumulator it gives, at entry (p, q), the layer at
    row 1024 · (row tile) + p, column q. -/
theorem layer2_pt (c : Dev nD) (t : Fin cfg2.N) (h7 : t.val % 8 = 7) (p : Fin 1024) (q : Fin 512) :
    k2_pay3 (F := Ideal) (outsAt2 V c t.val t.isLt).2.2 (iblk2 V c 0 t) (iblk2 V c 4 t) (iblk2 V c 5 t) (ix2 p q)
      = Cert.Spec.layer (V c main_v12) (V c main_v0_1) (V c main_v11) (V c main_v6) (V c main_v13) (ix2 (rowIx ⟨t.val / 8, rowTile2_lt t⟩ p) q) := by
  have e : t.val = 8 * (t.val / 8) + 7 := by omega
  rw [layer_apply]
  refine close2_apply (V c main_v12) (V c main_v6) (V c main_v13) (rowIx ⟨t.val / 8, rowTile2_lt t⟩ p)
    (fun n => ∑ j : Fin 8192, term (V c main_v12) (V c main_v0_1) (V c main_v11) (rowIx ⟨t.val / 8, rowTile2_lt t⟩ p) n j)
    (outsAt2 V c t.val t.isLt).2.2 (iblk2 V c 0 t) (iblk2 V c 4 t) (iblk2 V c 5 t) p q ?_ ?_ ?_ ?_
  · intro n
    rw [outsAt2_congr V c e t.isLt (lt_of_eq_of_lt e.symm t.isLt),
      acc2_eq V c ⟨t.val / 8, rowTile2_lt t⟩ 7 (by omega) (lt_of_eq_of_lt e.symm t.isLt) p n, tiles_total]
  · exact blk2Drow_apply V c t (ix2 p (0 : Fin 1)) (ix2 (rowIx ⟨t.val / 8, rowTile2_lt t⟩ p) (0 : Fin 1))
      (by show 1024 * (t.val / 8) + p.val = 1024 * (t.val / 8) + p.val; rfl) (by show (0 : ℕ) = 0 + 0; rfl)
  · intro n
    exact blk2W_apply V c t (ix2 n q) (ix2 n q) (by show n.val = 0 + n.val; omega) (by show q.val = 0 + q.val; omega)
  · exact blk2Bias_apply V c t (ix2 (0 : Fin 1) q) (ix2 (0 : Fin 1) q) (by show (0 : ℕ) = 0 + 0; rfl) (by show q.val = 0 + q.val; omega)

/-- THE FIRST OUTPUT BLOCK at a point with k = 7: entry (p, q) is the layer at row 1024 · (row tile) + p, column q. -/
theorem out2_eq (c : Dev nD) (t : Fin cfg2.N) (h7 : t.val % 8 = 7) (p : Fin 1024) (q : Fin 512) :
    (outsAt2 V c t.val t.isLt).1 (ix2 p q) = Cert.Spec.layer (V c main_v12) (V c main_v0_1) (V c main_v11) (V c main_v6) (V c main_v13) (ix2 (rowIx ⟨t.val / 8, rowTile2_lt t⟩ p) q) := by
  rw [out2_at7 V c t (by omega) h7]
  exact layer2_pt V c t h7 p q

/-- THE SECOND OUTPUT BLOCK at a point with k = 7: entry (p, q) is the head of that layer at row
    1024 · (row tile) + p, class q. -/
theorem head2_eq (c : Dev nD) (t : Fin cfg2.N) (h7 : t.val % 8 = 7) (p : Fin 1024) (q : Fin 32) :
    (outsAt2 V c t.val t.isLt).2.1 (ix2 p q) = Cert.Spec.head (Cert.Spec.layer (V c main_v12) (V c main_v0_1) (V c main_v11) (V c main_v6) (V c main_v13)) (V c main_v8) (V c main_v14) (ix2 (rowIx ⟨t.val / 8, rowTile2_lt t⟩ p) q) := by
  rw [head2_at7 V c t (by omega) h7, head_apply]
  refine head2_apply (V c main_v8) (V c main_v14) (fun n => Cert.Spec.layer (V c main_v12) (V c main_v0_1) (V c main_v11) (V c main_v6) (V c main_v13) (ix2 (rowIx ⟨t.val / 8, rowTile2_lt t⟩ p) n))
    (outsAt2 V c t.val t.isLt).2.2 (iblk2 V c 0 t) (iblk2 V c 4 t) (iblk2 V c 5 t) (iblk2 V c 6 t) (iblk2 V c 7 t) p q ?_ ?_ ?_
  · intro n
    exact layer2_pt V c t h7 p n
  · intro n
    exact blk2F_apply V c t (ix2 n q) (ix2 n q) (by show n.val = 0 + n.val; omega) (by show q.val = 0 + q.val; omega)
  · exact blk2Fb_apply V c t (ix2 (0 : Fin 1) q) (ix2 (0 : Fin 1) q) (by show (0 : ℕ) = 0 + 0; rfl) (by show q.val = 0 + q.val; omega)

/-- The layer's output as contents of the first output array. -/
abbrev layerOut2 (c : Dev nD) : Buf (Elt Ideal) ((c : Thread nD τ).loc main_v15_0) := Cert.Spec.layer (V c main_v12) (V c main_v0_1) (V c main_v11) (V c main_v6) (V c main_v13)
/-- The logits as contents of the second output array. -/
abbrev headOut2 (c : Dev nD) : Buf (Elt Ideal) ((c : Thread nD τ).loc main_v15_1) := Cert.Spec.head (Cert.Spec.layer (V c main_v12) (V c main_v0_1) (V c main_v11) (V c main_v6) (V c main_v13)) (V c main_v8) (V c main_v14)

/-- WHAT A POINT WRITES BACK through window 8 (only points with k = 7 do): its block of the layer's output. -/
theorem flushed2_8_eq (c : Dev nD) (t : Fin cfg2.N) (hf : (cfg2.win 8).flush t = true) :
    (dat2 (F := Ideal) V c).flushed 8 t = ((cfg2.win 8).blk t).view.read (Elt Ideal) (layerOut2 V c) := by
  have h7 : t.val % 8 = 7 := (flush2_8 t).mp hf
  obtain ⟨e00, e01, e10, e11, e20, e21, e30, e31, e40, e41, e50, e51, e60, e61, e70, e71, e80, e81, e90, e91, eo0, eo1⟩ := idx2_facts t
  show (cfg2.win 8).cut (grid2.coords t) ((dat2 V c).after 8 t) = _
  rw [after2_8]
  funext y
  obtain ⟨p, q, rfl⟩ : ∃ (p : Fin 1024) (q : Fin 512), y = ix2 p q := ⟨y 0, y 1, eq_ix2 y⟩
  rw [View.read_apply]
  show (outsAt2 V c t.val t.isLt).1 (ix2 p q) = Cert.Spec.layer (V c main_v12) (V c main_v0_1) (V c main_v11) (V c main_v6) (V c main_v13) (((cfg2.win 8).blk t).view.emb (ix2 p q))
  rw [out2_eq V c t h7 p q]
  congr 1
  funext b; apply Fin.ext
  match b with
  | ⟨0, _⟩ => show 1024 * (t.val / 8) + p.val = win2_8.index t 0 * 1024 + 1 * p.val; rw [e80]; omega
  | ⟨1, _⟩ => show q.val = win2_8.index t 1 * 512 + 1 * q.val; rw [e81]; omega

/-- WHAT A POINT WRITES BACK through window 9 (only points with k = 7 do): its block of the logits. -/
theorem flushed2_9_eq (c : Dev nD) (t : Fin cfg2.N) (hf : (cfg2.win 9).flush t = true) :
    (dat2 (F := Ideal) V c).flushed 9 t = ((cfg2.win 9).blk t).view.read (Elt Ideal) (headOut2 V c) := by
  have h7 : t.val % 8 = 7 := (flush2_9 t).mp hf
  obtain ⟨e00, e01, e10, e11, e20, e21, e30, e31, e40, e41, e50, e51, e60, e61, e70, e71, e80, e81, e90, e91, eo0, eo1⟩ := idx2_facts t
  show (cfg2.win 9).cut (grid2.coords t) ((dat2 V c).after 9 t) = _
  rw [after2_9]
  funext y
  obtain ⟨p, q, rfl⟩ : ∃ (p : Fin 1024) (q : Fin 32), y = ix2 p q := ⟨y 0, y 1, eq_ix2 y⟩
  rw [View.read_apply]
  show (outsAt2 V c t.val t.isLt).2.1 (ix2 p q) = Cert.Spec.head (Cert.Spec.layer (V c main_v12) (V c main_v0_1) (V c main_v11) (V c main_v6) (V c main_v13)) (V c main_v8) (V c main_v14) (((cfg2.win 9).blk t).view.emb (ix2 p q))
  rw [head2_eq V c t h7 p q]
  congr 1
  funext b; apply Fin.ext
  match b with
  | ⟨0, _⟩ => show 1024 * (t.val / 8) + p.val = win2_9.index t 0 * 1024 + 1 * p.val; rw [e90]; omega
  | ⟨1, _⟩ => show q.val = win2_9.index t 1 * 32 + 1 * q.val; rw [e91]; omega

/-- An entry of the layer's output array is in point t's block iff each coordinate is in the block's range on its axis. -/
theorem mem_blk8 (t : Fin cfg2.N) (i : S8192x512.Idx) :
    i ∈ ((cfg2.win 8).blk t).view.set ↔ ∀ a : Fin 2, win2_8.index t a * S1024x512.size a ≤ (i a).val ∧ (i a).val < win2_8.index t a * S1024x512.size a + S1024x512.size a := by
  show i ∈ ((View.whole main_v15_0).slice (win2_8.rect t)).set ↔ _
  rw [View.set_slice_whole, Rect.mem_set_unit]
  exact Iff.rfl

/-- THE LAYER: after the region the first output array holds the second graph layer of the arrays the region found. -/
theorem final2_layer (c : Dev nD) : (dat2 (F := Ideal) V c).arrAt 8 cfg2.N = Cert.Spec.layer (V c main_v12) (V c main_v0_1) (V c main_v11) (V c main_v6) (V c main_v13) :=
  (dat2 V c).arrAt_eq_of_cover 8 (layerOut2 V c) (flushed2_8_eq V c) fun i => by
    have hN : cfg2.N = 64 := N_2
    have hi0 : (i 0 : ℕ) < 8192 := (i 0).isLt
    have hi1 : (i 1 : ℕ) < 512 := (i 1).isLt
    have hT : 8 * ((i 0 : ℕ) / 1024) + 7 < cfg2.N := by omega
    obtain ⟨e00, e01, e10, e11, e20, e21, e30, e31, e40, e41, e50, e51, e60, e61, e70, e71, e80, e81, e90, e91, eo0, eo1⟩ := idx2_facts ⟨8 * ((i 0 : ℕ) / 1024) + 7, hT⟩
    have f0 : win2_8.index ⟨8 * ((i 0 : ℕ) / 1024) + 7, hT⟩ 0 = (8 * ((i 0 : ℕ) / 1024) + 7) / 8 := e80
    refine ⟨⟨8 * ((i 0 : ℕ) / 1024) + 7, hT⟩, (flush2_8 _).mpr (by show (8 * ((i 0 : ℕ) / 1024) + 7) % 8 = 7; omega), ?_⟩
    rw [mem_blk8]
    intro b
    match b with
    | ⟨0, _⟩ =>
      show win2_8.index ⟨8 * ((i 0 : ℕ) / 1024) + 7, hT⟩ 0 * 1024 ≤ (i 0 : ℕ) ∧ (i 0 : ℕ) < win2_8.index ⟨8 * ((i 0 : ℕ) / 1024) + 7, hT⟩ 0 * 1024 + 1024
      rw [f0]; omega
    | ⟨1, _⟩ =>
      show win2_8.index ⟨8 * ((i 0 : ℕ) / 1024) + 7, hT⟩ 1 * 512 ≤ (i 1 : ℕ) ∧ (i 1 : ℕ) < win2_8.index ⟨8 * ((i 0 : ℕ) / 1024) + 7, hT⟩ 1 * 512 + 512
      rw [e81]; omega

/-- An entry of the logits array is in point t's block iff each coordinate is in the block's range on its axis. -/
theorem mem_blk9 (t : Fin cfg2.N) (i : S8192x32.Idx) :
    i ∈ ((cfg2.win 9).blk t).view.set ↔ ∀ a : Fin 2, win2_9.index t a * S1024x32.size a ≤ (i a).val ∧ (i a).val < win2_9.index t a * S1024x32.size a + S1024x32.size a := by
  show i ∈ ((View.whole main_v15_1).slice (win2_9.rect t)).set ↔ _
  rw [View.set_slice_whole, Rect.mem_set_unit]
  exact Iff.rfl

/-- THE HEAD: after the region the second output array holds the classifier head of that layer. -/
theorem final2_head (c : Dev nD) : (dat2 (F := Ideal) V c).arrAt 9 cfg2.N = Cert.Spec.head (Cert.Spec.layer (V c main_v12) (V c main_v0_1) (V c main_v11) (V c main_v6) (V c main_v13)) (V c main_v8) (V c main_v14) :=
  (dat2 V c).arrAt_eq_of_cover 9 (headOut2 V c) (flushed2_9_eq V c) fun i => by
    have hN : cfg2.N = 64 := N_2
    have hi0 : (i 0 : ℕ) < 8192 := (i 0).isLt
    have hi1 : (i 1 : ℕ) < 32 := (i 1).isLt
    have hT : 8 * ((i 0 : ℕ) / 1024) + 7 < cfg2.N := by omega
    obtain ⟨e00, e01, e10, e11, e20, e21, e30, e31, e40, e41, e50, e51, e60, e61, e70, e71, e80, e81, e90, e91, eo0, eo1⟩ := idx2_facts ⟨8 * ((i 0 : ℕ) / 1024) + 7, hT⟩
    have f0 : win2_9.index ⟨8 * ((i 0 : ℕ) / 1024) + 7, hT⟩ 0 = (8 * ((i 0 : ℕ) / 1024) + 7) / 8 := e90
    refine ⟨⟨8 * ((i 0 : ℕ) / 1024) + 7, hT⟩, (flush2_9 _).mpr (by show (8 * ((i 0 : ℕ) / 1024) + 7) % 8 = 7; omega), ?_⟩
    rw [mem_blk9]
    intro b
    match b with
    | ⟨0, _⟩ =>
      show win2_9.index ⟨8 * ((i 0 : ℕ) / 1024) + 7, hT⟩ 0 * 1024 ≤ (i 0 : ℕ) ∧ (i 0 : ℕ) < win2_9.index ⟨8 * ((i 0 : ℕ) / 1024) + 7, hT⟩ 0 * 1024 + 1024
      rw [f0]; omega
    | ⟨1, _⟩ =>
      show win2_9.index ⟨8 * ((i 0 : ℕ) / 1024) + 7, hT⟩ 1 * 32 ≤ (i 1 : ℕ) ∧ (i 1 : ℕ) < win2_9.index ⟨8 * ((i 0 : ℕ) / 1024) + 7, hT⟩ 1 * 32 + 32
      rw [e91]; omega
/-- The first result under the name the assembly cites. -/
theorem final2a (c : Dev nD) : (dat2 (F := Ideal) V c).arrAt 8 cfg2.N
    = Cert.Spec.layer (V c main_v12) (V c main_v0_1) (V c main_v11) (V c main_v6) (V c main_v13) :=
  final2_layer V c

/-- The second result, stated over what the first output array holds after the region. -/
theorem final2b (c : Dev nD) : (dat2 (F := Ideal) V c).arrAt 9 cfg2.N
    = Cert.Spec.head ((dat2 (F := Ideal) V c).arrAt 8 cfg2.N) (V c main_v8) (V c main_v14) := by
  rw [final2a V c]
  exact final2_head V c

end Cert.KernelIdeal.Hand

end
-- ==== Proof.RefRun.lean ====
/-
  The reference's run, with its results in the kernel's arrangement.

  Every weakly fair execution of the reference terminates with its two result buffers at the composed term of
  its arguments; under the precondition on those arguments that term is the two layers and the classifier head
  of the specification, in the arrangement the kernel computes them in. The arguments end unchanged.
-/
import proofs.«123374_j59193239273550_2_alg».proof.Proof.RefLaw

noncomputable section

namespace Cert.ReferenceIdeal.RefValue

open Cert.ReferenceIdeal Cert.ReferenceIdeal.Gen Cert.ReferenceIdeal.Value Cert.ReferenceIdeal.Read Idealize.ShloMosaic
  Idealize.ShloMosaic.TcCoe Idealize.ShloMosaic.ValueIdx Idealize.SL.Sem Idealize.ShloMosaic.StableHlo Cert

/-- From any memory whose argument arrays satisfy the precondition on every device: the reference terminates
    with its first result at the two layers in the kernel's arrangement, its second at the classifier head on
    them, and its arguments unchanged. -/
theorem run_spec [Cert.Pre_finite_inputs.Facts] (m : (ℓ : Loc nD τ sig) → Buf (Elt Ideal) ℓ) (ρ : Dev nD → PrngReg)
    (hpre : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    θ_run (defs (F := Ideal)) (onTc (τ := τ) (main (F := Ideal))) ⟨m, fun _ => 0, ρ⟩ fun r => ∀ c : Dev nD,
      r.2.mem ((c.tc : Thread nD τ).loc main_v21) = H2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v26)
          = Spec.head (H2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
              (fun q : (⟨2, ![512, 32]⟩ : Shape).Idx => (m ((c.tc : Thread nD τ).loc main_arg6)) (ix2 (q 1) (q 0)))
              (fun q : (⟨2, ![1, 32]⟩ : Shape).Idx => (m ((c.tc : Thread nD τ).loc main_arg7)) (ix1 (q 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run (defs (F := Ideal)) _ _).mono (fun _ h c => ?_) (Cert.ReferenceIdeal.Value.run (F := Ideal) m ρ)
  obtain ⟨h21, h26, rest⟩ := h c
  obtain ⟨e0, e1⟩ := ref_of_pre _ _ _ _ _ _ _ _ (hpre c)
  exact ⟨h21.trans ((val_main_v21_eq _ _ _ _ _ _).trans e0), h26.trans ((val_main_v26_eq _ _ _ _ _ _ _ _).trans e1), rest⟩

end Cert.ReferenceIdeal.RefValue

end
-- ==== Proof.lean ====
/-
  Two-layer graph convolution: the kernel against its reference.

  The reference forms d = 1/√(column sums of A), scales A on both sides, Ã = diag(d) A diag(d), and computes
  h₁ = max(Ã x W₁ᵗ + b₁, 0), h₂ = max(Ã h₁ W₂ᵗ + b₂, 0), out = h₂ W₃ᵗ + b₃. The kernel never forms Ã: a first pass sums
  the columns of A tile by tile (and copies A to half precision, the identity on extended reals); each layer then scales
  the rows of its input by d, multiplies by A accumulating over eight column tiles, scales the rows of the product by d,
  and applies the linear map, the bias and the clamp in the last tile's epilogue.
  The two agree where d(i) distributes over the sum over j, which on the extended reals needs d finite: hence the
  precondition that every column sum of A is positive (1/√ of a non-positive sum is +∞ or undefined in the reference
  itself). Under it and the finiteness of the inputs every intermediate is a real, and the two arrangements are equal by
  the ring laws.
  The frames: each program runs to the end without fault and leaves its arguments as launched — the kernel's three
  regions each as an item of the run, entered and left with every buffer at named contents; the reference by its run.
-/
import proofs.«123374_j59193239273550_2_alg».proof.Defs
import proofs.«123374_j59193239273550_2_alg».proof.Proof.Gen.Kernel
import proofs.«123374_j59193239273550_2_alg».proof.Proof.Gen.KernelIdeal
import proofs.«123374_j59193239273550_2_alg».proof.Proof.Gen.ReferenceIdeal
import proofs.«123374_j59193239273550_2_alg».proof.Proof.Gen.ReferenceIdeal.Run
import proofs.«123374_j59193239273550_2_alg».proof.Proof.Gen.Pre_finite_inputs
import proofs.«123374_j59193239273550_2_alg».proof.Proof.K.Regs
import proofs.«123374_j59193239273550_2_alg».proof.Proof.KI.Regs
import proofs.«123374_j59193239273550_2_alg».proof.Proof.KI.HostRead
import proofs.«123374_j59193239273550_2_alg».proof.Proof.KI.R1Value
import proofs.«123374_j59193239273550_2_alg».proof.Proof.KI.R2Value
import proofs.«123374_j59193239273550_2_alg».proof.Proof.RefRun
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k [Cert.Kernel.Facts] [Cert.Pre_finite_inputs.Facts] : Cert.frame_Kernel := fun m ρ _ => Cert.Kernel.Hand.frame m ρ
theorem frame_ki [Cert.KernelIdeal.Facts] [Cert.Pre_finite_inputs.Facts] : Cert.frame_KernelIdeal := fun m ρ _ => Cert.KernelIdeal.Hand.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- At the ideal instance, from memories agreeing on the arguments: the kernel's two result buffers end at what its third
    region leaves, which the three regions' values and the host lines between them read as the two layers and the head
    of the specification; the reference's end at the same two terms of its own arguments, which are the kernel's. -/
theorem algebraic [Cert.KernelIdeal.Facts] [Cert.ReferenceIdeal.Facts] [Cert.Pre_finite_inputs.Facts] : Cert.algebraic_KernelIdeal_ReferenceIdeal := by
  intro m g m' g' hpre hagree
  refine ⟨fun c => Cert.KernelIdeal.Hand.X5 m c Cert.KernelIdeal.main_v15_0, fun c => Cert.KernelIdeal.Hand.X5 m c Cert.KernelIdeal.main_v15_1,
    Cert.KernelIdeal.Hand.run_value (F := Ideal) m g, ?_⟩
  have hpre' : ∀ c : Dev Cert.ReferenceIdeal.nD, Cert.Pre_finite_inputs.fn (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = fun _ => 1#1 := fun c => by
    obtain ⟨a0, a1, a2, a3, a4, a5, a6, a7⟩ := hagree c
    rw [a0, a1, a2, a3, a4, a5, a6, a7]; exact hpre c
  refine (θ_run Cert.ReferenceIdeal.defs _ _).mono (fun r h c => ?_) (Cert.ReferenceIdeal.RefValue.run_spec m' g' hpre')
  obtain ⟨h21, h26, rest⟩ := h c
  obtain ⟨a0, a1, a2, a3, a4, a5, a6, a7⟩ := hagree c
  obtain ⟨kv0, kv1⟩ := Cert.KernelIdeal.Hand.kernel_value m Cert.KernelIdeal.Hand.final1 Cert.KernelIdeal.Hand.final2a Cert.KernelIdeal.Hand.final2b c
  refine ⟨h21.trans ?_, h26.trans ?_, rest⟩
  · rw [a0, a1, a2, a3, a4, a5]; exact kv0.symm
  · rw [a0, a1, a2, a3, a4, a5, a6, a7]; exact kv1.symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
